-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x800000 : Shape := ⟨2, ![2, 800000]⟩
abbrev S4x128 : Shape := ⟨2, ![4, 128]⟩
abbrev S128 : Shape := ⟨1, ![128]⟩
abbrev S128x128 : Shape := ⟨2, ![128, 128]⟩
abbrev S256x128 : Shape := ⟨2, ![256, 128]⟩
abbrev S128x3 : Shape := ⟨2, ![128, 3]⟩
abbrev S3 : Shape := ⟨1, ![3]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S128x3 .f32) (main_arg13 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x3 .f32 := Host.absf main_arg12
  let main_cst_20 : FVec F S_ .f32 := constant S_ .f32 0x7F800000#32
  let main_v55 : FVec F S128x3 .f32 := broadcastInDim S128x3 ![] bcast_S_S128x3 main_cst_20
  let main_v56 : IVec S128x3 1 := cmpf .olt main_v54 main_v55
  let main_c_21 : IVec S_ 1 := constantI S_ 1 1#1
  let main_v57 : IVec S_ 1 := (fun x v => Host.reduce IntOp.andi x v reducesTo_S128x3_S_d0_1 h_S_) main_v56 main_c_21
  let main_v58 : IVec S_ 1 := andi main_v53 main_v57
  let main_v59 : FVec F S3 .f32 := Host.absf main_arg13
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S256x128 .f32) (main_arg11 : FVec F S128 .f32) (main_arg12 : FVec F S128x3 .f32) (main_arg13 : FVec F S3 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x3 .f32) (main_arg13 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x4 .f32) (main_arg1 : IVec S2x800000 32) (main_arg2 : FVec F S4x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x3 .f32) (main_arg13 : FVec F S3 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x4 : Shape := ⟨2, ![50000, 4]⟩
abbrev S2x800000 : Shape := ⟨2, ![2, 800000]⟩
abbrev S4x128 : Shape := ⟨2, ![4, 128]⟩
abbrev S128 : Shape := ⟨1, ![128]⟩
abbrev S128x128 : Shape := ⟨2, ![128, 128]⟩
abbrev S256x128 : Shape := ⟨2, ![256, 128]⟩
abbrev S128x3 : Shape := ⟨2, ![128, 3]⟩
abbrev S3 : Shape := ⟨1, ![3]⟩
abbrev S1x128 : Shape := ⟨2, ![1, 128]⟩
abbrev S50000x128 : Shape := ⟨2, ![50000, 128]⟩
abbrev S5000x4 : Shape := ⟨2, ![5000, 4]⟩
abbrev S5000x128 : Shape := ⟨2, ![5000, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x1 : Shape := ⟨2, ![5000, 1]⟩
abbrev S850000x128 : Shape := ⟨2, ![850000, 128]⟩
abbrev S800000x1 : Shape := ⟨2, ![800000, 1]⟩
abbrev S800000x128 : Shape := ⟨2, ![800000, 128]⟩
abbrev S800000x256 : Shape := ⟨2, ![800000, 256]⟩
abbrev S1x3 : Shape := ⟨2, ![1, 3]⟩
abbrev S800000x3 : Shape := ⟨2, ![800000, 3]⟩
abbrev S8000x256 : Shape := ⟨2, ![8000, 256]⟩
abbrev S8000x3 : Shape := ⟨2, ![8000, 3]⟩
abbrev S8000x128 : Shape := ⟨2, ![8000, 128]⟩

abbrev nBuf : Space → Nat
  | .hbm => 115
  | .vmem => 56
  | .smem => 0
  | _ => 0

abbrev bufTy : (tb : Table) → Fin (tcTables nBuf tb) → BufTy
  | .hbm, ⟨0, _⟩ => ⟨S50000x4, .f32⟩
  | .hbm, ⟨1, _⟩ => ⟨S2x800000, .i32⟩
  | .hbm, ⟨2, _⟩ => ⟨S4x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x3, .f32⟩
  | .hbm, ⟨13, _⟩ => ⟨S3, .f32⟩
  | .hbm, ⟨14, _⟩ => ⟨S1x128, .f32⟩
  | .hbm, ⟨15, _⟩ => ⟨S50000x128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000, .i32⟩
  | .hbm, ⟨21, _⟩ => ⟨S850000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x128, .f32⟩
  | .hbm, ⟨51, _⟩ => ⟨S_, .f32⟩
  | .hbm, ⟨52, _⟩ => ⟨S50000x128, .f32⟩
  | .hbm, ⟨53, _⟩ => ⟨S850000x1, .i32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .bf16⟩
  | .hbm, ⟨89, _⟩ => ⟨S1x800000, .i32⟩
  | .hbm, ⟨90, _⟩ => ⟨S800000, .i32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .bf16⟩
  | .hbm, ⟨100, _⟩ => ⟨S1x800000, .i32⟩
  | .hbm, ⟨101, _⟩ => ⟨S800000, .i32⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x128, .bf16⟩
  | .hbm, ⟨111, _⟩ => ⟨S800000x256, .bf16⟩
  | .hbm, ⟨112, _⟩ => ⟨S1x128, .f32⟩
  | .hbm, ⟨113, _⟩ => ⟨S1x3, .f32⟩
  | .hbm, ⟨114, _⟩ => ⟨S800000x3, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x1, .f32⟩
  | .local _ .vmem, ⟨38, _⟩ => ⟨S5000x1, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S5000x128, .bf16⟩
  | .local _ .vmem, ⟨47, _⟩ => ⟨S5000x128, .bf16⟩
  | .local _ .vmem, ⟨48, _⟩ => ⟨S8000x256, .bf16⟩
  | .local _ .vmem, ⟨49, _⟩ => ⟨S8000x256, .bf16⟩
  | .local _ .vmem, ⟨50, _⟩ => ⟨S256x128, .f32⟩
  | .local _ .vmem, ⟨51, _⟩ => ⟨S1x128, .f32⟩
  | .local _ .vmem, ⟨52, _⟩ => ⟨S128x3, .f32⟩
  | .local _ .vmem, ⟨53, _⟩ => ⟨S1x3, .f32⟩
  | .local _ .vmem, ⟨54, _⟩ => ⟨S8000x3, .f32⟩
  | .local _ .vmem, ⟨55, _⟩ => ⟨S8000x3, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem5_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x3 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x3 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S8000x3 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  shapeCasts_S3_S1x3 : S3.ShapeCasts S1x3
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x128_S256x128_0_0 : ∀ a, (![0, 0] : Fin 2 → Nat) a + S256x128.size a ≤ S256x128.size a
  h_S256x128 : 0 < S256x128.numel
  broadcasts_S1x128_S8000x128 : S1x128.Broadcasts S8000x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8000x3 : S1x3.Broadcasts S8000x3
  inb_S8000x3_S8000x3_0_0 : ∀ a, (![0, 0] : Fin 2 → Nat) a + S8000x3.size a ≤ S8000x3.size a
  h_S8000x3 : 0 < S8000x3.numel
  dot_S5000x4_S4x128_S5000x128_1_0_0_1_n_n_wf : DotDims.WF S5000x4 S4x128 S5000x128 [1] [0] [0] [1] [] []
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S8000x256_S256x128_S8000x128_1_0_0_1_n_n_wf : DotDims.WF S8000x256 S256x128 S8000x128 [1] [0] [0] [1] [] []
  dot_S8000x128_S128x3_S8000x3_1_0_0_1_n_n_wf : DotDims.WF S8000x128 S128x3 S8000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S50000x4.size a
  hwx0_0 : ∀ i : grid0.Coords, EltTy.bits .f32 = 32 ∨ (Rect.block (s := S50000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .bf16 = 32 ∨ (Rect.block (s := S50000x128) S5000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x256.size a ≤ S800000x256.size a
  hwx7_0 : ∀ i : grid7.Coords, EltTy.bits .bf16 = 32 ∨ (Rect.block (s := S800000x256) S8000x256.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x3.size a ≤ S128x3.size a
  hwx7_3 : ∀ i : grid7.Coords, EltTy.bits .f32 = 32 ∨ (Rect.block (s := S128x3) S128x3.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x3.size a ≤ S1x3.size a
  hwx7_4 : ∀ i : grid7.Coords, EltTy.bits .f32 = 32 ∨ (Rect.block (s := S1x3) S1x3.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S8000x3.size a ≤ S800000x3.size a
  hwx7_5 : ∀ i : grid7.Coords, EltTy.bits .f32 = 32 ∨ (Rect.block (s := S800000x3) S8000x3.size (cc7_transform_5 i) (hinb7_5 i)).WholeWords (EltTy.packing .f32)

variable [Facts₀]

def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def dot_S8000x128_S128x3_S8000x3_1_0_0_1_n_n : DotDims S8000x128 S128x3 S8000x3 where
  lhsContracting := [1]
  rhsContracting := [0]
  lhsNonContracting := [0]
  rhsNonContracting := [1]
  lhsBatch := []
  rhsBatch := []
  wf := dot_S8000x128_S128x3_S8000x3_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v33) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v45) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v19) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v46) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v56) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v19) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v57) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v58) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v77) S8000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v78) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S128x3.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v79) S1x3.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v80) S8000x3.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x4 : Shape := ⟨2, ![50000, 4]⟩
abbrev S2x800000 : Shape := ⟨2, ![2, 800000]⟩
abbrev S4x128 : Shape := ⟨2, ![4, 128]⟩
abbrev S128 : Shape := ⟨1, ![128]⟩
abbrev S128x128 : Shape := ⟨2, ![128, 128]⟩
abbrev S256x128 : Shape := ⟨2, ![256, 128]⟩
abbrev S128x3 : Shape := ⟨2, ![128, 3]⟩
abbrev S3 : Shape := ⟨1, ![3]⟩
abbrev S50000x128 : Shape := ⟨2, ![50000, 128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S800000x1 : Shape := ⟨2, ![800000, 1]⟩
abbrev S800000x128 : Shape := ⟨2, ![800000, 128]⟩
abbrev S800000x256 : Shape := ⟨2, ![800000, 256]⟩
abbrev S800000x3 : Shape := ⟨2, ![800000, 3]⟩
abbrev S1x3 : Shape := ⟨2, ![1, 3]⟩

abbrev nBuf : Space → Nat
  | .hbm => 166
  | .vmem => 0
  | .smem => 0
  | _ => 0

abbrev hbmTy0_0 (i : Nat) : BufTy := match i % 128 with
  | 0 => ⟨S50000x4, .f32⟩
  | 1 => ⟨S2x800000, .i32⟩
  | 2 => ⟨S4x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x3, .f32⟩
  | 13 => ⟨S3, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S1x800000, .i32⟩
  | 22 => ⟨S800000, .i32⟩
  | 23 => ⟨S50000, .i32⟩
  | 24 => ⟨S850000, .i32⟩
  | 25 => ⟨S1x800000, .i32⟩
  | 26 => ⟨S800000, .i32⟩
  | 27 => ⟨S50000, .i32⟩
  | 28 => ⟨S850000, .i32⟩
  | 29 => ⟨S_, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S_, .f32⟩
  | 36 => ⟨S50000, .f32⟩
  | 37 => ⟨S50000, .i1⟩
  | 38 => ⟨S_, .f32⟩
  | 39 => ⟨S50000, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S850000, .f32⟩
  | 65 => ⟨S850000x1, .f32⟩
  | 66 => ⟨S50000x128, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x128, .f32⟩
  | 76 => ⟨S850000x128, .f32⟩
  | 77 => ⟨S850000x128, .f32⟩
  | 78 => ⟨S_, .f32⟩
  | 79 => ⟨S50000x128, .f32⟩
  | 80 => ⟨S850000x1, .i32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x128, .f32⟩
  | 98 => ⟨S850000x128, .f32⟩
  | 99 => ⟨S850000x128, .f32⟩
  | 100 => ⟨S_, .f32⟩
  | 101 => ⟨S50000x128, .f32⟩
  | 102 => ⟨S850000x1, .i32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x4, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S1x800000, .i32⟩
  | 5 => ⟨S800000, .i32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S800000x256, .f32⟩
  | 27 => ⟨S800000x128, .f32⟩
  | 28 => ⟨S1x128, .f32⟩
  | 29 => ⟨S800000x128, .f32⟩
  | 30 => ⟨S800000x128, .f32⟩
  | 31 => ⟨S_, .f32⟩
  | 32 => ⟨S800000x128, .f32⟩
  | 33 => ⟨S800000x128, .f32⟩
  | 34 => ⟨S800000x3, .f32⟩
  | 35 => ⟨S1x3, .f32⟩
  | 36 => ⟨S800000x3, .f32⟩
  | 37 => ⟨S800000x3, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call2_cst : Ref sig .tc := ⟨.hbm, 85, rfl⟩
abbrev main_call2_v0 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call3_cst : Ref sig .tc := ⟨.hbm, 107, rfl⟩
abbrev main_call3_v0 : Ref sig .tc := ⟨.hbm, 108, rfl⟩
abbrev main_v72 : Ref sig .tc := ⟨.hbm, 109, rfl⟩
abbrev main_v73 : Ref sig .tc := ⟨.hbm, 110, rfl⟩
abbrev main_c_13 : Ref sig .tc := ⟨.hbm, 111, rfl⟩
abbrev main_v74 : Ref sig .tc := ⟨.hbm, 112, rfl⟩
abbrev main_v75 : Ref sig .tc := ⟨.hbm, 113, rfl⟩
abbrev main_c_14 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_15 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_call4_cst : Ref sig .tc := ⟨.hbm, 129, rfl⟩
abbrev main_call4_v0 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_16 : Ref sig .tc := ⟨.hbm, 134, rfl⟩
abbrev main_v92 : Ref sig .tc := ⟨.hbm, 135, rfl⟩
abbrev main_v93 : Ref sig .tc := ⟨.hbm, 136, rfl⟩
abbrev main_c_17 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_18 : Ref sig .tc := ⟨.hbm, 145, rfl⟩
abbrev main_v101 : Ref sig .tc := ⟨.hbm, 146, rfl⟩
abbrev main_v102 : Ref sig .tc := ⟨.hbm, 147, rfl⟩
abbrev main_c_19 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_call5_cst : Ref sig .tc := ⟨.hbm, 159, rfl⟩
abbrev main_call5_v0 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S3_S1x3_1 : S3.BroadcastsInDim S1x3 (![1] : Fin 1 → Fin S1x3.rank)
  bcast_S1x3_S800000x3_0_1 : S1x3.BroadcastsInDim S800000x3 (![0, 1] : Fin 2 → Fin S800000x3.rank)
  dot_S50000x4_S4x128_S50000x128_1_0_0_1_n_n_wf : DotDims.WF S50000x4 S4x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x3_S800000x3_1_0_0_1_n_n_wf : DotDims.WF S800000x128 S128x3 S800000x3 [1] [0] [0] [1] [] []

variable [Facts₀]

def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x3_S800000x3_1_0_0_1_n_n : DotDims S800000x128 S128x3 S800000x3 where
  lhsContracting := [1]
  rhsContracting := [0]
  lhsNonContracting := [0]
  rhsNonContracting := [1]
  lhsBatch := []
  rhsBatch := []
  wf := dot_S800000x128_S128x3_S800000x3_1_0_0_1_n_n_wf

class Facts : Prop extends Facts₀ where

variable [Facts]
-- ==== Proof.KRun.lean ====
/-
  The idealized kernel's run with its result named.

  The kernel's @main is sixteen segments: eight stretches of host operations and eight pipelined regions. The launch
  theorem for such a program ends with every unscoped buffer of a core at the contents of the last segment boundary,
  a fold through the segments from the launch memory (`Gen.W16`). The frame reads fourteen of those buffers, the
  arguments; here the same launch is read at one buffer more, the result `main_v80`, which therefore ends at the
  last boundary's contents of that buffer. What those contents are, as a function of the arguments, is the business of
  the modules that read the fold.
-/
import proofs.«179396_j45741401703144_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel's @main terminates, nothing faulting, with the result buffer at the last
    boundary's contents and the fourteen argument arrays as launched. -/
theorem run_named : θ_run defs (onTc (τ := τ) (main (F := F))) ⟨m, fun _ => 0, ρ⟩ (fun r => ∀ c : Dev nD,
      r.2.mem ((c.tc : Thread nD τ).loc main_v80) = W16 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v80 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.KRun

end
-- ==== Proof.LibRegionOp.lean ====
/-
  A pipelined region with one output array, read as one more line of the host program around it.

  A region's exit contents are its entry contents with the pipeline's arrays replaced by what the pipeline leaves in
  them. When every array but one is left as the region found it, and that one holds the value a host operation
  writing only that array would have computed from the entry contents, the exit contents ARE that operation's
  result on the entry contents. A program of several regions among host lines then reads, buffer by buffer, as one
  straight line of operations.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at window `o`'s array,
    where they hold what `op` — an operation writing that array only — computes from `V`: they are `op.result V`,
    at every buffer of the device. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (o : Fin W) (op : HloOp τ sig Val)
    (hw : op.writes = {Proc.devRef .tc (arrRef win o)})
    (hin : ∀ w, w ≠ o → A w = V (Proc.devRef .tc (arrRef win w)))
    (hout : A o = op.result V (Proc.devRef .tc (arrRef win o))) :
    withArrays win c V A = op.result V := by
  funext b
  by_cases h : ∃ w, Proc.devRef .tc (arrRef win w) = b
  · obtain ⟨w, rfl⟩ := h
    rw [withArrays_arr win hinj c V A w]
    by_cases hwo : w = o
    · subst hwo; exact hout
    · rw [hin w hwo]
      refine (op.result_of_not_mem V ?_).symm
      rw [hw, Finset.mem_singleton]
      exact fun e => hwo (hinj (Proc.devRef_injective _ e))
  · have hb : withArrays win c V A b = V b := by unfold withArrays; rw [dif_neg h]
    rw [hb]
    refine (op.result_of_not_mem V ?_).symm
    rw [hw, Finset.mem_singleton]
    exact fun e => h ⟨o, e.symm⟩

end Cert.RegionOp

end
-- ==== Proof.Spec.lean ====
/-
  The four whole-array functions that the eight pipelined regions of the kernel compute, on the extended reals.

  Every region works on blocks of rows, and every row of its result depends only on the same row of its row-blocked
  operands and on the whole of its small operands, so each region's result array is one function of its operand
  arrays, written here index by index:

  * `encRows`  : a row of the node encoder, `max (x·W + b) 0`;
  * `linRows`  : a row of a graph layer's weight transform scaled by the node's own factor, `(h·W) · d`;
  * `brsRows`  : a row of a graph layer's closing step, `max (a · d + b) 0`;
  * `mlpRows`  : a row of the edge classifier, `max (e·W₁ + b₁) 0 · W₂ + b₂`.

  A matrix product is the sum over the contracted coordinate. A bias arrives as a one-row matrix and a node factor as
  a one-column matrix, as the regions receive them.
-/
import Idealize.ShloMosaic.PureOps.Ideal
import Idealize.ShloMosaic.Lib.ValueIdx

noncomputable section

open scoped BigOperators

namespace Cert.Spec

open Idealize.ShloMosaic Idealize.ShloMosaic.ValueIdx

/-- An `a × b` array of extended reals. -/
abbrev Mat (a b : Nat) : Type := (⟨2, ![a, b]⟩ : Shape).Idx → EReal

/-- The node encoder: row `n`, column `c` is `max (∑ₖ x[n,k]·w[k,c] + b[0,c]) 0`. -/
def encRows (x : Mat 50000 4) (w : Mat 4 128) (b : Mat 1 128) : Mat 50000 128 :=
  fun i => max ((∑ k : Fin 4, x (ix2 (i 0) k) * w (ix2 k (i 1))) + b (ix2 0 (i 1))) 0

/-- A layer's weight transform, each row scaled by its node's factor: `(∑ₖ h[n,k]·w[k,c]) · d[n,0]`. -/
def linRows (h : Mat 50000 128) (w : Mat 128 128) (d : Mat 50000 1) : Mat 50000 128 :=
  fun i => (∑ k : Fin 128, h (ix2 (i 0) k) * w (ix2 k (i 1))) * d (ix2 (i 0) 0)

/-- A layer's closing step: `max (a[n,c] · d[n,0] + b[0,c]) 0`. -/
def brsRows (a : Mat 50000 128) (d : Mat 50000 1) (b : Mat 1 128) : Mat 50000 128 :=
  fun i => max (a i * d (ix2 (i 0) 0) + b (ix2 0 (i 1))) 0

/-- The edge classifier: `∑ₖ max (∑_q e[r,q]·w₁[q,k] + b₁[0,k]) 0 · w₂[k,j] + b₂[0,j]`. -/
def mlpRows (e : Mat 800000 256) (w1 : Mat 256 128) (b1 : Mat 1 128) (w2 : Mat 128 3) (b2 : Mat 1 3) : Mat 800000 3 :=
  fun i => (∑ k : Fin 128, max ((∑ q : Fin 256, e (ix2 (i 0) q) * w1 (ix2 q k)) + b1 (ix2 0 k)) 0 * w2 (ix2 k (i 1)))
    + b2 (ix2 0 (i 1))

theorem encRows_apply (x : Mat 50000 4) (w : Mat 4 128) (b : Mat 1 128) (n : Fin 50000) (c : Fin 128) :
    encRows x w b (ix2 n c) = max ((∑ k : Fin 4, x (ix2 n k) * w (ix2 k c)) + b (ix2 0 c)) 0 := rfl

theorem linRows_apply (h : Mat 50000 128) (w : Mat 128 128) (d : Mat 50000 1) (n : Fin 50000) (c : Fin 128) :
    linRows h w d (ix2 n c) = (∑ k : Fin 128, h (ix2 n k) * w (ix2 k c)) * d (ix2 n 0) := rfl

theorem brsRows_apply (a : Mat 50000 128) (d : Mat 50000 1) (b : Mat 1 128) (n : Fin 50000) (c : Fin 128) :
    brsRows a d b (ix2 n c) = max (a (ix2 n c) * d (ix2 n 0) + b (ix2 0 c)) 0 := rfl

theorem mlpRows_apply (e : Mat 800000 256) (w1 : Mat 256 128) (b1 : Mat 1 128) (w2 : Mat 128 3) (b2 : Mat 1 3)
    (r : Fin 800000) (j : Fin 3) :
    mlpRows e w1 b1 w2 b2 (ix2 r j)
      = (∑ k : Fin 128, max ((∑ q : Fin 256, e (ix2 r q) * w1 (ix2 q k)) + b1 (ix2 0 k)) 0 * w2 (ix2 k j))
        + b2 (ix2 0 j) := rfl

end Cert.Spec

end
-- ==== Proof.Stages.lean ====
/-
  The stages of the two programs, as functions of arrays, on the extended reals.

  Both programs compute a node encoder, three graph layers and an edge classifier from the same edge words. They share
  the words' bookkeeping — the message sources and destinations (the edges followed by one self-loop per node), the
  source words with negative values wrapped, the node factor `d = where (deg > 0) (rsqrt (max deg 1)) 0` of the
  destination counts — and that shared part is named here by the reference's own stages (`val_main_v…` of the
  reference read one operation at a time). The programs differ in a layer: the reference scales message `e` by
  `d[src e] · d[dst e]` before it adds the messages of each destination, the kernel scales row `n` of the transformed
  features by `d[n]` before the messages are gathered and the sum of node `n` by `d[n]` afterwards.
  `kEnc`, `kLayer`, `kTail` are the kernel's stages (its regions are the functions of Spec.lean), `rLayer`, `rTail` the
  reference's; the reference's encoder is its stage `val_main_v4`.
-/
import proofs.«179396_j45741401703144_2_alg».proof.Proof.RefReadQ
import proofs.«179396_j45741401703144_2_alg».proof.Proof.Spec

noncomputable section

namespace Cert.Stages

open Cert.ReferenceIdeal Cert.ReferenceIdeal.Gen Cert.ReferenceIdeal.ReadP
open Idealize.ShloMosaic Idealize.ShloMosaic.ValueIdx Cert.Spec

/-- A 128-entry bias as the one-row matrix a region takes. -/
def row128 (b : FVec Ideal S128 .f32) : Mat 1 128 := shapeCast ⟨2, ![1, 128]⟩ b (by decide)

/-- A 3-entry bias as the one-row matrix a region takes. -/
def row3 (b : FVec Ideal S3 .f32) : Mat 1 3 := shapeCast ⟨2, ![1, 3]⟩ b (by decide)

/-- The node factors `d` as the one-column matrix a region takes. -/
def disCol (x1 : IVec S2x800000 32) : Mat 50000 1 :=
  shapeCast ⟨2, ![50000, 1]⟩ (val_main_v22 (F := Ideal) x1) (by decide)

/-- The kernel's node encoder. -/
def kEnc (x0 : FVec Ideal S50000x4 .f32) (x2 : FVec Ideal S4x128 .f32) (x3 : FVec Ideal S128 .f32) :
    FVec Ideal S50000x128 .f32 :=
  encRows x0 x2 (row128 x3)

/-- One graph layer as the kernel computes it: rows of `h·w` scaled by `d`, gathered at the message sources, added
    per destination, the sums scaled by `d`, bias, `max · 0`. -/
def kLayer (h : FVec Ideal S50000x128 .f32) (w : FVec Ideal S128x128 .f32) (b : FVec Ideal S128 .f32)
    (x1 : IVec S2x800000 32) : FVec Ideal S50000x128 .f32 :=
  brsRows
    (Host.scatterAdd (F := Ideal) (φ := .f32) scatter_S50000x128_S850000x1_S850000x128_1_0_0_1 (val_main_v49 (F := Ideal)) (val_main_v50 (F := Ideal) x1)
      (Host.gather gather_S50000x128_S850000x1_S850000x128_1_0_n_n_0_1_1128 (linRows h w (disCol x1)) (val_main_v45 (F := Ideal) x1)))
    (disCol x1) (row128 b)

/-- The same layer as the reference computes it: rows of `h·w` gathered at the message sources, each message scaled by
    `d[src] · d[dst]`, added per destination, bias, `max · 0`. -/
def rLayer (h : FVec Ideal S50000x128 .f32) (w : FVec Ideal S128x128 .f32) (b : FVec Ideal S128 .f32)
    (x1 : IVec S2x800000 32) : FVec Ideal S50000x128 .f32 :=
  maximumf (F := Ideal) (φ := .f32)
    (addf (F := Ideal) (φ := .f32)
      (Host.scatterAdd (F := Ideal) (φ := .f32) scatter_S50000x128_S850000x1_S850000x128_1_0_0_1 (val_main_v49 (F := Ideal)) (val_main_v50 (F := Ideal) x1)
        (mulf (F := Ideal) (φ := .f32)
          (Host.gather gather_S50000x128_S850000x1_S850000x128_1_0_n_n_0_1_1128
            (Host.dotGeneral (F := Ideal) dot_S50000x128_S128x128_S50000x128_1_0_0_1_n_n none h w) (val_main_v45 (F := Ideal) x1))
          (val_main_v47 (F := Ideal) x1)))
      (val_main_v53 (F := Ideal) b))
    (val_main_call2_v0 (F := Ideal))

/-- An edge's two endpoint rows of `h` side by side (the endpoint words with negative values wrapped). -/
def endpoints (h : FVec Ideal S50000x128 .f32) (x1 : IVec S2x800000 32) : FVec Ideal S800000x256 .f32 :=
  concatenate S800000x256 1
    [⟨S800000x128, Host.gather gather_S50000x128_S800000x1_S800000x128_1_0_n_n_0_1_1128 h (val_main_v97 (F := Ideal) x1)⟩,
     ⟨S800000x128, Host.gather gather_S50000x128_S800000x1_S800000x128_1_0_n_n_0_1_1128 h (val_main_v106 (F := Ideal) x1)⟩]
    concatenates_S800000x128_S800000x128_S800000x256_d1

/-- The kernel's edge classifier on the endpoint rows. -/
def kTail (h : FVec Ideal S50000x128 .f32) (x1 : IVec S2x800000 32) (x10 : FVec Ideal S256x128 .f32)
    (x11 : FVec Ideal S128 .f32) (x12 : FVec Ideal S128x3 .f32) (x13 : FVec Ideal S3 .f32) : FVec Ideal S800000x3 .f32 :=
  mlpRows (endpoints h x1) x10 (row128 x11) x12 (row3 x13)

/-- The reference's edge classifier on the endpoint rows. -/
def rTail (h : FVec Ideal S50000x128 .f32) (x1 : IVec S2x800000 32) (x10 : FVec Ideal S256x128 .f32)
    (x11 : FVec Ideal S128 .f32) (x12 : FVec Ideal S128x3 .f32) (x13 : FVec Ideal S3 .f32) : FVec Ideal S800000x3 .f32 :=
  addf (F := Ideal) (φ := .f32)
    (Host.dotGeneral (F := Ideal) dot_S800000x128_S128x3_S800000x3_1_0_0_1_n_n none
      (maximumf (F := Ideal) (φ := .f32)
        (addf (F := Ideal) (φ := .f32) (Host.dotGeneral (F := Ideal) dot_S800000x256_S256x128_S800000x128_1_0_0_1_n_n none (endpoints h x1) x10)
          (val_main_v111 (F := Ideal) x11))
        (val_main_call5_v0 (F := Ideal)))
      x12)
    (val_main_v116 (F := Ideal) x13)

end Cert.Stages

end
-- ==== Proof.StagesG.lean ====
/-
  The kernel's stages at any float instance, over abstract region functions.

  The kernel's @main strings its eight regions together with host operations that the reference program has too: the
  bookkeeping of the edge words, the node factors, the gathers at the message sources and the sums per destination.
  Here that string is written once, for any float instance and for ANY functions standing for what the regions compute,
  with the shared host stages named by the reference's own stages. Nothing about the regions' arithmetic enters: what
  the kernel's last buffer holds is, structurally, this string applied to the arguments. At the extended reals, with the
  regions' functions of Spec.lean, these are the stages of Stages.lean (`Stages.kEnc_eq` and its companions below).
-/
import proofs.«179396_j45741401703144_2_alg».proof.Proof.Stages

noncomputable section

namespace Cert.StagesG

open Cert.ReferenceIdeal Cert.ReferenceIdeal.Gen Cert.ReferenceIdeal.ReadP
open Idealize.ShloMosaic Idealize.ShloMosaic.ValueIdx

variable {F : FTy → Type} [FloatOps F]

/-- The shape of a one-column matrix of node factors. -/
abbrev Col : Shape := ⟨2, ![50000, 1]⟩

/-- A 128-entry bias as a one-row matrix. -/
def row128 (b : FVec F S128 .f32) : FVec F S1x128 .f32 := shapeCast S1x128 b (by decide)

/-- A 3-entry bias as a one-row matrix. -/
def row3 (b : FVec F S3 .f32) : FVec F S1x3 .f32 := shapeCast S1x3 b (by decide)

/-- The node factors as a one-column matrix. -/
def disCol (x1 : IVec S2x800000 32) : FVec F Col .f32 := shapeCast Col (val_main_v22 (F := F) x1) (by decide)

/-- The encoder region on the arguments. -/
def kEnc (fEnc : FVec F S50000x4 .f32 → FVec F S4x128 .f32 → FVec F S1x128 .f32 → FVec F S50000x128 .f32)
    (x0 : FVec F S50000x4 .f32) (x2 : FVec F S4x128 .f32) (x3 : FVec F S128 .f32) : FVec F S50000x128 .f32 :=
  fEnc x0 x2 (row128 x3)

/-- One layer: the weight-transform region, the gather at the message sources, the sum per destination, the closing
    region. -/
def kLayer {φo : FTy}
    (fLin : FVec F S50000x128 .f32 → FVec F S128x128 .f32 → FVec F Col .f32 → FVec F S50000x128 .f32)
    (fBrs : FVec F S50000x128 .f32 → FVec F Col .f32 → FVec F S1x128 .f32 → FVec F S50000x128 φo)
    (h : FVec F S50000x128 .f32) (w : FVec F S128x128 .f32) (b : FVec F S128 .f32) (x1 : IVec S2x800000 32) :
    FVec F S50000x128 φo :=
  fBrs
    (Host.scatterAdd scatter_S50000x128_S850000x1_S850000x128_1_0_0_1 (val_main_v49 (F := F)) (val_main_v50 (F := F) x1)
      (Host.gather gather_S50000x128_S850000x1_S850000x128_1_0_n_n_0_1_1128 (fLin h w (disCol x1)) (val_main_v45 (F := F) x1)))
    (disCol x1) (row128 b)

/-- An edge's two endpoint rows side by side. -/
def endpoints {φ : FTy} (h : FVec F S50000x128 φ) (x1 : IVec S2x800000 32) : FVec F S800000x256 φ :=
  concatenate S800000x256 1
    [⟨S800000x128, Host.gather gather_S50000x128_S800000x1_S800000x128_1_0_n_n_0_1_1128 h (val_main_v97 (F := F) x1)⟩,
     ⟨S800000x128, Host.gather gather_S50000x128_S800000x1_S800000x128_1_0_n_n_0_1_1128 h (val_main_v106 (F := F) x1)⟩]
    concatenates_S800000x128_S800000x128_S800000x256_d1

/-- The edge-classifier region on the endpoint rows. -/
def kTail {φ : FTy}
    (fMlp : FVec F S800000x256 φ → FVec F S256x128 .f32 → FVec F S1x128 .f32 → FVec F S128x3 .f32 → FVec F S1x3 .f32 →
      FVec F S800000x3 .f32)
    (h : FVec F S50000x128 φ) (x1 : IVec S2x800000 32) (x10 : FVec F S256x128 .f32) (x11 : FVec F S128 .f32)
    (x12 : FVec F S128x3 .f32) (x13 : FVec F S3 .f32) : FVec F S800000x3 .f32 :=
  fMlp (endpoints h x1) x10 (row128 x11) x12 (row3 x13)

end Cert.StagesG

namespace Cert.Stages

open Cert.ReferenceIdeal Idealize.ShloMosaic Cert.Spec

/-! At the extended reals every format is the same type, so the generic stages at either output format are the stages
    of this certificate. -/

theorem kEnc_eq (x0 : FVec Ideal S50000x4 .f32) (x2 : FVec Ideal S4x128 .f32) (x3 : FVec Ideal S128 .f32) :
    Cert.StagesG.kEnc (F := Ideal) encRows x0 x2 x3 = kEnc x0 x2 x3 := rfl

theorem kLayer_eq (φo : FTy) (h : FVec Ideal S50000x128 .f32) (w : FVec Ideal S128x128 .f32) (b : FVec Ideal S128 .f32)
    (x1 : IVec S2x800000 32) :
    Cert.StagesG.kLayer (F := Ideal) (φo := φo) linRows brsRows h w b x1 = kLayer h w b x1 := rfl

theorem kTail_eq (φ : FTy) (h : FVec Ideal S50000x128 .f32) (x1 : IVec S2x800000 32) (x10 : FVec Ideal S256x128 .f32)
    (x11 : FVec Ideal S128 .f32) (x12 : FVec Ideal S128x3 .f32) (x13 : FVec Ideal S3 .f32) :
    Cert.StagesG.kTail (F := Ideal) (φ := φ) mlpRows h x1 x10 x11 x12 x13 = kTail h x1 x10 x11 x12 x13 := rfl

end Cert.Stages

end
-- ==== Proof.KFold.lean ====
/-
  The kernel's last boundary, read back to the arguments, at any float instance.

  The kernel's @main is eight stretches of host operations and eight pipelined regions, and the launch theorem leaves
  every buffer of a core at a fold through those sixteen segments from the launch memory. A region changes one array:
  it leaves its operand arrays as it found them and its output array at some function of them. So a region acts on the
  core's buffers exactly as ONE more host operation would that writes that array with that function of the operand
  buffers (LibRegionOp.lean), and the fold becomes a straight line of operations, which is read, buffer by buffer, in
  one pass. Read at the result buffer, the line is the kernel's chain of stages (StagesG.lean) applied to the
  arguments' launch contents: encoder, three layers, edge classifier.
  Everything here is stated for any float instance and for ANY functions `f0 … f7` that the regions are known to
  compute (`Reg0 … Reg7`); what the regions do compute on the extended reals comes in only afterwards.
-/
import proofs.«179396_j45741401703144_2_alg».proof.Proof.Gen.KernelIdeal.Frame
import proofs.«179396_j45741401703144_2_alg».proof.Proof.LibRegionOp
import proofs.«179396_j45741401703144_2_alg».proof.Proof.StagesG

set_option maxRecDepth 16384

noncomputable section

namespace Cert.KernelIdeal.KFold

open Cert.KernelIdeal Cert.KernelIdeal.Gen
open Idealize.ShloMosaic Idealize.ShloMosaic.TcCoe Idealize.ShloMosaic.StableHlo Idealize.SL.Sem

variable {F : FTy → Type} [FloatOps F]

/-! ## What is assumed of each region -/

/-- Region 0 leaves in its output array the function `f` of its operand arrays as entered. -/
def Reg0 (f : FVec F S50000x4 .f32 → FVec F S4x128 .f32 → FVec F S1x128 .f32 → FVec F S50000x128 .f32) : Prop :=
  ∀ (V : (c : Dev nD) → (b : Ref sig .tc) → Buf (Elt F) ((c : Thread nD τ).loc b)) (c : Dev nD),
    (dat0 (F := F) V c).arrAt 3 cfg0.N = f (V c (Pipeline.arrRef spec0 0)) (V c (Pipeline.arrRef spec0 1)) (V c (Pipeline.arrRef spec0 2))

/-- Region 1 leaves in its output array the function `f` of its operand arrays as entered. -/
def Reg1 (f : FVec F S50000x128 .f32 → FVec F S128x128 .f32 → FVec F S50000x1 .f32 → FVec F S50000x128 .f32) : Prop :=
  ∀ (V : (c : Dev nD) → (b : Ref sig .tc) → Buf (Elt F) ((c : Thread nD τ).loc b)) (c : Dev nD),
    (dat1 (F := F) V c).arrAt 3 cfg1.N = f (V c (Pipeline.arrRef spec1 0)) (V c (Pipeline.arrRef spec1 1)) (V c (Pipeline.arrRef spec1 2))

/-- Region 2 leaves in its output array the function `f` of its operand arrays as entered. -/
def Reg2 (f : FVec F S50000x128 .f32 → FVec F S50000x1 .f32 → FVec F S1x128 .f32 → FVec F S50000x128 .f32) : Prop :=
  ∀ (V : (c : Dev nD) → (b : Ref sig .tc) → Buf (Elt F) ((c : Thread nD τ).loc b)) (c : Dev nD),
    (dat2 (F := F) V c).arrAt 3 cfg2.N = f (V c (Pipeline.arrRef spec2 0)) (V c (Pipeline.arrRef spec2 1)) (V c (Pipeline.arrRef spec2 2))

/-- Region 3 leaves in its output array the function `f` of its operand arrays as entered. -/
def Reg3 (f : FVec F S50000x128 .f32 → FVec F S128x128 .f32 → FVec F S50000x1 .f32 → FVec F S50000x128 .f32) : Prop :=
  ∀ (V : (c : Dev nD) → (b : Ref sig .tc) → Buf (Elt F) ((c : Thread nD τ).loc b)) (c : Dev nD),
    (dat3 (F := F) V c).arrAt 3 cfg3.N = f (V c (Pipeline.arrRef spec3 0)) (V c (Pipeline.arrRef spec3 1)) (V c (Pipeline.arrRef spec3 2))

/-- Region 4 leaves in its output array the function `f` of its operand arrays as entered. -/
def Reg4 (f : FVec F S50000x128 .f32 → FVec F S50000x1 .f32 → FVec F S1x128 .f32 → FVec F S50000x128 .f32) : Prop :=
  ∀ (V : (c : Dev nD) → (b : Ref sig .tc) → Buf (Elt F) ((c : Thread nD τ).loc b)) (c : Dev nD),
    (dat4 (F := F) V c).arrAt 3 cfg4.N = f (V c (Pipeline.arrRef spec4 0)) (V c (Pipeline.arrRef spec4 1)) (V c (Pipeline.arrRef spec4 2))

/-- Region 5 leaves in its output array the function `f` of its operand arrays as entered. -/
def Reg5 (f : FVec F S50000x128 .f32 → FVec F S128x128 .f32 → FVec F S50000x1 .f32 → FVec F S50000x128 .f32) : Prop :=
  ∀ (V : (c : Dev nD) → (b : Ref sig .tc) → Buf (Elt F) ((c : Thread nD τ).loc b)) (c : Dev nD),
    (dat5 (F := F) V c).arrAt 3 cfg5.N = f (V c (Pipeline.arrRef spec5 0)) (V c (Pipeline.arrRef spec5 1)) (V c (Pipeline.arrRef spec5 2))

/-- Region 6 leaves in its output array the function `f` of its operand arrays as entered. -/
def Reg6 (f : FVec F S50000x128 .f32 → FVec F S50000x1 .f32 → FVec F S1x128 .f32 → FVec F S50000x128 .bf16) : Prop :=
  ∀ (V : (c : Dev nD) → (b : Ref sig .tc) → Buf (Elt F) ((c : Thread nD τ).loc b)) (c : Dev nD),
    (dat6 (F := F) V c).arrAt 3 cfg6.N = f (V c (Pipeline.arrRef spec6 0)) (V c (Pipeline.arrRef spec6 1)) (V c (Pipeline.arrRef spec6 2))

/-- Region 7 leaves in its output array the function `f` of its operand arrays as entered. -/
def Reg7 (f : FVec F S800000x256 .bf16 → FVec F S256x128 .f32 → FVec F S1x128 .f32 → FVec F S128x3 .f32 → FVec F S1x3 .f32 → FVec F S800000x3 .f32) : Prop :=
  ∀ (V : (c : Dev nD) → (b : Ref sig .tc) → Buf (Elt F) ((c : Thread nD τ).loc b)) (c : Dev nD),
    (dat7 (F := F) V c).arrAt 5 cfg7.N = f (V c (Pipeline.arrRef spec7 0)) (V c (Pipeline.arrRef spec7 1)) (V c (Pipeline.arrRef spec7 2)) (V c (Pipeline.arrRef spec7 3)) (V c (Pipeline.arrRef spec7 4))

/-! ## The two stretches that concatenate, with the concatenation named -/

/-- The message words: the 800000 edge words followed by the 50000 node numbers. -/
def catWords (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0

/-- An edge's two endpoint rows side by side. -/
def catCols (a b : (⟨S800000x128, .bf16⟩ : BufTy).Contents (Elt F)) : (⟨S800000x256, .bf16⟩ : BufTy).Contents (Elt F) :=
  concatenate S800000x256 1 [⟨S800000x128, a⟩, ⟨S800000x128, b⟩] concatenates_S800000x128_S800000x128_S800000x256_d1

/-- The stretch before region 1, the same operations with the concatenation named. -/
abbrev hostOps1' : List (HloOp τ sig (Elt F)) :=
  [ StableHlo.unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.nullary main_v6 (iotaInDim S50000 32 0),
    StableHlo.binary main_v3 main_v6 main_v7 (catWords : (⟨S800000, .i32⟩ : BufTy).Contents (Elt F) → (⟨S50000, .i32⟩ : BufTy).Contents (Elt F) → (⟨S850000, .i32⟩ : BufTy).Contents (Elt F)),
    StableHlo.binary main_v5 main_v6 main_v8 (catWords : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v9 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_v8 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v15 (broadcastInDim S50000 ![] bcast_S_S50000 : (⟨S_, .f32⟩ : BufTy).Contents (Elt F) → (⟨S50000, .f32⟩ : BufTy).Contents (Elt F)),
    StableHlo.binary main_v12 main_v15 main_v16 (maximumf : (⟨S50000, .f32⟩ : BufTy).Contents (Elt F) → (⟨S50000, .f32⟩ : BufTy).Contents (Elt F) → (⟨S50000, .f32⟩ : BufTy).Contents (Elt F)),
    StableHlo.unary main_v16 main_v17 (Host.rsqrt : (⟨S50000, .f32⟩ : BufTy).Contents (Elt F) → (⟨S50000, .f32⟩ : BufTy).Contents (Elt F)),
    StableHlo.nullary main_cst_3 (constant S_ .f32 0x00000000#32) ]
theorem hostOps1_eq : (hostOps1 : List (HloOp τ sig (Elt F))) = hostOps1' := rfl

/-- The stretch before region 7, the same operations with the concatenation named. -/
abbrev hostOps7' : List (HloOp τ sig (Elt F)) :=
  [ StableHlo.unary main_arg1 main_v59 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v59 main_v60 rfl shapeCasts_S1x800000_S800000,
    StableHlo.nullary main_c_12 (constantI S_ 32 0#32),
    StableHlo.unary main_c_12 main_v61 (broadcastInDim S800000 ![] bcast_S_S800000 : (⟨S_, .i32⟩ : BufTy).Contents (Elt F) → (⟨S800000, .i32⟩ : BufTy).Contents (Elt F)),
    StableHlo.binary main_v60 main_v61 main_v62 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v63 (broadcastInDim S800000 ![] bcast_S_S800000 : (⟨S_, .i32⟩ : BufTy).Contents (Elt F) → (⟨S800000, .i32⟩ : BufTy).Contents (Elt F)),
    StableHlo.binary main_v60 main_v63 main_v64 (addi : (⟨S800000, .i32⟩ : BufTy).Contents (Elt F) → (⟨S800000, .i32⟩ : BufTy).Contents (Elt F) → (⟨S800000, .i32⟩ : BufTy).Contents (Elt F)),
    StableHlo.ternary main_v62 main_v64 main_v60 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v65 main_v66 (broadcastInDim S800000x1 ![0] bcast_S800000_S800000x1_0 : (⟨S800000, .i32⟩ : BufTy).Contents (Elt F) → (⟨S800000x1, .i32⟩ : BufTy).Contents (Elt F)),
    StableHlo.binary main_v58 main_v66 main_v67 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.unary main_arg1 main_v68 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v68 main_v69 rfl shapeCasts_S1x800000_S800000,
    StableHlo.nullary main_c_14 (constantI S_ 32 0#32),
    StableHlo.unary main_c_14 main_v70 (broadcastInDim S800000 ![] bcast_S_S800000 : (⟨S_, .i32⟩ : BufTy).Contents (Elt F) → (⟨S800000, .i32⟩ : BufTy).Contents (Elt F)),
    StableHlo.binary main_v69 main_v70 main_v71 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v72 (broadcastInDim S800000 ![] bcast_S_S800000 : (⟨S_, .i32⟩ : BufTy).Contents (Elt F) → (⟨S800000, .i32⟩ : BufTy).Contents (Elt F)),
    StableHlo.binary main_v69 main_v72 main_v73 (addi : (⟨S800000, .i32⟩ : BufTy).Contents (Elt F) → (⟨S800000, .i32⟩ : BufTy).Contents (Elt F) → (⟨S800000, .i32⟩ : BufTy).Contents (Elt F)),
    StableHlo.ternary main_v71 main_v73 main_v69 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v74 main_v75 (broadcastInDim S800000x1 ![0] bcast_S800000_S800000x1_0 : (⟨S800000, .i32⟩ : BufTy).Contents (Elt F) → (⟨S800000x1, .i32⟩ : BufTy).Contents (Elt F)),
    StableHlo.binary main_v58 main_v75 main_v76 ((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)),
    StableHlo.binary main_v67 main_v76 main_v77 (catCols : (⟨S800000x128, .bf16⟩ : BufTy).Contents (Elt F) → (⟨S800000x128, .bf16⟩ : BufTy).Contents (Elt F) → (⟨S800000x256, .bf16⟩ : BufTy).Contents (Elt F)),
    StableHlo.reshape main_arg11 main_v78 rfl shapeCasts_S128_S1x128,
    StableHlo.reshape main_arg13 main_v79 rfl shapeCasts_S3_S1x3 ]
theorem hostOps7_eq : (hostOps7 : List (HloOp τ sig (Elt F))) = hostOps7' := rfl

/-! ## Each region as one more operation of the host program -/

/-- Region 0 as one operation: it writes `main_v1` with `f` of the three operand buffers. -/
def rop0 (f : FVec F S50000x4 .f32 → FVec F S4x128 .f32 → FVec F S1x128 .f32 → FVec F S50000x128 .f32) : HloOp τ sig (Elt F) := StableHlo.ternary main_arg0 main_arg2 main_v0 main_v1 f
theorem rop0_at (f : FVec F S50000x4 .f32 → FVec F S4x128 .f32 → FVec F S1x128 .f32 → FVec F S50000x128 .f32) (W : Valuation τ sig (Elt F)) :
    (rop0 f).result W (no_index (Proc.devRef .tc main_v1))
      = f (W (Proc.devRef .tc main_arg0)) (W (Proc.devRef .tc main_arg2)) (W (Proc.devRef .tc main_v0)) := by
  unfold rop0; exact StableHlo.ternary_result' _ _ _ _ _ _
theorem rop0_ne (f : FVec F S50000x4 .f32 → FVec F S4x128 .f32 → FVec F S1x128 .f32 → FVec F S50000x128 .f32) (W : Valuation τ sig (Elt F)) {r : Ref sig .tc} (h : r ≠ main_v1) :
    (rop0 f).result W (no_index (Proc.devRef .tc r)) = W (Proc.devRef .tc r) := by
  unfold rop0; exact StableHlo.ternary_result_ne' _ _ _ _ _ _ h

/-- Region 1 as one operation: it writes `main_v20` with `f` of the three operand buffers. -/
def rop1 (f : FVec F S50000x128 .f32 → FVec F S128x128 .f32 → FVec F S50000x1 .f32 → FVec F S50000x128 .f32) : HloOp τ sig (Elt F) := StableHlo.ternary main_v1 main_arg4 main_v19 main_v20 f
theorem rop1_at (f : FVec F S50000x128 .f32 → FVec F S128x128 .f32 → FVec F S50000x1 .f32 → FVec F S50000x128 .f32) (W : Valuation τ sig (Elt F)) :
    (rop1 f).result W (no_index (Proc.devRef .tc main_v20))
      = f (W (Proc.devRef .tc main_v1)) (W (Proc.devRef .tc main_arg4)) (W (Proc.devRef .tc main_v19)) := by
  unfold rop1; exact StableHlo.ternary_result' _ _ _ _ _ _
theorem rop1_ne (f : FVec F S50000x128 .f32 → FVec F S128x128 .f32 → FVec F S50000x1 .f32 → FVec F S50000x128 .f32) (W : Valuation τ sig (Elt F)) {r : Ref sig .tc} (h : r ≠ main_v20) :
    (rop1 f).result W (no_index (Proc.devRef .tc r)) = W (Proc.devRef .tc r) := by
  unfold rop1; exact StableHlo.ternary_result_ne' _ _ _ _ _ _ h

/-- Region 2 as one operation: it writes `main_v32` with `f` of the three operand buffers. -/
def rop2 (f : FVec F S50000x128 .f32 → FVec F S50000x1 .f32 → FVec F S1x128 .f32 → FVec F S50000x128 .f32) : HloOp τ sig (Elt F) := StableHlo.ternary main_v30 main_v19 main_v31 main_v32 f
theorem rop2_at (f : FVec F S50000x128 .f32 → FVec F S50000x1 .f32 → FVec F S1x128 .f32 → FVec F S50000x128 .f32) (W : Valuation τ sig (Elt F)) :
    (rop2 f).result W (no_index (Proc.devRef .tc main_v32))
      = f (W (Proc.devRef .tc main_v30)) (W (Proc.devRef .tc main_v19)) (W (Proc.devRef .tc main_v31)) := by
  unfold rop2; exact StableHlo.ternary_result' _ _ _ _ _ _
theorem rop2_ne (f : FVec F S50000x128 .f32 → FVec F S50000x1 .f32 → FVec F S1x128 .f32 → FVec F S50000x128 .f32) (W : Valuation τ sig (Elt F)) {r : Ref sig .tc} (h : r ≠ main_v32) :
    (rop2 f).result W (no_index (Proc.devRef .tc r)) = W (Proc.devRef .tc r) := by
  unfold rop2; exact StableHlo.ternary_result_ne' _ _ _ _ _ _ h

/-- Region 3 as one operation: it writes `main_v33` with `f` of the three operand buffers. -/
def rop3 (f : FVec F S50000x128 .f32 → FVec F S128x128 .f32 → FVec F S50000x1 .f32 → FVec F S50000x128 .f32) : HloOp τ sig (Elt F) := StableHlo.ternary main_v32 main_arg6 main_v19 main_v33 f
theorem rop3_at (f : FVec F S50000x128 .f32 → FVec F S128x128 .f32 → FVec F S50000x1 .f32 → FVec F S50000x128 .f32) (W : Valuation τ sig (Elt F)) :
    (rop3 f).result W (no_index (Proc.devRef .tc main_v33))
      = f (W (Proc.devRef .tc main_v32)) (W (Proc.devRef .tc main_arg6)) (W (Proc.devRef .tc main_v19)) := by
  unfold rop3; exact StableHlo.ternary_result' _ _ _ _ _ _
theorem rop3_ne (f : FVec F S50000x128 .f32 → FVec F S128x128 .f32 → FVec F S50000x1 .f32 → FVec F S50000x128 .f32) (W : Valuation τ sig (Elt F)) {r : Ref sig .tc} (h : r ≠ main_v33) :
    (rop3 f).result W (no_index (Proc.devRef .tc r)) = W (Proc.devRef .tc r) := by
  unfold rop3; exact StableHlo.ternary_result_ne' _ _ _ _ _ _ h

/-- Region 4 as one operation: it writes `main_v45` with `f` of the three operand buffers. -/
def rop4 (f : FVec F S50000x128 .f32 → FVec F S50000x1 .f32 → FVec F S1x128 .f32 → FVec F S50000x128 .f32) : HloOp τ sig (Elt F) := StableHlo.ternary main_v43 main_v19 main_v44 main_v45 f
theorem rop4_at (f : FVec F S50000x128 .f32 → FVec F S50000x1 .f32 → FVec F S1x128 .f32 → FVec F S50000x128 .f32) (W : Valuation τ sig (Elt F)) :
    (rop4 f).result W (no_index (Proc.devRef .tc main_v45))
      = f (W (Proc.devRef .tc main_v43)) (W (Proc.devRef .tc main_v19)) (W (Proc.devRef .tc main_v44)) := by
  unfold rop4; exact StableHlo.ternary_result' _ _ _ _ _ _
theorem rop4_ne (f : FVec F S50000x128 .f32 → FVec F S50000x1 .f32 → FVec F S1x128 .f32 → FVec F S50000x128 .f32) (W : Valuation τ sig (Elt F)) {r : Ref sig .tc} (h : r ≠ main_v45) :
    (rop4 f).result W (no_index (Proc.devRef .tc r)) = W (Proc.devRef .tc r) := by
  unfold rop4; exact StableHlo.ternary_result_ne' _ _ _ _ _ _ h

/-- Region 5 as one operation: it writes `main_v46` with `f` of the three operand buffers. -/
def rop5 (f : FVec F S50000x128 .f32 → FVec F S128x128 .f32 → FVec F S50000x1 .f32 → FVec F S50000x128 .f32) : HloOp τ sig (Elt F) := StableHlo.ternary main_v45 main_arg8 main_v19 main_v46 f
theorem rop5_at (f : FVec F S50000x128 .f32 → FVec F S128x128 .f32 → FVec F S50000x1 .f32 → FVec F S50000x128 .f32) (W : Valuation τ sig (Elt F)) :
    (rop5 f).result W (no_index (Proc.devRef .tc main_v46))
      = f (W (Proc.devRef .tc main_v45)) (W (Proc.devRef .tc main_arg8)) (W (Proc.devRef .tc main_v19)) := by
  unfold rop5; exact StableHlo.ternary_result' _ _ _ _ _ _
theorem rop5_ne (f : FVec F S50000x128 .f32 → FVec F S128x128 .f32 → FVec F S50000x1 .f32 → FVec F S50000x128 .f32) (W : Valuation τ sig (Elt F)) {r : Ref sig .tc} (h : r ≠ main_v46) :
    (rop5 f).result W (no_index (Proc.devRef .tc r)) = W (Proc.devRef .tc r) := by
  unfold rop5; exact StableHlo.ternary_result_ne' _ _ _ _ _ _ h

/-- Region 6 as one operation: it writes `main_v58` with `f` of the three operand buffers. -/
def rop6 (f : FVec F S50000x128 .f32 → FVec F S50000x1 .f32 → FVec F S1x128 .f32 → FVec F S50000x128 .bf16) : HloOp τ sig (Elt F) := StableHlo.ternary main_v56 main_v19 main_v57 main_v58 f
theorem rop6_at (f : FVec F S50000x128 .f32 → FVec F S50000x1 .f32 → FVec F S1x128 .f32 → FVec F S50000x128 .bf16) (W : Valuation τ sig (Elt F)) :
    (rop6 f).result W (no_index (Proc.devRef .tc main_v58))
      = f (W (Proc.devRef .tc main_v56)) (W (Proc.devRef .tc main_v19)) (W (Proc.devRef .tc main_v57)) := by
  unfold rop6; exact StableHlo.ternary_result' _ _ _ _ _ _
theorem rop6_ne (f : FVec F S50000x128 .f32 → FVec F S50000x1 .f32 → FVec F S1x128 .f32 → FVec F S50000x128 .bf16) (W : Valuation τ sig (Elt F)) {r : Ref sig .tc} (h : r ≠ main_v58) :
    (rop6 f).result W (no_index (Proc.devRef .tc r)) = W (Proc.devRef .tc r) := by
  unfold rop6; exact StableHlo.ternary_result_ne' _ _ _ _ _ _ h

/-- Region 7 as one operation: it writes `main_v80` with `f` of the five operand buffers. -/
def rop7 (f : FVec F S800000x256 .bf16 → FVec F S256x128 .f32 → FVec F S1x128 .f32 → FVec F S128x3 .f32 → FVec F S1x3 .f32 → FVec F S800000x3 .f32) : HloOp τ sig (Elt F) :=
  StableHlo.nary ![main_v77, main_arg10, main_v78, main_arg12, main_v79] main_v80 (fun u => f (u 0) (u 1) (u 2) (u 3) (u 4))
theorem rop7_at (f : FVec F S800000x256 .bf16 → FVec F S256x128 .f32 → FVec F S1x128 .f32 → FVec F S128x3 .f32 → FVec F S1x3 .f32 → FVec F S800000x3 .f32) (W : Valuation τ sig (Elt F)) :
    (rop7 f).result W (no_index (Proc.devRef .tc main_v80))
      = f (W (Proc.devRef .tc main_v77)) (W (Proc.devRef .tc main_arg10)) (W (Proc.devRef .tc main_v78)) (W (Proc.devRef .tc main_arg12)) (W (Proc.devRef .tc main_v79)) := by
  unfold rop7; rw [StableHlo.nary_result]; rfl
theorem rop7_ne (f : FVec F S800000x256 .bf16 → FVec F S256x128 .f32 → FVec F S1x128 .f32 → FVec F S128x3 .f32 → FVec F S1x3 .f32 → FVec F S800000x3 .f32) (W : Valuation τ sig (Elt F)) {r : Ref sig .tc} (h : r ≠ main_v80) :
    (rop7 f).result W (no_index (Proc.devRef .tc r)) = W (Proc.devRef .tc r) := by
  unfold rop7; exact StableHlo.nary_result_ne' _ _ _ _ _ h

variable (m : (ℓ : Loc nD τ sig) → Buf (Elt F) ℓ) (ρ : Dev nD → PrngReg)

/-! ## The boundary after each region -/

/-- At region 0's exit the core's buffers are what the operation `rop0 f` makes of the entry contents. -/
theorem W2_eq (f : FVec F S50000x4 .f32 → FVec F S4x128 .f32 → FVec F S1x128 .f32 → FVec F S50000x128 .f32) (hf : Reg0 f) (c : Dev nD) : W2 m ρ c = (rop0 f).result (W1 m ρ c) := by
  unfold W2
  refine Cert.RegionOp.withArrays_eq_result spec0 launch0.win.arr_inj c (W1 m ρ c) _ 3 (rop0 f) rfl ?_ ?_
  · intro w hw
    fin_cases w
    · exact ((dat0 (V1 m ρ) c).arrAt_in 0 rfl _).trans (A_eq0 (V1 m ρ) c 0)
    · exact ((dat0 (V1 m ρ) c).arrAt_in 1 rfl _).trans (A_eq0 (V1 m ρ) c 1)
    · exact ((dat0 (V1 m ρ) c).arrAt_in 2 rfl _).trans (A_eq0 (V1 m ρ) c 2)
    · exact absurd rfl hw
  · exact (hf (V1 m ρ) c).trans (rop0_at f (W1 m ρ c)).symm

/-- At region 1's exit the core's buffers are what the operation `rop1 f` makes of the entry contents. -/
theorem W6_eq (f : FVec F S50000x128 .f32 → FVec F S128x128 .f32 → FVec F S50000x1 .f32 → FVec F S50000x128 .f32) (hf : Reg1 f) (c : Dev nD) : W6 m ρ c = (rop1 f).result (W5 m ρ c) := by
  unfold W6
  refine Cert.RegionOp.withArrays_eq_result spec1 launch1.win.arr_inj c (W5 m ρ c) _ 3 (rop1 f) rfl ?_ ?_
  · intro w hw
    fin_cases w
    · exact ((dat1 (V5 m ρ) c).arrAt_in 0 rfl _).trans (A_eq1 (V5 m ρ) c 0)
    · exact ((dat1 (V5 m ρ) c).arrAt_in 1 rfl _).trans (A_eq1 (V5 m ρ) c 1)
    · exact ((dat1 (V5 m ρ) c).arrAt_in 2 rfl _).trans (A_eq1 (V5 m ρ) c 2)
    · exact absurd rfl hw
  · exact (hf (V5 m ρ) c).trans (rop1_at f (W5 m ρ c)).symm

/-- At region 2's exit the core's buffers are what the operation `rop2 f` makes of the entry contents. -/
theorem W8_eq (f : FVec F S50000x128 .f32 → FVec F S50000x1 .f32 → FVec F S1x128 .f32 → FVec F S50000x128 .f32) (hf : Reg2 f) (c : Dev nD) : W8 m ρ c = (rop2 f).result (W7 m ρ c) := by
  unfold W8
  refine Cert.RegionOp.withArrays_eq_result spec2 launch2.win.arr_inj c (W7 m ρ c) _ 3 (rop2 f) rfl ?_ ?_
  · intro w hw
    fin_cases w
    · exact ((dat2 (V7 m ρ) c).arrAt_in 0 rfl _).trans (A_eq2 (V7 m ρ) c 0)
    · exact ((dat2 (V7 m ρ) c).arrAt_in 1 rfl _).trans (A_eq2 (V7 m ρ) c 1)
    · exact ((dat2 (V7 m ρ) c).arrAt_in 2 rfl _).trans (A_eq2 (V7 m ρ) c 2)
    · exact absurd rfl hw
  · exact (hf (V7 m ρ) c).trans (rop2_at f (W7 m ρ c)).symm

/-- At region 3's exit the core's buffers are what the operation `rop3 f` makes of the entry contents. -/
theorem W9_eq (f : FVec F S50000x128 .f32 → FVec F S128x128 .f32 → FVec F S50000x1 .f32 → FVec F S50000x128 .f32) (hf : Reg3 f) (c : Dev nD) : W9 m ρ c = (rop3 f).result (W8 m ρ c) := by
  unfold W9
  refine Cert.RegionOp.withArrays_eq_result spec3 launch3.win.arr_inj c (W8 m ρ c) _ 3 (rop3 f) rfl ?_ ?_
  · intro w hw
    fin_cases w
    · exact ((dat3 (V8 m ρ) c).arrAt_in 0 rfl _).trans (A_eq3 (V8 m ρ) c 0)
    · exact ((dat3 (V8 m ρ) c).arrAt_in 1 rfl _).trans (A_eq3 (V8 m ρ) c 1)
    · exact ((dat3 (V8 m ρ) c).arrAt_in 2 rfl _).trans (A_eq3 (V8 m ρ) c 2)
    · exact absurd rfl hw
  · exact (hf (V8 m ρ) c).trans (rop3_at f (W8 m ρ c)).symm

/-- At region 4's exit the core's buffers are what the operation `rop4 f` makes of the entry contents. -/
theorem W11_eq (f : FVec F S50000x128 .f32 → FVec F S50000x1 .f32 → FVec F S1x128 .f32 → FVec F S50000x128 .f32) (hf : Reg4 f) (c : Dev nD) : W11 m ρ c = (rop4 f).result (W10 m ρ c) := by
  unfold W11
  refine Cert.RegionOp.withArrays_eq_result spec4 launch4.win.arr_inj c (W10 m ρ c) _ 3 (rop4 f) rfl ?_ ?_
  · intro w hw
    fin_cases w
    · exact ((dat4 (V10 m ρ) c).arrAt_in 0 rfl _).trans (A_eq4 (V10 m ρ) c 0)
    · exact ((dat4 (V10 m ρ) c).arrAt_in 1 rfl _).trans (A_eq4 (V10 m ρ) c 1)
    · exact ((dat4 (V10 m ρ) c).arrAt_in 2 rfl _).trans (A_eq4 (V10 m ρ) c 2)
    · exact absurd rfl hw
  · exact (hf (V10 m ρ) c).trans (rop4_at f (W10 m ρ c)).symm

/-- At region 5's exit the core's buffers are what the operation `rop5 f` makes of the entry contents. -/
theorem W12_eq (f : FVec F S50000x128 .f32 → FVec F S128x128 .f32 → FVec F S50000x1 .f32 → FVec F S50000x128 .f32) (hf : Reg5 f) (c : Dev nD) : W12 m ρ c = (rop5 f).result (W11 m ρ c) := by
  unfold W12
  refine Cert.RegionOp.withArrays_eq_result spec5 launch5.win.arr_inj c (W11 m ρ c) _ 3 (rop5 f) rfl ?_ ?_
  · intro w hw
    fin_cases w
    · exact ((dat5 (V11 m ρ) c).arrAt_in 0 rfl _).trans (A_eq5 (V11 m ρ) c 0)
    · exact ((dat5 (V11 m ρ) c).arrAt_in 1 rfl _).trans (A_eq5 (V11 m ρ) c 1)
    · exact ((dat5 (V11 m ρ) c).arrAt_in 2 rfl _).trans (A_eq5 (V11 m ρ) c 2)
    · exact absurd rfl hw
  · exact (hf (V11 m ρ) c).trans (rop5_at f (W11 m ρ c)).symm

/-- At region 6's exit the core's buffers are what the operation `rop6 f` makes of the entry contents. -/
theorem W14_eq (f : FVec F S50000x128 .f32 → FVec F S50000x1 .f32 → FVec F S1x128 .f32 → FVec F S50000x128 .bf16) (hf : Reg6 f) (c : Dev nD) : W14 m ρ c = (rop6 f).result (W13 m ρ c) := by
  unfold W14
  refine Cert.RegionOp.withArrays_eq_result spec6 launch6.win.arr_inj c (W13 m ρ c) _ 3 (rop6 f) rfl ?_ ?_
  · intro w hw
    fin_cases w
    · exact ((dat6 (V13 m ρ) c).arrAt_in 0 rfl _).trans (A_eq6 (V13 m ρ) c 0)
    · exact ((dat6 (V13 m ρ) c).arrAt_in 1 rfl _).trans (A_eq6 (V13 m ρ) c 1)
    · exact ((dat6 (V13 m ρ) c).arrAt_in 2 rfl _).trans (A_eq6 (V13 m ρ) c 2)
    · exact absurd rfl hw
  · exact (hf (V13 m ρ) c).trans (rop6_at f (W13 m ρ c)).symm

/-- At region 7's exit the core's buffers are what the operation `rop7 f` makes of the entry contents. -/
theorem W16_eq (f : FVec F S800000x256 .bf16 → FVec F S256x128 .f32 → FVec F S1x128 .f32 → FVec F S128x3 .f32 → FVec F S1x3 .f32 → FVec F S800000x3 .f32) (hf : Reg7 f) (c : Dev nD) : W16 m ρ c = (rop7 f).result (W15 m ρ c) := by
  unfold W16
  refine Cert.RegionOp.withArrays_eq_result spec7 launch7.win.arr_inj c (W15 m ρ c) _ 5 (rop7 f) rfl ?_ ?_
  · intro w hw
    fin_cases w
    · exact ((dat7 (V15 m ρ) c).arrAt_in 0 rfl _).trans (A_eq7 (V15 m ρ) c 0)
    · exact ((dat7 (V15 m ρ) c).arrAt_in 1 rfl _).trans (A_eq7 (V15 m ρ) c 1)
    · exact ((dat7 (V15 m ρ) c).arrAt_in 2 rfl _).trans (A_eq7 (V15 m ρ) c 2)
    · exact ((dat7 (V15 m ρ) c).arrAt_in 3 rfl _).trans (A_eq7 (V15 m ρ) c 3)
    · exact ((dat7 (V15 m ρ) c).arrAt_in 4 rfl _).trans (A_eq7 (V15 m ρ) c 4)
    · exact absurd rfl hw
  · exact (hf (V15 m ρ) c).trans (rop7_at f (W15 m ρ c)).symm

/-! ## The last boundary as one straight line from the launch memory -/

/-- The last boundary's contents: the sixteen segments applied in order to the launch contents, each region as its
    operation. -/
theorem W16_unfold
    (f0 : FVec F S50000x4 .f32 → FVec F S4x128 .f32 → FVec F S1x128 .f32 → FVec F S50000x128 .f32)
    (f1 : FVec F S50000x128 .f32 → FVec F S128x128 .f32 → FVec F S50000x1 .f32 → FVec F S50000x128 .f32)
    (f2 : FVec F S50000x128 .f32 → FVec F S50000x1 .f32 → FVec F S1x128 .f32 → FVec F S50000x128 .f32)
    (f3 : FVec F S50000x128 .f32 → FVec F S128x128 .f32 → FVec F S50000x1 .f32 → FVec F S50000x128 .f32)
    (f4 : FVec F S50000x128 .f32 → FVec F S50000x1 .f32 → FVec F S1x128 .f32 → FVec F S50000x128 .f32)
    (f5 : FVec F S50000x128 .f32 → FVec F S128x128 .f32 → FVec F S50000x1 .f32 → FVec F S50000x128 .f32)
    (f6 : FVec F S50000x128 .f32 → FVec F S50000x1 .f32 → FVec F S1x128 .f32 → FVec F S50000x128 .bf16)
    (f7 : FVec F S800000x256 .bf16 → FVec F S256x128 .f32 → FVec F S1x128 .f32 → FVec F S128x3 .f32 → FVec F S1x3 .f32 → FVec F S800000x3 .f32)
    (h0 : Reg0 f0) (h1 : Reg1 f1) (h2 : Reg2 f2) (h3 : Reg3 f3) (h4 : Reg4 f4) (h5 : Reg5 f5) (h6 : Reg6 f6) (h7 : Reg7 f7) (c : Dev nD) :
    W16 m ρ c = (rop7 f7).result (after hostOps7 ((rop6 f6).result (after hostOps6 ((rop5 f5).result ((rop4 f4).result (after hostOps4
      ((rop3 f3).result ((rop2 f2).result (after hostOps2 ((rop1 f1).result (after hostOps1_2 (after hostOps1_1 (after hostOps1
      ((rop0 f0).result (after hostOps0 (W0 m ρ c)))))))))))))))) := by
  rw [W16_eq m ρ f7 h7]; dsimp only [W15]; rw [W14_eq m ρ f6 h6]; dsimp only [W13]; rw [W12_eq m ρ f5 h5, W11_eq m ρ f4 h4]; dsimp only [W10]
  rw [W9_eq m ρ f3 h3, W8_eq m ρ f2 h2]; dsimp only [W7]; rw [W6_eq m ρ f1 h1]; dsimp only [W5, W4, W3]; rw [W2_eq m ρ f0 h0]

/-! ## The result at the last boundary -/

set_option maxHeartbeats 4000000 in
/-- The result buffer at the last boundary holds the kernel's chain of stages applied to the launch contents of the
    arguments: encoder, three layers, edge classifier. -/
theorem result_eq
    (f0 : FVec F S50000x4 .f32 → FVec F S4x128 .f32 → FVec F S1x128 .f32 → FVec F S50000x128 .f32)
    (f1 : FVec F S50000x128 .f32 → FVec F S128x128 .f32 → FVec F S50000x1 .f32 → FVec F S50000x128 .f32)
    (f2 : FVec F S50000x128 .f32 → FVec F S50000x1 .f32 → FVec F S1x128 .f32 → FVec F S50000x128 .f32)
    (f3 : FVec F S50000x128 .f32 → FVec F S128x128 .f32 → FVec F S50000x1 .f32 → FVec F S50000x128 .f32)
    (f4 : FVec F S50000x128 .f32 → FVec F S50000x1 .f32 → FVec F S1x128 .f32 → FVec F S50000x128 .f32)
    (f5 : FVec F S50000x128 .f32 → FVec F S128x128 .f32 → FVec F S50000x1 .f32 → FVec F S50000x128 .f32)
    (f6 : FVec F S50000x128 .f32 → FVec F S50000x1 .f32 → FVec F S1x128 .f32 → FVec F S50000x128 .bf16)
    (f7 : FVec F S800000x256 .bf16 → FVec F S256x128 .f32 → FVec F S1x128 .f32 → FVec F S128x3 .f32 → FVec F S1x3 .f32 → FVec F S800000x3 .f32)
    (h0 : Reg0 f0) (h1 : Reg1 f1) (h2 : Reg2 f2) (h3 : Reg3 f3) (h4 : Reg4 f4) (h5 : Reg5 f5) (h6 : Reg6 f6) (h7 : Reg7 f7) (c : Dev nD) :
    W16 m ρ c (Proc.devRef .tc main_v80)
      = Cert.StagesG.kTail f7 (Cert.StagesG.kLayer f5 f6 (Cert.StagesG.kLayer f3 f4 (Cert.StagesG.kLayer f1 f2
          (Cert.StagesG.kEnc f0 (m ((c.tc : Thread nD τ).loc main_arg0)) (m ((c.tc : Thread nD τ).loc main_arg2)) (m ((c.tc : Thread nD τ).loc main_arg3)))
          (m ((c.tc : Thread nD τ).loc main_arg4)) (m ((c.tc : Thread nD τ).loc main_arg5)) (m ((c.tc : Thread nD τ).loc main_arg1))) (m ((c.tc : Thread nD τ).loc main_arg6)) (m ((c.tc : Thread nD τ).loc main_arg7)) (m ((c.tc : Thread nD τ).loc main_arg1))) (m ((c.tc : Thread nD τ).loc main_arg8)) (m ((c.tc : Thread nD τ).loc main_arg9)) (m ((c.tc : Thread nD τ).loc main_arg1)))
          (m ((c.tc : Thread nD τ).loc main_arg1)) (m ((c.tc : Thread nD τ).loc main_arg10)) (m ((c.tc : Thread nD τ).loc main_arg11)) (m ((c.tc : Thread nD τ).loc main_arg12)) (m ((c.tc : Thread nD τ).loc main_arg13)) := by
  rw [W16_unfold m ρ f0 f1 f2 f3 f4 f5 f6 f7 h0 h1 h2 h3 h4 h5 h6 h7, hostOps1_eq, hostOps7_eq]
  simp (disch := decide) only [hostOps0, hostOps1', hostOps1_1, hostOps1_2, hostOps2, hostOps4, hostOps6, hostOps7', after_cons, after_nil,
     nullary_result', unary_result', binary_result', ternary_result', quaternary_result', reshape_result', nary_result',
     nullary_result_ne', unary_result_ne', binary_result_ne', ternary_result_ne', quaternary_result_ne', reshape_result_ne', nary_result_ne',
     rop0_at, rop0_ne, rop1_at, rop1_ne, rop2_at, rop2_ne, rop3_at, rop3_ne, rop4_at, rop4_ne, rop5_at, rop5_ne, rop6_at, rop6_ne, rop7_at, rop7_ne]
  rfl

end Cert.KernelIdeal.KFold

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RegEnc.lean ====
/-
  Region 0, the node encoder: its output array after all ten row blocks is `max (x·W + b) 0` of its operand arrays.

  The body's result at a row and column of a block is the contraction of the block's row of `x` with the column of `W`,
  plus the bias entry, clamped below at zero. A block of `x` and of the output at grid point `t` is rows
  `5000·t … 5000·t + 4999` of its array, `W` and `b` are whole at every point, so what point `t` writes back is block `t`
  of the encoder's rows; row `r` lies in the block of point `r / 5000`, so the ten blocks fill the array.
-/
import proofs.«179396_j45741401703144_2_alg».proof.Proof.Gen.KernelIdeal.Frame
import proofs.«179396_j45741401703144_2_alg».proof.Proof.Spec
import proofs.«179396_j45741401703144_2_alg».proof.Proof.LibPlainDot
import Idealize.ShloMosaic.Lib.Pipeline.Value

noncomputable section

open Idealize.ShloMosaic Idealize.ShloMosaic.TcCoe Idealize.ShloMosaic.ValueIdx
open Idealize.ShloMosaic.Pipeline (Dat)
open scoped BigOperators

namespace Cert.KernelIdeal.RegVal

open Cert.KernelIdeal Cert.KernelIdeal.Gen

/-- The encoder body's result at row `p`, column `q` of a block. -/
theorem ha_enc_pay (x : Vec Ideal S5000x4 .f32) (w : Vec Ideal S4x128 .f32) (b : Vec Ideal S1x128 .f32)
    (p : Fin 5000) (q : Fin 128) :
    Gen.k0_pay1 (F := Ideal) x w b (ix2 p q)
      = max ((∑ k : Fin 4, x (ix2 p k) * w (ix2 k q)) + b (ix2 0 q)) 0 := by
  unfold Gen.k0_pay1
  rw [maximumf_apply, addf_apply, broadcast_apply]
  have hm := Cert.PlainDot.matmul_zero_apply 5000 4 128 (φ₁ := .bf16) (φ₂ := .bf16) none
    (truncf .bf16 x bitsLt_bf16_f32) (truncf .bf16 w bitsLt_bf16_f32) (ix2 p q)
  have hb : broadcastTo S5000x128 (shapeCast S1x128 b shapeCasts_S1x128_S1x128) broadcasts_S1x128_S5000x128 (ix2 p q)
      = b (ix2 0 q) := by
    rw [shapeCast_self]
    exact broadcastTo_apply b _ (ix2 p q) (ix2 0 q) (fun a => by match a with | ⟨0, _⟩ => rfl | ⟨1, _⟩ => rfl)
  have hz : (FloatOps.ofBits FTy.f32 0#32 : Ideal .f32) = 0 := Ideal.ofBits_zero_f32
  refine congrArg₂ max (congrArg₂ (· + ·) (hm.trans ?_) hb) hz
  rfl

variable (V : (c : Dev nD) → (b : Ref sig .tc) → Buf (Elt Ideal) ((c : Thread nD τ).loc b))

/-- The zero offsets of a whole-buffer access. -/
theorem ha_hz : (![0, 0] : Fin 2 → Nat) = fun _ => 0 := funext fun a => by fin_cases a <;> rfl

/-- The block indices of the encoder's four windows at a grid point: the row-blocked windows sit at the point's
    own number, the whole-array windows at zero. -/
theorem ha_enc_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- Row `p` of point `t`'s block of `x` is row `5000·t + p` of `x`. -/
theorem ha_enc_x (c : Dev nD) (t : Fin cfg0.N) (p : Fin 5000) (k : Fin 4) (r : Fin 50000)
    (hr : r.val = t.val * 5000 + p.val) :
    (Gen.iblk0 V c 0 t : Vec Ideal S5000x4 .f32) (ix2 p k)
      = (V c (Pipeline.arrRef spec0 0) : Cert.Spec.Mat 50000 4) (ix2 r k) := by
  obtain ⟨e0, e1, -⟩ := ha_enc_idx t
  unfold Gen.iblk0
  rw [View.read_apply]
  show (V c (Pipeline.arrRef spec0 0) : Cert.Spec.Mat 50000 4) _ = _
  refine congrArg (V c (Pipeline.arrRef spec0 0) : Cert.Spec.Mat 50000 4) (funext fun a => Fin.ext ?_)
  match a with
  | ⟨0, _⟩ => show win0_0.index t (0 : Fin 2) * 5000 + 1 * p.val = r.val; omega
  | ⟨1, _⟩ => show win0_0.index t (1 : Fin 2) * 4 + 1 * k.val = k.val; omega

/-- The weight's block is the whole weight at every point. -/
theorem ha_enc_w (c : Dev nD) (t : Fin cfg0.N) (k : Fin 4) (q : Fin 128) :
    (Gen.iblk0 V c 1 t : Vec Ideal S4x128 .f32) (ix2 k q)
      = (V c (Pipeline.arrRef spec0 1) : Cert.Spec.Mat 4 128) (ix2 k q) := by
  obtain ⟨-, -, e2, e3, -⟩ := ha_enc_idx t
  unfold Gen.iblk0
  rw [View.read_apply]
  show (V c (Pipeline.arrRef spec0 1) : Cert.Spec.Mat 4 128) _ = _
  refine congrArg (V c (Pipeline.arrRef spec0 1) : Cert.Spec.Mat 4 128) (funext fun a => Fin.ext ?_)
  match a with
  | ⟨0, _⟩ => show win0_1.index t (0 : Fin 2) * 4 + 1 * k.val = k.val; omega
  | ⟨1, _⟩ => show win0_1.index t (1 : Fin 2) * 128 + 1 * q.val = q.val; omega

/-- The bias's block is the whole bias row at every point. -/
theorem ha_enc_b (c : Dev nD) (t : Fin cfg0.N) (q : Fin 128) :
    (Gen.iblk0 V c 2 t : Vec Ideal S1x128 .f32) (ix2 0 q)
      = (V c (Pipeline.arrRef spec0 2) : Cert.Spec.Mat 1 128) (ix2 0 q) := by
  obtain ⟨-, -, -, -, e4, e5, -⟩ := ha_enc_idx t
  unfold Gen.iblk0
  rw [View.read_apply]
  show (V c (Pipeline.arrRef spec0 2) : Cert.Spec.Mat 1 128) _ = _
  refine congrArg (V c (Pipeline.arrRef spec0 2) : Cert.Spec.Mat 1 128) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- What grid point `t` writes back is block `t` of the encoder's rows of the arrays as the region finds them. -/
theorem ha_enc_flushed (c : Dev nD) (t : Fin cfg0.N) :
    (Gen.dat0 (F := Ideal) V c).flushed 3 t
      = ((cfg0.win 3).blk t).view.read (Elt Ideal)
          (Cert.Spec.encRows (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  unfold Gen.out0_3
  rw [View.canon_unit_zero ha_hz]
  simp only [View.ld_unit_zero (S := S5000x4) ha_hz, View.ld_unit_zero (S := S4x128) ha_hz, View.ld_unit_zero (S := S1x128) ha_hz]
  obtain ⟨-, -, -, -, -, -, e6, e7, hN⟩ := ha_enc_idx t
  funext j
  have hj0 : (j 0).val < 5000 := (j 0).isLt
  have hj1 : (j 1).val < 128 := (j 1).isLt
  have hl : (cfg0.win 3).xinj (grid0.coords t) j = ix2 (⟨(j 0).val, hj0⟩ : Fin 5000) (⟨(j 1).val, hj1⟩ : Fin 128) :=
    funext (Fin.forall_fin_two.2 ⟨rfl, rfl⟩)
  have hr : ((cfg0.win 3).blk t).view.emb j
      = ix2 (⟨t.val * 5000 + (j 0).val, by omega⟩ : Fin 50000) (⟨(j 1).val, hj1⟩ : Fin 128) := by
    funext a; apply Fin.ext
    match a with
    | ⟨0, _⟩ => show win0_3.index t (0 : Fin 2) * 5000 + 1 * (j 0).val = t.val * 5000 + (j 0).val; omega
    | ⟨1, _⟩ => show win0_3.index t (1 : Fin 2) * 128 + 1 * (j 1).val = (j 1).val; omega
  rw [View.read_apply, hr, Cert.Spec.encRows_apply]
  refine ((congrArg (Gen.k0_pay1 (F := Ideal) (Gen.iblk0 V c 0 t) (Gen.iblk0 V c 1 t) (Gen.iblk0 V c 2 t)) hl).trans
    (ha_enc_pay _ _ _ _ _)).trans ?_
  show _ = max _ _
  refine congrArg₂ max (congrArg₂ (· + ·) (Finset.sum_congr rfl fun k _ => congrArg₂ (· * ·) ?_ ?_) ?_) rfl
  · exact ha_enc_x V c t _ k _ rfl
  · exact ha_enc_w V c t k _
  · exact ha_enc_b V c t _

/-- An index of the output array is in point `t`'s block iff each coordinate is in the block's range on its axis. -/
theorem ha_enc_mem (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Row `r` of the output lies in the block of point `r / 5000`, which writes back. -/
theorem ha_enc_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7, -⟩ := ha_enc_idx t
  refine ⟨t, Gen.flush0_3 t, ?_⟩
  rw [ha_enc_mem]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- REGION 0: after all ten grid points the output array holds the encoder's rows of the region's operand arrays. -/
theorem region0 (c : Dev nD) :
    (Gen.dat0 (F := Ideal) V c).arrAt 3 cfg0.N
      = Cert.Spec.encRows (V c (Pipeline.arrRef spec0 0)) (V c (Pipeline.arrRef spec0 1)) (V c (Pipeline.arrRef spec0 2)) :=
  (Gen.dat0 V c).arrAt_eq_of_cover 3 _ (fun t _ => ha_enc_flushed V c t) ha_enc_cover

end Cert.KernelIdeal.RegVal
end
-- ==== Proof.RegLin.lean ====
/-
  The three weight-transform regions (1, 3 and 5), each read as one function of the arrays it is entered with.

  Each of them walks ten blocks of 5000 rows. At a block it multiplies the block's rows of the features by the whole
  weight matrix and scales each row by its own factor, so what it writes back to rows `5000·b … 5000·b + 4999` is those
  rows of `linRows`: row `n`, column `c` is `(∑ₖ h[n,k]·w[k,c]) · d[n,0]`. The ten blocks fill the result, so after the
  last one the result array is `linRows` of the features, the weights and the factors.

  The arithmetic of a block is the same in the three regions and is read once (`hb_lin_pay`); the rest is said per
  region, with the region's own block maps: which rows a block holds (`hb_blk…`), the block's value at a coordinate as
  the value of `linRows` at the row it stands for (`hb_point…`), what a point writes back (`hb_flushed…`), which rows a
  point's block covers (`hb_mem…`, `hb_cover…`), and the whole array (`region…`).
-/
import proofs.«179396_j45741401703144_2_alg».proof.Proof.Gen.KernelIdeal.Frame
import proofs.«179396_j45741401703144_2_alg».proof.Proof.Spec
import proofs.«179396_j45741401703144_2_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.RegVal

open Idealize.ShloMosaic Idealize.ShloMosaic.ValueIdx Idealize.ShloMosaic.TcCoe
open Idealize.ShloMosaic.Pipeline (Dat)
open Cert.KernelIdeal Cert.KernelIdeal.Gen

variable (V : (c : Dev nD) → (b : Ref sig .tc) → Buf (Elt Ideal) ((c : Thread nD τ).loc b))

/-- The offsets of a whole-block access are zero on both axes. -/
theorem hb_zero2 : (![0, 0] : Fin 2 → Nat) = fun _ => 0 := funext fun a => by fin_cases a <;> rfl

/-! ## The block's arithmetic at a coordinate -/

/-- The weight transform's block at row `p`, column `q`: the row's product with the weights, scaled by the row's
    factor. The narrowing of the two operands is the identity on the extended reals, the accumulator is zero, and the
    factor's one column is read on every column. -/
theorem hb_lin_pay (x0 : Vec Ideal S5000x128 .f32) (x1 : Vec Ideal S128x128 .f32) (x2 : Vec Ideal S5000x1 .f32)
    (p : Fin 5000) (q : Fin 128) :
    Gen.k1_pay1 (F := Ideal) x0 x1 x2 (ix2 p q) = (∑ k : Fin 128, x0 (ix2 p k) * x1 (ix2 k q)) * x2 (ix2 p 0) := by
  unfold Gen.k1_pay1
  refine (mulf_apply _ _ _).trans ?_
  refine congrArg₂ (· * ·) ?_ ?_
  · rw [shapeCast_self]
    exact Cert.PlainDot.matmul_zero_apply 5000 128 128 (φ₁ := .bf16) (φ₂ := .bf16) none _ _ (ix2 p q)
  · rw [shapeCast_self, shapeCast_self]
    exact broadcastTo_apply _ _ _ (ix2 p 0) (fun a => by match a with | ⟨0, _⟩ => rfl | ⟨1, _⟩ => rfl)

/-! ## Region 1 -/

/-- Region 1's block maps, decided over its ten points: the row-blocked operands move with the output's row block,
    every other block index is zero, and the output's row block is one of the ten. -/
theorem hb_idx1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some point's. -/
theorem hb_onto1 : ∀ q0 : Fin 10, ∃ t : Fin cfg1.N, win1_3.index t (0 : Fin 2) = q0.val :=
  (by decide +kernel : ∀ q0 : Fin 10, ∃ t : Fin grid1.N, win1_3.index t (0 : Fin 2) = q0.val)

/-- The features' block at point `t` holds rows `5000·b … 5000·b + 4999` of the features, `b` the output's row block. -/
theorem hb_blk1_0 (c : Dev nD) (t : Fin cfg1.N) (p : Fin 5000) (k : Fin 128) (i : S50000x128.Idx)
    (h0 : (i 0).val = win1_3.index t (0 : Fin 2) * 5000 + p.val) (h1 : (i 1).val = k.val) :
    (Gen.iblk1 (F := Ideal) V c 0 t : Vec Ideal S5000x128 .f32) (ix2 p k)
      = (V c (Pipeline.arrRef spec1 0) : Cert.Spec.Mat 50000 128) i := by
  obtain ⟨e0, e1, -⟩ := hb_idx1 t
  unfold Gen.iblk1
  rw [View.read_apply]
  refine congrArg (V c (Pipeline.arrRef spec1 0) : Cert.Spec.Mat 50000 128) (funext fun a => Fin.ext ?_)
  match a with
  | ⟨0, _⟩ =>
    show win1_0.index t (0 : Fin 2) * 5000 + 1 * p.val = (i 0).val
    rw [h0, e0]; omega
  | ⟨1, _⟩ =>
    show win1_0.index t (1 : Fin 2) * 128 + 1 * k.val = (i 1).val
    rw [h1, e1]; omega

/-- The weights' block at every point is the whole of the weights. -/
theorem hb_blk1_1 (c : Dev nD) (t : Fin cfg1.N) (k : Fin 128) (q : Fin 128) (i : S128x128.Idx)
    (h0 : (i 0).val = k.val) (h1 : (i 1).val = q.val) :
    (Gen.iblk1 (F := Ideal) V c 1 t : Vec Ideal S128x128 .f32) (ix2 k q)
      = (V c (Pipeline.arrRef spec1 1) : Cert.Spec.Mat 128 128) i := by
  obtain ⟨-, -, e2, e3, -⟩ := hb_idx1 t
  unfold Gen.iblk1
  rw [View.read_apply]
  refine congrArg (V c (Pipeline.arrRef spec1 1) : Cert.Spec.Mat 128 128) (funext fun a => Fin.ext ?_)
  match a with
  | ⟨0, _⟩ =>
    show win1_1.index t (0 : Fin 2) * 128 + 1 * k.val = (i 0).val
    rw [h0, e2]; omega
  | ⟨1, _⟩ =>
    show win1_1.index t (1 : Fin 2) * 128 + 1 * q.val = (i 1).val
    rw [h1, e3]; omega

/-- The factors' block at point `t` holds the factors of the same rows as the features' block. -/
theorem hb_blk1_2 (c : Dev nD) (t : Fin cfg1.N) (p : Fin 5000) (i : S50000x1.Idx)
    (h0 : (i 0).val = win1_3.index t (0 : Fin 2) * 5000 + p.val) :
    (Gen.iblk1 (F := Ideal) V c 2 t : Vec Ideal S5000x1 .f32) (ix2 p 0)
      = (V c (Pipeline.arrRef spec1 2) : Cert.Spec.Mat 50000 1) i := by
  obtain ⟨-, -, -, -, e4, e5, -⟩ := hb_idx1 t
  unfold Gen.iblk1
  rw [View.read_apply]
  refine congrArg (V c (Pipeline.arrRef spec1 2) : Cert.Spec.Mat 50000 1) (funext fun a => Fin.ext ?_)
  match a with
  | ⟨0, _⟩ =>
    show win1_2.index t (0 : Fin 2) * 5000 + 1 * (p : Fin 5000).val = (i 0).val
    rw [h0, e4]; omega
  | ⟨1, _⟩ =>
    show win1_2.index t (1 : Fin 2) * 1 + 1 * (0 : Fin 1).val = (i 1).val
    have hi : (i 1).val < 1 := (i 1).isLt
    rw [e5]; simp only [Fin.val_zero]; omega

/-- The block computed at point `t`, read at `(p, q)`, is the transform at the array index `i` whose row is
    `5000·b + p` (`b` the output's row block at `t`) and whose column is `q`. -/
theorem hb_point1 (c : Dev nD) (t : Fin cfg1.N) (p : Fin 5000) (q : Fin 128) (i : S50000x128.Idx)
    (h0 : (i 0).val = win1_3.index t (0 : Fin 2) * 5000 + p.val) (h1 : (i 1).val = q.val) :
    Gen.k1_pay1 (F := Ideal) (Gen.iblk1 V c 0 t) (Gen.iblk1 V c 1 t) (Gen.iblk1 V c 2 t) (ix2 p q)
      = Cert.Spec.linRows (V c (Pipeline.arrRef spec1 0)) (V c (Pipeline.arrRef spec1 1))
          (V c (Pipeline.arrRef spec1 2)) i := by
  refine (hb_lin_pay (Gen.iblk1 V c 0 t) (Gen.iblk1 V c 1 t) (Gen.iblk1 V c 2 t) p q).trans ?_
  unfold Cert.Spec.linRows
  refine congrArg₂ (· * ·) (Finset.sum_congr rfl fun k _ => congrArg₂ (· * ·) ?_ ?_) ?_
  · exact hb_blk1_0 V c t p k (ix2 (i 0) k) h0 rfl
  · exact hb_blk1_1 V c t k q (ix2 k (i 1)) rfl h1
  · exact hb_blk1_2 V c t p (ix2 (i 0) 0) h0

/-- What point `t` writes back is block `t` of the transform of the arrays as the region finds them. -/
theorem hb_flushed1 (c : Dev nD) (t : Fin cfg1.N) :
    (Gen.dat1 (F := Ideal) V c).flushed 3 t
      = ((cfg1.win 3).blk t).view.read (Elt Ideal)
          (Cert.Spec.linRows (V c (Pipeline.arrRef spec1 0)) (V c (Pipeline.arrRef spec1 1))
            (V c (Pipeline.arrRef spec1 2))) := by
  show (cfg1.win 3).cut (grid1.coords t) ((Gen.dat1 V c).after 3 t) = _
  rw [Gen.after1_3]
  unfold Gen.out1_3
  rw [View.canon_unit_zero hb_zero2]
  simp only [View.ld_unit_zero (S := S5000x128) hb_zero2, View.ld_unit_zero (S := S128x128) hb_zero2,
    View.ld_unit_zero (S := S5000x1) hb_zero2]
  obtain ⟨-, -, -, -, -, -, e6, -⟩ := hb_idx1 t
  refine funext fun (j : S5000x128.Idx) => ?_
  obtain ⟨p, q, rfl⟩ : ∃ (p : Fin 5000) (q : Fin 128), j = ix2 p q := ⟨j 0, j 1, eq_ix2 j⟩
  have hx : (cfg1.win 3).xinj (grid1.coords t) (ix2 p q) = ix2 p q :=
    funext (Fin.forall_fin_two.mpr ⟨rfl, rfl⟩)
  rw [View.read_apply]
  refine (congrArg _ hx).trans ?_
  refine hb_point1 V c t p q _ ?_ ?_
  · show win1_3.index t (0 : Fin 2) * 5000 + 1 * p.val = _
    omega
  · show win1_3.index t (1 : Fin 2) * 128 + 1 * q.val = _
    rw [e6]; omega

/-- An index of the result is in point `t`'s block iff each coordinate is in the block's range on its axis. -/
theorem hb_mem1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v20).slice (win1_3.rect t)).set ↔ _
  rw [View.set_slice_whole, Rect.mem_set_unit]
  exact Iff.rfl

/-- Row `r` of the result is in the block of the point whose row block is `r / 5000`. -/
theorem hb_cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := hb_onto1 ⟨(i 0).val / 5000, by omega⟩
  have q0 : win1_3.index t (0 : Fin 2) = (i 0).val / 5000 := ht
  obtain ⟨-, -, -, -, -, -, e6, -⟩ := hb_idx1 t
  refine ⟨t, Gen.flush1_3 t, ?_⟩
  rw [hb_mem1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- REGION 1: after its ten points the result array is the transform of the arrays the region was entered with. -/
theorem region1 (c : Dev nD) :
    (Gen.dat1 (F := Ideal) V c).arrAt 3 cfg1.N
      = Cert.Spec.linRows (V c (Pipeline.arrRef spec1 0)) (V c (Pipeline.arrRef spec1 1))
          (V c (Pipeline.arrRef spec1 2)) :=
  (Gen.dat1 (F := Ideal) V c).arrAt_eq_of_cover 3 _ (fun t _ => hb_flushed1 V c t) (hb_cover1)

/-! ## Region 3 -/

/-- Region 3's block maps, decided over its ten points: the row-blocked operands move with the output's row block,
    every other block index is zero, and the output's row block is one of the ten. -/
theorem hb_idx3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = 0
    ∧ win3_3.index t (1 : Fin 2) = 0 ∧ win3_3.index t (0 : Fin 2) ≤ 9 :=
  (by decide +kernel : ∀ t : Fin grid3.N, _)

/-- Every one of the ten row blocks is some point's. -/
theorem hb_onto3 : ∀ q0 : Fin 10, ∃ t : Fin cfg3.N, win3_3.index t (0 : Fin 2) = q0.val :=
  (by decide +kernel : ∀ q0 : Fin 10, ∃ t : Fin grid3.N, win3_3.index t (0 : Fin 2) = q0.val)

/-- The features' block at point `t` holds rows `5000·b … 5000·b + 4999` of the features, `b` the output's row block. -/
theorem hb_blk3_0 (c : Dev nD) (t : Fin cfg3.N) (p : Fin 5000) (k : Fin 128) (i : S50000x128.Idx)
    (h0 : (i 0).val = win3_3.index t (0 : Fin 2) * 5000 + p.val) (h1 : (i 1).val = k.val) :
    (Gen.iblk3 (F := Ideal) V c 0 t : Vec Ideal S5000x128 .f32) (ix2 p k)
      = (V c (Pipeline.arrRef spec3 0) : Cert.Spec.Mat 50000 128) i := by
  obtain ⟨e0, e1, -⟩ := hb_idx3 t
  unfold Gen.iblk3
  rw [View.read_apply]
  refine congrArg (V c (Pipeline.arrRef spec3 0) : Cert.Spec.Mat 50000 128) (funext fun a => Fin.ext ?_)
  match a with
  | ⟨0, _⟩ =>
    show win3_0.index t (0 : Fin 2) * 5000 + 1 * p.val = (i 0).val
    rw [h0, e0]; omega
  | ⟨1, _⟩ =>
    show win3_0.index t (1 : Fin 2) * 128 + 1 * k.val = (i 1).val
    rw [h1, e1]; omega

/-- The weights' block at every point is the whole of the weights. -/
theorem hb_blk3_1 (c : Dev nD) (t : Fin cfg3.N) (k : Fin 128) (q : Fin 128) (i : S128x128.Idx)
    (h0 : (i 0).val = k.val) (h1 : (i 1).val = q.val) :
    (Gen.iblk3 (F := Ideal) V c 1 t : Vec Ideal S128x128 .f32) (ix2 k q)
      = (V c (Pipeline.arrRef spec3 1) : Cert.Spec.Mat 128 128) i := by
  obtain ⟨-, -, e2, e3, -⟩ := hb_idx3 t
  unfold Gen.iblk3
  rw [View.read_apply]
  refine congrArg (V c (Pipeline.arrRef spec3 1) : Cert.Spec.Mat 128 128) (funext fun a => Fin.ext ?_)
  match a with
  | ⟨0, _⟩ =>
    show win3_1.index t (0 : Fin 2) * 128 + 1 * k.val = (i 0).val
    rw [h0, e2]; omega
  | ⟨1, _⟩ =>
    show win3_1.index t (1 : Fin 2) * 128 + 1 * q.val = (i 1).val
    rw [h1, e3]; omega

/-- The factors' block at point `t` holds the factors of the same rows as the features' block. -/
theorem hb_blk3_2 (c : Dev nD) (t : Fin cfg3.N) (p : Fin 5000) (i : S50000x1.Idx)
    (h0 : (i 0).val = win3_3.index t (0 : Fin 2) * 5000 + p.val) :
    (Gen.iblk3 (F := Ideal) V c 2 t : Vec Ideal S5000x1 .f32) (ix2 p 0)
      = (V c (Pipeline.arrRef spec3 2) : Cert.Spec.Mat 50000 1) i := by
  obtain ⟨-, -, -, -, e4, e5, -⟩ := hb_idx3 t
  unfold Gen.iblk3
  rw [View.read_apply]
  refine congrArg (V c (Pipeline.arrRef spec3 2) : Cert.Spec.Mat 50000 1) (funext fun a => Fin.ext ?_)
  match a with
  | ⟨0, _⟩ =>
    show win3_2.index t (0 : Fin 2) * 5000 + 1 * (p : Fin 5000).val = (i 0).val
    rw [h0, e4]; omega
  | ⟨1, _⟩ =>
    show win3_2.index t (1 : Fin 2) * 1 + 1 * (0 : Fin 1).val = (i 1).val
    have hi : (i 1).val < 1 := (i 1).isLt
    rw [e5]; simp only [Fin.val_zero]; omega

/-- The block computed at point `t`, read at `(p, q)`, is the transform at the array index `i` whose row is
    `5000·b + p` (`b` the output's row block at `t`) and whose column is `q`. -/
theorem hb_point3 (c : Dev nD) (t : Fin cfg3.N) (p : Fin 5000) (q : Fin 128) (i : S50000x128.Idx)
    (h0 : (i 0).val = win3_3.index t (0 : Fin 2) * 5000 + p.val) (h1 : (i 1).val = q.val) :
    Gen.k3_pay1 (F := Ideal) (Gen.iblk3 V c 0 t) (Gen.iblk3 V c 1 t) (Gen.iblk3 V c 2 t) (ix2 p q)
      = Cert.Spec.linRows (V c (Pipeline.arrRef spec3 0)) (V c (Pipeline.arrRef spec3 1))
          (V c (Pipeline.arrRef spec3 2)) i := by
  refine (hb_lin_pay (Gen.iblk3 V c 0 t) (Gen.iblk3 V c 1 t) (Gen.iblk3 V c 2 t) p q).trans ?_
  unfold Cert.Spec.linRows
  refine congrArg₂ (· * ·) (Finset.sum_congr rfl fun k _ => congrArg₂ (· * ·) ?_ ?_) ?_
  · exact hb_blk3_0 V c t p k (ix2 (i 0) k) h0 rfl
  · exact hb_blk3_1 V c t k q (ix2 k (i 1)) rfl h1
  · exact hb_blk3_2 V c t p (ix2 (i 0) 0) h0

/-- What point `t` writes back is block `t` of the transform of the arrays as the region finds them. -/
theorem hb_flushed3 (c : Dev nD) (t : Fin cfg3.N) :
    (Gen.dat3 (F := Ideal) V c).flushed 3 t
      = ((cfg3.win 3).blk t).view.read (Elt Ideal)
          (Cert.Spec.linRows (V c (Pipeline.arrRef spec3 0)) (V c (Pipeline.arrRef spec3 1))
            (V c (Pipeline.arrRef spec3 2))) := by
  show (cfg3.win 3).cut (grid3.coords t) ((Gen.dat3 V c).after 3 t) = _
  rw [Gen.after3_3]
  unfold Gen.out3_3
  rw [View.canon_unit_zero hb_zero2]
  simp only [View.ld_unit_zero (S := S5000x128) hb_zero2, View.ld_unit_zero (S := S128x128) hb_zero2,
    View.ld_unit_zero (S := S5000x1) hb_zero2]
  obtain ⟨-, -, -, -, -, -, e6, -⟩ := hb_idx3 t
  refine funext fun (j : S5000x128.Idx) => ?_
  obtain ⟨p, q, rfl⟩ : ∃ (p : Fin 5000) (q : Fin 128), j = ix2 p q := ⟨j 0, j 1, eq_ix2 j⟩
  have hx : (cfg3.win 3).xinj (grid3.coords t) (ix2 p q) = ix2 p q :=
    funext (Fin.forall_fin_two.mpr ⟨rfl, rfl⟩)
  rw [View.read_apply]
  refine (congrArg _ hx).trans ?_
  refine hb_point3 V c t p q _ ?_ ?_
  · show win3_3.index t (0 : Fin 2) * 5000 + 1 * p.val = _
    omega
  · show win3_3.index t (1 : Fin 2) * 128 + 1 * q.val = _
    rw [e6]; omega

/-- An index of the result is in point `t`'s block iff each coordinate is in the block's range on its axis. -/
theorem hb_mem3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v33).slice (win3_3.rect t)).set ↔ _
  rw [View.set_slice_whole, Rect.mem_set_unit]
  exact Iff.rfl

/-- Row `r` of the result is in the block of the point whose row block is `r / 5000`. -/
theorem hb_cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := hb_onto3 ⟨(i 0).val / 5000, by omega⟩
  have q0 : win3_3.index t (0 : Fin 2) = (i 0).val / 5000 := ht
  obtain ⟨-, -, -, -, -, -, e6, -⟩ := hb_idx3 t
  refine ⟨t, Gen.flush3_3 t, ?_⟩
  rw [hb_mem3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- REGION 3: after its ten points the result array is the transform of the arrays the region was entered with. -/
theorem region3 (c : Dev nD) :
    (Gen.dat3 (F := Ideal) V c).arrAt 3 cfg3.N
      = Cert.Spec.linRows (V c (Pipeline.arrRef spec3 0)) (V c (Pipeline.arrRef spec3 1))
          (V c (Pipeline.arrRef spec3 2)) :=
  (Gen.dat3 (F := Ideal) V c).arrAt_eq_of_cover 3 _ (fun t _ => hb_flushed3 V c t) (hb_cover3)

/-! ## Region 5 -/

/-- Region 5's block maps, decided over its ten points: the row-blocked operands move with the output's row block,
    every other block index is zero, and the output's row block is one of the ten. -/
theorem hb_idx5 : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = win5_3.index t (0 : Fin 2) ∧ win5_2.index t (1 : Fin 2) = 0
    ∧ win5_3.index t (1 : Fin 2) = 0 ∧ win5_3.index t (0 : Fin 2) ≤ 9 :=
  (by decide +kernel : ∀ t : Fin grid5.N, _)

/-- Every one of the ten row blocks is some point's. -/
theorem hb_onto5 : ∀ q0 : Fin 10, ∃ t : Fin cfg5.N, win5_3.index t (0 : Fin 2) = q0.val :=
  (by decide +kernel : ∀ q0 : Fin 10, ∃ t : Fin grid5.N, win5_3.index t (0 : Fin 2) = q0.val)

/-- The features' block at point `t` holds rows `5000·b … 5000·b + 4999` of the features, `b` the output's row block. -/
theorem hb_blk5_0 (c : Dev nD) (t : Fin cfg5.N) (p : Fin 5000) (k : Fin 128) (i : S50000x128.Idx)
    (h0 : (i 0).val = win5_3.index t (0 : Fin 2) * 5000 + p.val) (h1 : (i 1).val = k.val) :
    (Gen.iblk5 (F := Ideal) V c 0 t : Vec Ideal S5000x128 .f32) (ix2 p k)
      = (V c (Pipeline.arrRef spec5 0) : Cert.Spec.Mat 50000 128) i := by
  obtain ⟨e0, e1, -⟩ := hb_idx5 t
  unfold Gen.iblk5
  rw [View.read_apply]
  refine congrArg (V c (Pipeline.arrRef spec5 0) : Cert.Spec.Mat 50000 128) (funext fun a => Fin.ext ?_)
  match a with
  | ⟨0, _⟩ =>
    show win5_0.index t (0 : Fin 2) * 5000 + 1 * p.val = (i 0).val
    rw [h0, e0]; omega
  | ⟨1, _⟩ =>
    show win5_0.index t (1 : Fin 2) * 128 + 1 * k.val = (i 1).val
    rw [h1, e1]; omega

/-- The weights' block at every point is the whole of the weights. -/
theorem hb_blk5_1 (c : Dev nD) (t : Fin cfg5.N) (k : Fin 128) (q : Fin 128) (i : S128x128.Idx)
    (h0 : (i 0).val = k.val) (h1 : (i 1).val = q.val) :
    (Gen.iblk5 (F := Ideal) V c 1 t : Vec Ideal S128x128 .f32) (ix2 k q)
      = (V c (Pipeline.arrRef spec5 1) : Cert.Spec.Mat 128 128) i := by
  obtain ⟨-, -, e2, e3, -⟩ := hb_idx5 t
  unfold Gen.iblk5
  rw [View.read_apply]
  refine congrArg (V c (Pipeline.arrRef spec5 1) : Cert.Spec.Mat 128 128) (funext fun a => Fin.ext ?_)
  match a with
  | ⟨0, _⟩ =>
    show win5_1.index t (0 : Fin 2) * 128 + 1 * k.val = (i 0).val
    rw [h0, e2]; omega
  | ⟨1, _⟩ =>
    show win5_1.index t (1 : Fin 2) * 128 + 1 * q.val = (i 1).val
    rw [h1, e3]; omega

/-- The factors' block at point `t` holds the factors of the same rows as the features' block. -/
theorem hb_blk5_2 (c : Dev nD) (t : Fin cfg5.N) (p : Fin 5000) (i : S50000x1.Idx)
    (h0 : (i 0).val = win5_3.index t (0 : Fin 2) * 5000 + p.val) :
    (Gen.iblk5 (F := Ideal) V c 2 t : Vec Ideal S5000x1 .f32) (ix2 p 0)
      = (V c (Pipeline.arrRef spec5 2) : Cert.Spec.Mat 50000 1) i := by
  obtain ⟨-, -, -, -, e4, e5, -⟩ := hb_idx5 t
  unfold Gen.iblk5
  rw [View.read_apply]
  refine congrArg (V c (Pipeline.arrRef spec5 2) : Cert.Spec.Mat 50000 1) (funext fun a => Fin.ext ?_)
  match a with
  | ⟨0, _⟩ =>
    show win5_2.index t (0 : Fin 2) * 5000 + 1 * (p : Fin 5000).val = (i 0).val
    rw [h0, e4]; omega
  | ⟨1, _⟩ =>
    show win5_2.index t (1 : Fin 2) * 1 + 1 * (0 : Fin 1).val = (i 1).val
    have hi : (i 1).val < 1 := (i 1).isLt
    rw [e5]; simp only [Fin.val_zero]; omega

/-- The block computed at point `t`, read at `(p, q)`, is the transform at the array index `i` whose row is
    `5000·b + p` (`b` the output's row block at `t`) and whose column is `q`. -/
theorem hb_point5 (c : Dev nD) (t : Fin cfg5.N) (p : Fin 5000) (q : Fin 128) (i : S50000x128.Idx)
    (h0 : (i 0).val = win5_3.index t (0 : Fin 2) * 5000 + p.val) (h1 : (i 1).val = q.val) :
    Gen.k5_pay1 (F := Ideal) (Gen.iblk5 V c 0 t) (Gen.iblk5 V c 1 t) (Gen.iblk5 V c 2 t) (ix2 p q)
      = Cert.Spec.linRows (V c (Pipeline.arrRef spec5 0)) (V c (Pipeline.arrRef spec5 1))
          (V c (Pipeline.arrRef spec5 2)) i := by
  refine (hb_lin_pay (Gen.iblk5 V c 0 t) (Gen.iblk5 V c 1 t) (Gen.iblk5 V c 2 t) p q).trans ?_
  unfold Cert.Spec.linRows
  refine congrArg₂ (· * ·) (Finset.sum_congr rfl fun k _ => congrArg₂ (· * ·) ?_ ?_) ?_
  · exact hb_blk5_0 V c t p k (ix2 (i 0) k) h0 rfl
  · exact hb_blk5_1 V c t k q (ix2 k (i 1)) rfl h1
  · exact hb_blk5_2 V c t p (ix2 (i 0) 0) h0

/-- What point `t` writes back is block `t` of the transform of the arrays as the region finds them. -/
theorem hb_flushed5 (c : Dev nD) (t : Fin cfg5.N) :
    (Gen.dat5 (F := Ideal) V c).flushed 3 t
      = ((cfg5.win 3).blk t).view.read (Elt Ideal)
          (Cert.Spec.linRows (V c (Pipeline.arrRef spec5 0)) (V c (Pipeline.arrRef spec5 1))
            (V c (Pipeline.arrRef spec5 2))) := by
  show (cfg5.win 3).cut (grid5.coords t) ((Gen.dat5 V c).after 3 t) = _
  rw [Gen.after5_3]
  unfold Gen.out5_3
  rw [View.canon_unit_zero hb_zero2]
  simp only [View.ld_unit_zero (S := S5000x128) hb_zero2, View.ld_unit_zero (S := S128x128) hb_zero2,
    View.ld_unit_zero (S := S5000x1) hb_zero2]
  obtain ⟨-, -, -, -, -, -, e6, -⟩ := hb_idx5 t
  refine funext fun (j : S5000x128.Idx) => ?_
  obtain ⟨p, q, rfl⟩ : ∃ (p : Fin 5000) (q : Fin 128), j = ix2 p q := ⟨j 0, j 1, eq_ix2 j⟩
  have hx : (cfg5.win 3).xinj (grid5.coords t) (ix2 p q) = ix2 p q :=
    funext (Fin.forall_fin_two.mpr ⟨rfl, rfl⟩)
  rw [View.read_apply]
  refine (congrArg _ hx).trans ?_
  refine hb_point5 V c t p q _ ?_ ?_
  · show win5_3.index t (0 : Fin 2) * 5000 + 1 * p.val = _
    omega
  · show win5_3.index t (1 : Fin 2) * 128 + 1 * q.val = _
    rw [e6]; omega

/-- An index of the result is in point `t`'s block iff each coordinate is in the block's range on its axis. -/
theorem hb_mem5 (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v46).slice (win5_3.rect t)).set ↔ _
  rw [View.set_slice_whole, Rect.mem_set_unit]
  exact Iff.rfl

/-- Row `r` of the result is in the block of the point whose row block is `r / 5000`. -/
theorem hb_cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ := hb_onto5 ⟨(i 0).val / 5000, by omega⟩
  have q0 : win5_3.index t (0 : Fin 2) = (i 0).val / 5000 := ht
  obtain ⟨-, -, -, -, -, -, e6, -⟩ := hb_idx5 t
  refine ⟨t, Gen.flush5_3 t, ?_⟩
  rw [hb_mem5]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 128 ≤ (i 1).val ∧ (i 1).val < win5_3.index t (1 : Fin 2) * 128 + 128
    omega

/-- REGION 5: after its ten points the result array is the transform of the arrays the region was entered with. -/
theorem region5 (c : Dev nD) :
    (Gen.dat5 (F := Ideal) V c).arrAt 3 cfg5.N
      = Cert.Spec.linRows (V c (Pipeline.arrRef spec5 0)) (V c (Pipeline.arrRef spec5 1))
          (V c (Pipeline.arrRef spec5 2)) :=
  (Gen.dat5 (F := Ideal) V c).arrAt_eq_of_cover 3 _ (fun t _ => hb_flushed5 V c t) (hb_cover5)

end Cert.KernelIdeal.RegVal

end
-- ==== Proof.RegBrs.lean ====
/-
  The three closing-step regions (2, 4 and 6), each read as one function of the arrays it is entered with.

  Each of them walks ten blocks of 5000 rows. At a block it scales each of the block's rows of the entries by the row's
  own factor, adds the bias's one row to every row, and keeps what is positive, so what it writes back to rows
  `5000·b … 5000·b + 4999` is those rows of `brsRows`: row `n`, column `c` is `max (a[n,c] · d[n,0] + b[0,c]) 0`. The
  ten blocks fill the result, so after the last one the result array is `brsRows` of the entries, the factors and the
  bias. The last of the three stores its result in a narrower format, which is the identity on the extended reals.

  The arithmetic of a block is the same in the three regions and is read once (`hb_brs_pay`, `hb_brs_pay6`); the rest
  is said per region, with the region's own block maps: which rows a block holds (`hb_blk…`), the block's value at a
  coordinate as the value of `brsRows` at the row it stands for (`hb_point…`), what a point writes back
  (`hb_flushed…`), which rows a point's block covers (`hb_mem…`, `hb_cover…`), and the whole array (`region…`).
-/
import proofs.«179396_j45741401703144_2_alg».proof.Proof.Gen.KernelIdeal.Frame
import proofs.«179396_j45741401703144_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegVal

open Idealize.ShloMosaic Idealize.ShloMosaic.ValueIdx Idealize.ShloMosaic.TcCoe
open Idealize.ShloMosaic.Pipeline (Dat)
open Cert.KernelIdeal Cert.KernelIdeal.Gen

variable (V : (c : Dev nD) → (b : Ref sig .tc) → Buf (Elt Ideal) ((c : Thread nD τ).loc b))

/-- The offsets of a whole-block access are zero on both axes. -/
theorem hb_zero2' : (![0, 0] : Fin 2 → Nat) = fun _ => 0 := funext fun a => by fin_cases a <;> rfl

/-! ## The block's arithmetic at a coordinate -/

/-- The closing step's block at row `p`, column `q`: the row's entry scaled by the row's factor, the column's bias
    added, and the result kept when it is positive. The factor's one column is read on every column and the bias's one
    row on every row; the operands arrive in the order the block loads them (factor, entries, bias). -/
theorem hb_brs_pay (x0 : Vec Ideal S5000x1 .f32) (x1 : Vec Ideal S5000x128 .f32) (x2 : Vec Ideal S1x128 .f32)
    (p : Fin 5000) (q : Fin 128) :
    Gen.k2_pay1 (F := Ideal) x0 x1 x2 (ix2 p q) = max (x1 (ix2 p q) * x0 (ix2 p 0) + x2 (ix2 0 q)) 0 := by
  unfold Gen.k2_pay1
  refine (maximumf_apply _ _ _).trans ?_
  refine congrArg₂ max ?_ ?_
  · refine (addf_apply _ _ _).trans ?_
    refine congrArg₂ (· + ·) ?_ ?_
    · refine (mulf_apply _ _ _).trans ?_
      refine congrArg₂ (· * ·) ?_ ?_
      · rw [shapeCast_self]
      · rw [shapeCast_self, shapeCast_self]
        exact broadcastTo_apply _ _ _ (ix2 p 0) (fun a => by match a with | ⟨0, _⟩ => rfl | ⟨1, _⟩ => rfl)
    · rw [shapeCast_self]
      exact broadcastTo_1b_ab_apply _ _ p q
  · exact Ideal.ofBits_zero_f32

/-- The last closing step narrows its block's format before storing it, which changes nothing on the extended reals. -/
theorem hb_brs_pay6 (x0 : Vec Ideal S5000x1 .f32) (x1 : Vec Ideal S5000x128 .f32) (x2 : Vec Ideal S1x128 .f32)
    (p : Fin 5000) (q : Fin 128) :
    Gen.k6_pay1 (F := Ideal) x0 x1 x2 (ix2 p q) = max (x1 (ix2 p q) * x0 (ix2 p 0) + x2 (ix2 0 q)) 0 :=
  hb_brs_pay x0 x1 x2 p q

/-! ## Region 2 -/

/-- Region 2's block maps, decided over its ten points: the row-blocked operands move with the output's row block,
    every other block index is zero, and the output's row block is one of the ten. -/
theorem hb_idx2 : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every one of the ten row blocks is some point's. -/
theorem hb_onto2 : ∀ q0 : Fin 10, ∃ t : Fin cfg2.N, win2_3.index t (0 : Fin 2) = q0.val :=
  (by decide +kernel : ∀ q0 : Fin 10, ∃ t : Fin grid2.N, win2_3.index t (0 : Fin 2) = q0.val)

/-- The entries' block at point `t` holds rows `5000·b … 5000·b + 4999` of the entries, `b` the output's row block. -/
theorem hb_blk2_0 (c : Dev nD) (t : Fin cfg2.N) (p : Fin 5000) (q : Fin 128) (i : S50000x128.Idx)
    (h0 : (i 0).val = win2_3.index t (0 : Fin 2) * 5000 + p.val) (h1 : (i 1).val = q.val) :
    (Gen.iblk2 (F := Ideal) V c 0 t : Vec Ideal S5000x128 .f32) (ix2 p q)
      = (V c (Pipeline.arrRef spec2 0) : Cert.Spec.Mat 50000 128) i := by
  obtain ⟨e0, e1, -⟩ := hb_idx2 t
  unfold Gen.iblk2
  rw [View.read_apply]
  refine congrArg (V c (Pipeline.arrRef spec2 0) : Cert.Spec.Mat 50000 128) (funext fun a => Fin.ext ?_)
  match a with
  | ⟨0, _⟩ =>
    show win2_0.index t (0 : Fin 2) * 5000 + 1 * p.val = (i 0).val
    rw [h0, e0]; omega
  | ⟨1, _⟩ =>
    show win2_0.index t (1 : Fin 2) * 128 + 1 * q.val = (i 1).val
    rw [h1, e1]; omega

/-- The factors' block at point `t` holds the factors of the same rows as the entries' block. -/
theorem hb_blk2_1 (c : Dev nD) (t : Fin cfg2.N) (p : Fin 5000) (i : S50000x1.Idx)
    (h0 : (i 0).val = win2_3.index t (0 : Fin 2) * 5000 + p.val) :
    (Gen.iblk2 (F := Ideal) V c 1 t : Vec Ideal S5000x1 .f32) (ix2 p 0)
      = (V c (Pipeline.arrRef spec2 1) : Cert.Spec.Mat 50000 1) i := by
  obtain ⟨-, -, e2, e3, -⟩ := hb_idx2 t
  unfold Gen.iblk2
  rw [View.read_apply]
  refine congrArg (V c (Pipeline.arrRef spec2 1) : Cert.Spec.Mat 50000 1) (funext fun a => Fin.ext ?_)
  match a with
  | ⟨0, _⟩ =>
    show win2_1.index t (0 : Fin 2) * 5000 + 1 * (p : Fin 5000).val = (i 0).val
    rw [h0, e2]; omega
  | ⟨1, _⟩ =>
    show win2_1.index t (1 : Fin 2) * 1 + 1 * (0 : Fin 1).val = (i 1).val
    have hi : (i 1).val < 1 := (i 1).isLt
    rw [e3]; simp only [Fin.val_zero]; omega

/-- The bias's block at every point is the whole of the bias, one row. -/
theorem hb_blk2_2 (c : Dev nD) (t : Fin cfg2.N) (q : Fin 128) (i : S1x128.Idx)
    (h1 : (i 1).val = q.val) :
    (Gen.iblk2 (F := Ideal) V c 2 t : Vec Ideal S1x128 .f32) (ix2 0 q)
      = (V c (Pipeline.arrRef spec2 2) : Cert.Spec.Mat 1 128) i := by
  obtain ⟨-, -, -, -, e4, e5, -⟩ := hb_idx2 t
  unfold Gen.iblk2
  rw [View.read_apply]
  refine congrArg (V c (Pipeline.arrRef spec2 2) : Cert.Spec.Mat 1 128) (funext fun a => Fin.ext ?_)
  match a with
  | ⟨0, _⟩ =>
    show win2_2.index t (0 : Fin 2) * 1 + 1 * (0 : Fin 1).val = (i 0).val
    have hi : (i 0).val < 1 := (i 0).isLt
    rw [e4]; simp only [Fin.val_zero]; omega
  | ⟨1, _⟩ =>
    show win2_2.index t (1 : Fin 2) * 128 + 1 * (q : Fin 128).val = (i 1).val
    rw [h1, e5]; omega

/-- The block computed at point `t`, read at `(p, q)`, is the closing step at the array index `i` whose row is
    `5000·b + p` (`b` the output's row block at `t`) and whose column is `q`. -/
theorem hb_point2 (c : Dev nD) (t : Fin cfg2.N) (p : Fin 5000) (q : Fin 128) (i : S50000x128.Idx)
    (h0 : (i 0).val = win2_3.index t (0 : Fin 2) * 5000 + p.val) (h1 : (i 1).val = q.val) :
    Gen.k2_pay1 (F := Ideal) (Gen.iblk2 V c 1 t) (Gen.iblk2 V c 0 t) (Gen.iblk2 V c 2 t) (ix2 p q)
      = Cert.Spec.brsRows (V c (Pipeline.arrRef spec2 0)) (V c (Pipeline.arrRef spec2 1))
          (V c (Pipeline.arrRef spec2 2)) i := by
  refine (hb_brs_pay (Gen.iblk2 V c 1 t) (Gen.iblk2 V c 0 t) (Gen.iblk2 V c 2 t) p q).trans ?_
  unfold Cert.Spec.brsRows
  refine congrArg₂ max (congrArg₂ (· + ·) (congrArg₂ (· * ·) ?_ ?_) ?_) rfl
  · exact hb_blk2_0 V c t p q i h0 h1
  · exact hb_blk2_1 V c t p (ix2 (i 0) 0) h0
  · exact hb_blk2_2 V c t q (ix2 0 (i 1)) h1

/-- What point `t` writes back is block `t` of the closing step of the arrays as the region finds them. -/
theorem hb_flushed2 (c : Dev nD) (t : Fin cfg2.N) :
    (Gen.dat2 (F := Ideal) V c).flushed 3 t
      = ((cfg2.win 3).blk t).view.read (Elt Ideal)
          (Cert.Spec.brsRows (V c (Pipeline.arrRef spec2 0)) (V c (Pipeline.arrRef spec2 1))
            (V c (Pipeline.arrRef spec2 2))) := by
  show (cfg2.win 3).cut (grid2.coords t) ((Gen.dat2 V c).after 3 t) = _
  rw [Gen.after2_3]
  unfold Gen.out2_3
  rw [View.canon_unit_zero hb_zero2']
  simp only [View.ld_unit_zero (S := S5000x128) hb_zero2', View.ld_unit_zero (S := S5000x1) hb_zero2',
    View.ld_unit_zero (S := S1x128) hb_zero2']
  obtain ⟨-, -, -, -, -, -, e6, -⟩ := hb_idx2 t
  refine funext fun (j : S5000x128.Idx) => ?_
  obtain ⟨p, q, rfl⟩ : ∃ (p : Fin 5000) (q : Fin 128), j = ix2 p q := ⟨j 0, j 1, eq_ix2 j⟩
  have hx : (cfg2.win 3).xinj (grid2.coords t) (ix2 p q) = ix2 p q :=
    funext (Fin.forall_fin_two.mpr ⟨rfl, rfl⟩)
  rw [View.read_apply]
  refine (congrArg _ hx).trans ?_
  refine hb_point2 V c t p q _ ?_ ?_
  · show win2_3.index t (0 : Fin 2) * 5000 + 1 * p.val = _
    omega
  · show win2_3.index t (1 : Fin 2) * 128 + 1 * q.val = _
    rw [e6]; omega

/-- An index of the result is in point `t`'s block iff each coordinate is in the block's range on its axis. -/
theorem hb_mem2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v32).slice (win2_3.rect t)).set ↔ _
  rw [View.set_slice_whole, Rect.mem_set_unit]
  exact Iff.rfl

/-- Row `r` of the result is in the block of the point whose row block is `r / 5000`. -/
theorem hb_cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := hb_onto2 ⟨(i 0).val / 5000, by omega⟩
  have q0 : win2_3.index t (0 : Fin 2) = (i 0).val / 5000 := ht
  obtain ⟨-, -, -, -, -, -, e6, -⟩ := hb_idx2 t
  refine ⟨t, Gen.flush2_3 t, ?_⟩
  rw [hb_mem2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- REGION 2: after its ten points the result array is the closing step of the arrays the region was entered with. -/
theorem region2 (c : Dev nD) :
    (Gen.dat2 (F := Ideal) V c).arrAt 3 cfg2.N
      = Cert.Spec.brsRows (V c (Pipeline.arrRef spec2 0)) (V c (Pipeline.arrRef spec2 1))
          (V c (Pipeline.arrRef spec2 2)) :=
  (Gen.dat2 (F := Ideal) V c).arrAt_eq_of_cover 3 _ (fun t _ => hb_flushed2 V c t) (hb_cover2)

/-! ## Region 4 -/

/-- Region 4's block maps, decided over its ten points: the row-blocked operands move with the output's row block,
    every other block index is zero, and the output's row block is one of the ten. -/
theorem hb_idx4 : ∀ t : Fin cfg4.N,
    win4_0.index t (0 : Fin 2) = win4_3.index t (0 : Fin 2) ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every one of the ten row blocks is some point's. -/
theorem hb_onto4 : ∀ q0 : Fin 10, ∃ t : Fin cfg4.N, win4_3.index t (0 : Fin 2) = q0.val :=
  (by decide +kernel : ∀ q0 : Fin 10, ∃ t : Fin grid4.N, win4_3.index t (0 : Fin 2) = q0.val)

/-- The entries' block at point `t` holds rows `5000·b … 5000·b + 4999` of the entries, `b` the output's row block. -/
theorem hb_blk4_0 (c : Dev nD) (t : Fin cfg4.N) (p : Fin 5000) (q : Fin 128) (i : S50000x128.Idx)
    (h0 : (i 0).val = win4_3.index t (0 : Fin 2) * 5000 + p.val) (h1 : (i 1).val = q.val) :
    (Gen.iblk4 (F := Ideal) V c 0 t : Vec Ideal S5000x128 .f32) (ix2 p q)
      = (V c (Pipeline.arrRef spec4 0) : Cert.Spec.Mat 50000 128) i := by
  obtain ⟨e0, e1, -⟩ := hb_idx4 t
  unfold Gen.iblk4
  rw [View.read_apply]
  refine congrArg (V c (Pipeline.arrRef spec4 0) : Cert.Spec.Mat 50000 128) (funext fun a => Fin.ext ?_)
  match a with
  | ⟨0, _⟩ =>
    show win4_0.index t (0 : Fin 2) * 5000 + 1 * p.val = (i 0).val
    rw [h0, e0]; omega
  | ⟨1, _⟩ =>
    show win4_0.index t (1 : Fin 2) * 128 + 1 * q.val = (i 1).val
    rw [h1, e1]; omega

/-- The factors' block at point `t` holds the factors of the same rows as the entries' block. -/
theorem hb_blk4_1 (c : Dev nD) (t : Fin cfg4.N) (p : Fin 5000) (i : S50000x1.Idx)
    (h0 : (i 0).val = win4_3.index t (0 : Fin 2) * 5000 + p.val) :
    (Gen.iblk4 (F := Ideal) V c 1 t : Vec Ideal S5000x1 .f32) (ix2 p 0)
      = (V c (Pipeline.arrRef spec4 1) : Cert.Spec.Mat 50000 1) i := by
  obtain ⟨-, -, e2, e3, -⟩ := hb_idx4 t
  unfold Gen.iblk4
  rw [View.read_apply]
  refine congrArg (V c (Pipeline.arrRef spec4 1) : Cert.Spec.Mat 50000 1) (funext fun a => Fin.ext ?_)
  match a with
  | ⟨0, _⟩ =>
    show win4_1.index t (0 : Fin 2) * 5000 + 1 * (p : Fin 5000).val = (i 0).val
    rw [h0, e2]; omega
  | ⟨1, _⟩ =>
    show win4_1.index t (1 : Fin 2) * 1 + 1 * (0 : Fin 1).val = (i 1).val
    have hi : (i 1).val < 1 := (i 1).isLt
    rw [e3]; simp only [Fin.val_zero]; omega

/-- The bias's block at every point is the whole of the bias, one row. -/
theorem hb_blk4_2 (c : Dev nD) (t : Fin cfg4.N) (q : Fin 128) (i : S1x128.Idx)
    (h1 : (i 1).val = q.val) :
    (Gen.iblk4 (F := Ideal) V c 2 t : Vec Ideal S1x128 .f32) (ix2 0 q)
      = (V c (Pipeline.arrRef spec4 2) : Cert.Spec.Mat 1 128) i := by
  obtain ⟨-, -, -, -, e4, e5, -⟩ := hb_idx4 t
  unfold Gen.iblk4
  rw [View.read_apply]
  refine congrArg (V c (Pipeline.arrRef spec4 2) : Cert.Spec.Mat 1 128) (funext fun a => Fin.ext ?_)
  match a with
  | ⟨0, _⟩ =>
    show win4_2.index t (0 : Fin 2) * 1 + 1 * (0 : Fin 1).val = (i 0).val
    have hi : (i 0).val < 1 := (i 0).isLt
    rw [e4]; simp only [Fin.val_zero]; omega
  | ⟨1, _⟩ =>
    show win4_2.index t (1 : Fin 2) * 128 + 1 * (q : Fin 128).val = (i 1).val
    rw [h1, e5]; omega

/-- The block computed at point `t`, read at `(p, q)`, is the closing step at the array index `i` whose row is
    `5000·b + p` (`b` the output's row block at `t`) and whose column is `q`. -/
theorem hb_point4 (c : Dev nD) (t : Fin cfg4.N) (p : Fin 5000) (q : Fin 128) (i : S50000x128.Idx)
    (h0 : (i 0).val = win4_3.index t (0 : Fin 2) * 5000 + p.val) (h1 : (i 1).val = q.val) :
    Gen.k4_pay1 (F := Ideal) (Gen.iblk4 V c 1 t) (Gen.iblk4 V c 0 t) (Gen.iblk4 V c 2 t) (ix2 p q)
      = Cert.Spec.brsRows (V c (Pipeline.arrRef spec4 0)) (V c (Pipeline.arrRef spec4 1))
          (V c (Pipeline.arrRef spec4 2)) i := by
  refine (hb_brs_pay (Gen.iblk4 V c 1 t) (Gen.iblk4 V c 0 t) (Gen.iblk4 V c 2 t) p q).trans ?_
  unfold Cert.Spec.brsRows
  refine congrArg₂ max (congrArg₂ (· + ·) (congrArg₂ (· * ·) ?_ ?_) ?_) rfl
  · exact hb_blk4_0 V c t p q i h0 h1
  · exact hb_blk4_1 V c t p (ix2 (i 0) 0) h0
  · exact hb_blk4_2 V c t q (ix2 0 (i 1)) h1

/-- What point `t` writes back is block `t` of the closing step of the arrays as the region finds them. -/
theorem hb_flushed4 (c : Dev nD) (t : Fin cfg4.N) :
    (Gen.dat4 (F := Ideal) V c).flushed 3 t
      = ((cfg4.win 3).blk t).view.read (Elt Ideal)
          (Cert.Spec.brsRows (V c (Pipeline.arrRef spec4 0)) (V c (Pipeline.arrRef spec4 1))
            (V c (Pipeline.arrRef spec4 2))) := by
  show (cfg4.win 3).cut (grid4.coords t) ((Gen.dat4 V c).after 3 t) = _
  rw [Gen.after4_3]
  unfold Gen.out4_3
  rw [View.canon_unit_zero hb_zero2']
  simp only [View.ld_unit_zero (S := S5000x128) hb_zero2', View.ld_unit_zero (S := S5000x1) hb_zero2',
    View.ld_unit_zero (S := S1x128) hb_zero2']
  obtain ⟨-, -, -, -, -, -, e6, -⟩ := hb_idx4 t
  refine funext fun (j : S5000x128.Idx) => ?_
  obtain ⟨p, q, rfl⟩ : ∃ (p : Fin 5000) (q : Fin 128), j = ix2 p q := ⟨j 0, j 1, eq_ix2 j⟩
  have hx : (cfg4.win 3).xinj (grid4.coords t) (ix2 p q) = ix2 p q :=
    funext (Fin.forall_fin_two.mpr ⟨rfl, rfl⟩)
  rw [View.read_apply]
  refine (congrArg _ hx).trans ?_
  refine hb_point4 V c t p q _ ?_ ?_
  · show win4_3.index t (0 : Fin 2) * 5000 + 1 * p.val = _
    omega
  · show win4_3.index t (1 : Fin 2) * 128 + 1 * q.val = _
    rw [e6]; omega

/-- An index of the result is in point `t`'s block iff each coordinate is in the block's range on its axis. -/
theorem hb_mem4 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v45).slice (win4_3.rect t)).set ↔ _
  rw [View.set_slice_whole, Rect.mem_set_unit]
  exact Iff.rfl

/-- Row `r` of the result is in the block of the point whose row block is `r / 5000`. -/
theorem hb_cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ := hb_onto4 ⟨(i 0).val / 5000, by omega⟩
  have q0 : win4_3.index t (0 : Fin 2) = (i 0).val / 5000 := ht
  obtain ⟨-, -, -, -, -, -, e6, -⟩ := hb_idx4 t
  refine ⟨t, Gen.flush4_3 t, ?_⟩
  rw [hb_mem4]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 128 ≤ (i 1).val ∧ (i 1).val < win4_3.index t (1 : Fin 2) * 128 + 128
    omega

/-- REGION 4: after its ten points the result array is the closing step of the arrays the region was entered with. -/
theorem region4 (c : Dev nD) :
    (Gen.dat4 (F := Ideal) V c).arrAt 3 cfg4.N
      = Cert.Spec.brsRows (V c (Pipeline.arrRef spec4 0)) (V c (Pipeline.arrRef spec4 1))
          (V c (Pipeline.arrRef spec4 2)) :=
  (Gen.dat4 (F := Ideal) V c).arrAt_eq_of_cover 3 _ (fun t _ => hb_flushed4 V c t) (hb_cover4)

/-! ## Region 6 -/

/-- Region 6's block maps, decided over its ten points: the row-blocked operands move with the output's row block,
    every other block index is zero, and the output's row block is one of the ten. -/
theorem hb_idx6 : ∀ t : Fin cfg6.N,
    win6_0.index t (0 : Fin 2) = win6_3.index t (0 : Fin 2) ∧ win6_0.index t (1 : Fin 2) = 0
    ∧ win6_1.index t (0 : Fin 2) = win6_3.index t (0 : Fin 2) ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 9 :=
  (by decide +kernel : ∀ t : Fin grid6.N, _)

/-- Every one of the ten row blocks is some point's. -/
theorem hb_onto6 : ∀ q0 : Fin 10, ∃ t : Fin cfg6.N, win6_3.index t (0 : Fin 2) = q0.val :=
  (by decide +kernel : ∀ q0 : Fin 10, ∃ t : Fin grid6.N, win6_3.index t (0 : Fin 2) = q0.val)

/-- The entries' block at point `t` holds rows `5000·b … 5000·b + 4999` of the entries, `b` the output's row block. -/
theorem hb_blk6_0 (c : Dev nD) (t : Fin cfg6.N) (p : Fin 5000) (q : Fin 128) (i : S50000x128.Idx)
    (h0 : (i 0).val = win6_3.index t (0 : Fin 2) * 5000 + p.val) (h1 : (i 1).val = q.val) :
    (Gen.iblk6 (F := Ideal) V c 0 t : Vec Ideal S5000x128 .f32) (ix2 p q)
      = (V c (Pipeline.arrRef spec6 0) : Cert.Spec.Mat 50000 128) i := by
  obtain ⟨e0, e1, -⟩ := hb_idx6 t
  unfold Gen.iblk6
  rw [View.read_apply]
  refine congrArg (V c (Pipeline.arrRef spec6 0) : Cert.Spec.Mat 50000 128) (funext fun a => Fin.ext ?_)
  match a with
  | ⟨0, _⟩ =>
    show win6_0.index t (0 : Fin 2) * 5000 + 1 * p.val = (i 0).val
    rw [h0, e0]; omega
  | ⟨1, _⟩ =>
    show win6_0.index t (1 : Fin 2) * 128 + 1 * q.val = (i 1).val
    rw [h1, e1]; omega

/-- The factors' block at point `t` holds the factors of the same rows as the entries' block. -/
theorem hb_blk6_1 (c : Dev nD) (t : Fin cfg6.N) (p : Fin 5000) (i : S50000x1.Idx)
    (h0 : (i 0).val = win6_3.index t (0 : Fin 2) * 5000 + p.val) :
    (Gen.iblk6 (F := Ideal) V c 1 t : Vec Ideal S5000x1 .f32) (ix2 p 0)
      = (V c (Pipeline.arrRef spec6 1) : Cert.Spec.Mat 50000 1) i := by
  obtain ⟨-, -, e2, e3, -⟩ := hb_idx6 t
  unfold Gen.iblk6
  rw [View.read_apply]
  refine congrArg (V c (Pipeline.arrRef spec6 1) : Cert.Spec.Mat 50000 1) (funext fun a => Fin.ext ?_)
  match a with
  | ⟨0, _⟩ =>
    show win6_1.index t (0 : Fin 2) * 5000 + 1 * (p : Fin 5000).val = (i 0).val
    rw [h0, e2]; omega
  | ⟨1, _⟩ =>
    show win6_1.index t (1 : Fin 2) * 1 + 1 * (0 : Fin 1).val = (i 1).val
    have hi : (i 1).val < 1 := (i 1).isLt
    rw [e3]; simp only [Fin.val_zero]; omega

/-- The bias's block at every point is the whole of the bias, one row. -/
theorem hb_blk6_2 (c : Dev nD) (t : Fin cfg6.N) (q : Fin 128) (i : S1x128.Idx)
    (h1 : (i 1).val = q.val) :
    (Gen.iblk6 (F := Ideal) V c 2 t : Vec Ideal S1x128 .f32) (ix2 0 q)
      = (V c (Pipeline.arrRef spec6 2) : Cert.Spec.Mat 1 128) i := by
  obtain ⟨-, -, -, -, e4, e5, -⟩ := hb_idx6 t
  unfold Gen.iblk6
  rw [View.read_apply]
  refine congrArg (V c (Pipeline.arrRef spec6 2) : Cert.Spec.Mat 1 128) (funext fun a => Fin.ext ?_)
  match a with
  | ⟨0, _⟩ =>
    show win6_2.index t (0 : Fin 2) * 1 + 1 * (0 : Fin 1).val = (i 0).val
    have hi : (i 0).val < 1 := (i 0).isLt
    rw [e4]; simp only [Fin.val_zero]; omega
  | ⟨1, _⟩ =>
    show win6_2.index t (1 : Fin 2) * 128 + 1 * (q : Fin 128).val = (i 1).val
    rw [h1, e5]; omega

/-- The block computed at point `t`, read at `(p, q)`, is the closing step at the array index `i` whose row is
    `5000·b + p` (`b` the output's row block at `t`) and whose column is `q`. -/
theorem hb_point6 (c : Dev nD) (t : Fin cfg6.N) (p : Fin 5000) (q : Fin 128) (i : S50000x128.Idx)
    (h0 : (i 0).val = win6_3.index t (0 : Fin 2) * 5000 + p.val) (h1 : (i 1).val = q.val) :
    Gen.k6_pay1 (F := Ideal) (Gen.iblk6 V c 1 t) (Gen.iblk6 V c 0 t) (Gen.iblk6 V c 2 t) (ix2 p q)
      = Cert.Spec.brsRows (V c (Pipeline.arrRef spec6 0)) (V c (Pipeline.arrRef spec6 1))
          (V c (Pipeline.arrRef spec6 2)) i := by
  refine (hb_brs_pay6 (Gen.iblk6 V c 1 t) (Gen.iblk6 V c 0 t) (Gen.iblk6 V c 2 t) p q).trans ?_
  unfold Cert.Spec.brsRows
  refine congrArg₂ max (congrArg₂ (· + ·) (congrArg₂ (· * ·) ?_ ?_) ?_) rfl
  · exact hb_blk6_0 V c t p q i h0 h1
  · exact hb_blk6_1 V c t p (ix2 (i 0) 0) h0
  · exact hb_blk6_2 V c t q (ix2 0 (i 1)) h1

/-- What point `t` writes back is block `t` of the closing step of the arrays as the region finds them. -/
theorem hb_flushed6 (c : Dev nD) (t : Fin cfg6.N) :
    (Gen.dat6 (F := Ideal) V c).flushed 3 t
      = ((cfg6.win 3).blk t).view.read (Elt Ideal)
          (Cert.Spec.brsRows (V c (Pipeline.arrRef spec6 0)) (V c (Pipeline.arrRef spec6 1))
            (V c (Pipeline.arrRef spec6 2))) := by
  show (cfg6.win 3).cut (grid6.coords t) ((Gen.dat6 V c).after 3 t) = _
  rw [Gen.after6_3]
  unfold Gen.out6_3
  rw [View.canon_unit_zero hb_zero2']
  simp only [View.ld_unit_zero (S := S5000x128) hb_zero2', View.ld_unit_zero (S := S5000x1) hb_zero2',
    View.ld_unit_zero (S := S1x128) hb_zero2']
  obtain ⟨-, -, -, -, -, -, e6, -⟩ := hb_idx6 t
  refine funext fun (j : S5000x128.Idx) => ?_
  obtain ⟨p, q, rfl⟩ : ∃ (p : Fin 5000) (q : Fin 128), j = ix2 p q := ⟨j 0, j 1, eq_ix2 j⟩
  have hx : (cfg6.win 3).xinj (grid6.coords t) (ix2 p q) = ix2 p q :=
    funext (Fin.forall_fin_two.mpr ⟨rfl, rfl⟩)
  rw [View.read_apply]
  refine (congrArg _ hx).trans ?_
  refine hb_point6 V c t p q _ ?_ ?_
  · show win6_3.index t (0 : Fin 2) * 5000 + 1 * p.val = _
    omega
  · show win6_3.index t (1 : Fin 2) * 128 + 1 * q.val = _
    rw [e6]; omega

/-- An index of the result is in point `t`'s block iff each coordinate is in the block's range on its axis. -/
theorem hb_mem6 (t : Fin cfg6.N) (i : S50000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v58).slice (win6_3.rect t)).set ↔ _
  rw [View.set_slice_whole, Rect.mem_set_unit]
  exact Iff.rfl

/-- Row `r` of the result is in the block of the point whose row block is `r / 5000`. -/
theorem hb_cover6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  obtain ⟨t, ht⟩ := hb_onto6 ⟨(i 0).val / 5000, by omega⟩
  have q0 : win6_3.index t (0 : Fin 2) = (i 0).val / 5000 := ht
  obtain ⟨-, -, -, -, -, -, e6, -⟩ := hb_idx6 t
  refine ⟨t, Gen.flush6_3 t, ?_⟩
  rw [hb_mem6]
  intro a
  match a with
  | ⟨0, _⟩ =>
    show win6_3.index t (0 : Fin 2) * 5000 ≤ (i 0).val ∧ (i 0).val < win6_3.index t (0 : Fin 2) * 5000 + 5000
    omega
  | ⟨1, _⟩ =>
    show win6_3.index t (1 : Fin 2) * 128 ≤ (i 1).val ∧ (i 1).val < win6_3.index t (1 : Fin 2) * 128 + 128
    omega

/-- REGION 6: after its ten points the result array is the closing step of the arrays the region was entered with. -/
theorem region6 (c : Dev nD) :
    (Gen.dat6 (F := Ideal) V c).arrAt 3 cfg6.N
      = Cert.Spec.brsRows (V c (Pipeline.arrRef spec6 0)) (V c (Pipeline.arrRef spec6 1))
          (V c (Pipeline.arrRef spec6 2)) :=
  (Gen.dat6 (F := Ideal) V c).arrAt_eq_of_cover 3 _ (fun t _ => hb_flushed6 V c t) (hb_cover6)

end Cert.KernelIdeal.RegVal

end
-- ==== Proof.RegMlp.lean ====
/-
  Region 7, the edge classifier: its output array after all hundred row blocks is `max (e·W₁ + b₁) 0 · W₂ + b₂` of its
  operand arrays.

  The body's hidden layer at a row and unit of a block is the contraction of the block's row of `e` with the column of
  `W₁`, plus the bias entry, clamped below at zero; its result at a row and class is the contraction of that hidden row
  with the column of `W₂`, plus the second bias entry. A block of `e` and of the output at grid point `t` is rows
  `8000·t … 8000·t + 7999` of its array, the weights and biases are whole at every point, so what point `t` writes back
  is block `t` of the classifier's rows; row `r` lies in the block of point `r / 8000`, so the hundred blocks fill the
  array.
-/
import proofs.«179396_j45741401703144_2_alg».proof.Proof.Gen.KernelIdeal.Frame
import proofs.«179396_j45741401703144_2_alg».proof.Proof.Spec
import proofs.«179396_j45741401703144_2_alg».proof.Proof.LibPlainDot
import Idealize.ShloMosaic.Lib.Pipeline.Value

noncomputable section

open Idealize.ShloMosaic Idealize.ShloMosaic.TcCoe Idealize.ShloMosaic.ValueIdx
open Idealize.ShloMosaic.Pipeline (Dat)
open scoped BigOperators

namespace Cert.KernelIdeal.RegVal

open Cert.KernelIdeal Cert.KernelIdeal.Gen

/-- The classifier's hidden layer at row `p`, unit `k` of a block. -/
theorem ha_mlp_hidden (e : Vec Ideal S8000x256 .bf16) (w1 : Vec Ideal S256x128 .f32) (b1 : Vec Ideal S1x128 .f32)
    (p : Fin 8000) (k : Fin 128) :
    (maximumf (addf (matmul (F := Ideal) dot_S8000x256_S256x128_S8000x128_1_0_0_1_n_n none
          (shapeCast S8000x256 e shapeCasts_S8000x256_S8000x256 : FVec Ideal S8000x256 .bf16) (truncf .bf16 w1 bitsLt_bf16_f32)
          (constant S8000x128 .f32 0x00000000#32))
        (broadcastTo S8000x128 (shapeCast S1x128 b1 shapeCasts_S1x128_S1x128) broadcasts_S1x128_S8000x128))
      (broadcast S8000x128 (Scalar.ofBits .f32 0x00000000#32)) : FVec Ideal S8000x128 .f32) (ix2 p k)
      = max ((∑ s : Fin 256, e (ix2 p s) * w1 (ix2 s k)) + b1 (ix2 0 k)) 0 := by
  rw [maximumf_apply, addf_apply, broadcast_apply]
  have hm := Cert.PlainDot.matmul_zero_apply 8000 256 128 (φ₁ := .bf16) (φ₂ := .bf16) none
    (shapeCast S8000x256 e shapeCasts_S8000x256_S8000x256 : FVec Ideal S8000x256 .bf16) (truncf .bf16 w1 bitsLt_bf16_f32) (ix2 p k)
  have hb : broadcastTo S8000x128 (shapeCast S1x128 b1 shapeCasts_S1x128_S1x128) broadcasts_S1x128_S8000x128 (ix2 p k)
      = b1 (ix2 0 k) := by
    rw [shapeCast_self]
    exact broadcastTo_apply b1 _ (ix2 p k) (ix2 0 k) (fun a => by match a with | ⟨0, _⟩ => rfl | ⟨1, _⟩ => rfl)
  have hz : (FloatOps.ofBits FTy.f32 0#32 : Ideal .f32) = 0 := Ideal.ofBits_zero_f32
  refine congrArg₂ max (congrArg₂ (· + ·) (hm.trans ?_) hb) hz
  rw [shapeCast_self]
  rfl

/-- The classifier's output layer over a hidden block `h`, at row `p`, class `q`. -/
theorem ha_mlp_outer (h : FVec Ideal S8000x128 .f32) (w2 : Vec Ideal S128x3 .f32) (b2 : Vec Ideal S1x3 .f32)
    (p : Fin 8000) (q : Fin 3) :
    (addf (matmul (F := Ideal) dot_S8000x128_S128x3_S8000x3_1_0_0_1_n_n none
          (truncf .bf16 h bitsLt_bf16_f32) (truncf .bf16 w2 bitsLt_bf16_f32) (constant S8000x3 .f32 0x00000000#32))
        (broadcastTo S8000x3 (shapeCast S1x3 b2 shapeCasts_S1x3_S1x3) broadcasts_S1x3_S8000x3)
      : FVec Ideal S8000x3 .f32) (ix2 p q)
      = (∑ k : Fin 128, h (ix2 p k) * w2 (ix2 k q)) + b2 (ix2 0 q) := by
  rw [addf_apply]
  have hm := Cert.PlainDot.matmul_zero_apply 8000 128 3 (φ₁ := .bf16) (φ₂ := .bf16) none
    (truncf .bf16 h bitsLt_bf16_f32) (truncf .bf16 w2 bitsLt_bf16_f32) (ix2 p q)
  have hb : broadcastTo S8000x3 (shapeCast S1x3 b2 shapeCasts_S1x3_S1x3) broadcasts_S1x3_S8000x3 (ix2 p q)
      = b2 (ix2 0 q) := by
    rw [shapeCast_self]
    exact broadcastTo_apply b2 _ (ix2 p q) (ix2 0 q) (fun a => by match a with | ⟨0, _⟩ => rfl | ⟨1, _⟩ => rfl)
  refine congrArg₂ (· + ·) (hm.trans ?_) hb
  rfl

/-- The classifier body's result at row `p`, class `q` of a block. -/
theorem ha_mlp_pay (e : Vec Ideal S8000x256 .bf16) (w1 : Vec Ideal S256x128 .f32) (b1 : Vec Ideal S1x128 .f32)
    (w2 : Vec Ideal S128x3 .f32) (b2 : Vec Ideal S1x3 .f32) (p : Fin 8000) (q : Fin 3) :
    Gen.k7_pay1 (F := Ideal) e w1 b1 w2 b2 (ix2 p q)
      = (∑ k : Fin 128, max ((∑ s : Fin 256, e (ix2 p s) * w1 (ix2 s k)) + b1 (ix2 0 k)) 0 * w2 (ix2 k q))
        + b2 (ix2 0 q) := by
  unfold Gen.k7_pay1
  refine (ha_mlp_outer _ w2 b2 p q).trans ?_
  exact congrArg₂ (· + ·) (Finset.sum_congr rfl fun k _ => congrArg₂ (· * ·) (ha_mlp_hidden e w1 b1 p k) rfl) rfl

/-- The classifier body on a block whose row `p` is row `r` of `E` and whose small operands are the whole arrays: its
    result at row `p`, class `q` is the classifier's row `r`, class `q` of the arrays. -/
theorem ha_mlp_block (E : Cert.Spec.Mat 800000 256) (W1 : Cert.Spec.Mat 256 128) (B1 : Cert.Spec.Mat 1 128)
    (W2 : Cert.Spec.Mat 128 3) (B2 : Cert.Spec.Mat 1 3)
    (e : Vec Ideal S8000x256 .bf16) (w1 : Vec Ideal S256x128 .f32) (b1 : Vec Ideal S1x128 .f32)
    (w2 : Vec Ideal S128x3 .f32) (b2 : Vec Ideal S1x3 .f32) (p : Fin 8000) (q : Fin 3) (r : Fin 800000)
    (he : ∀ s, e (ix2 p s) = E (ix2 r s)) (hw1 : ∀ s k, w1 (ix2 s k) = W1 (ix2 s k))
    (hb1 : ∀ k, b1 (ix2 0 k) = B1 (ix2 0 k)) (hw2 : ∀ k, w2 (ix2 k q) = W2 (ix2 k q))
    (hb2 : b2 (ix2 0 q) = B2 (ix2 0 q)) :
    Gen.k7_pay1 (F := Ideal) e w1 b1 w2 b2 (ix2 p q) = Cert.Spec.mlpRows E W1 B1 W2 B2 (ix2 r q) := by
  rw [ha_mlp_pay, Cert.Spec.mlpRows_apply]
  simp only [he, hw1, hb1, hw2, hb2]

variable (V : (c : Dev nD) → (b : Ref sig .tc) → Buf (Elt Ideal) ((c : Thread nD τ).loc b))

/-- The zero offsets of a whole-buffer access. -/
theorem ha_hz7 : (![0, 0] : Fin 2 → Nat) = fun _ => 0 := funext fun a => by fin_cases a <;> rfl

/-- The block indices of the classifier's six windows at a grid point: the row-blocked windows sit at the point's
    own number, the whole-array windows at zero. -/
theorem ha_mlp_idx : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 ∧ t.val < 100 :=
  (by decide +kernel : ∀ t : Fin grid7.N, _)

/-- Row `p` of point `t`'s block of the edge features is row `8000·t + p` of the array. -/
theorem ha_mlp_e (c : Dev nD) (t : Fin cfg7.N) (p : Fin 8000) (s : Fin 256) (r : Fin 800000)
    (hr : r.val = t.val * 8000 + p.val) :
    (Gen.iblk7 V c 0 t : Vec Ideal S8000x256 .bf16) (ix2 p s)
      = (V c (Pipeline.arrRef spec7 0) : Cert.Spec.Mat 800000 256) (ix2 r s) := by
  obtain ⟨e0, e1, -⟩ := ha_mlp_idx t
  unfold Gen.iblk7
  rw [View.read_apply]
  show (V c (Pipeline.arrRef spec7 0) : Cert.Spec.Mat 800000 256) _ = _
  refine congrArg (V c (Pipeline.arrRef spec7 0) : Cert.Spec.Mat 800000 256) (funext fun a => Fin.ext ?_)
  match a with
  | ⟨0, _⟩ => show win7_0.index t (0 : Fin 2) * 8000 + 1 * p.val = r.val; omega
  | ⟨1, _⟩ => show win7_0.index t (1 : Fin 2) * 256 + 1 * s.val = s.val; omega

/-- The first weight's block is the whole weight at every point. -/
theorem ha_mlp_w1 (c : Dev nD) (t : Fin cfg7.N) (s : Fin 256) (k : Fin 128) :
    (Gen.iblk7 V c 1 t : Vec Ideal S256x128 .f32) (ix2 s k)
      = (V c (Pipeline.arrRef spec7 1) : Cert.Spec.Mat 256 128) (ix2 s k) := by
  obtain ⟨-, -, e2, e3, -⟩ := ha_mlp_idx t
  unfold Gen.iblk7
  rw [View.read_apply]
  show (V c (Pipeline.arrRef spec7 1) : Cert.Spec.Mat 256 128) _ = _
  refine congrArg (V c (Pipeline.arrRef spec7 1) : Cert.Spec.Mat 256 128) (funext fun a => Fin.ext ?_)
  match a with
  | ⟨0, _⟩ => show win7_1.index t (0 : Fin 2) * 256 + 1 * s.val = s.val; omega
  | ⟨1, _⟩ => show win7_1.index t (1 : Fin 2) * 128 + 1 * k.val = k.val; omega

/-- The first bias's block is the whole bias row at every point. -/
theorem ha_mlp_b1 (c : Dev nD) (t : Fin cfg7.N) (k : Fin 128) :
    (Gen.iblk7 V c 2 t : Vec Ideal S1x128 .f32) (ix2 0 k)
      = (V c (Pipeline.arrRef spec7 2) : Cert.Spec.Mat 1 128) (ix2 0 k) := by
  obtain ⟨-, -, -, -, e4, e5, -⟩ := ha_mlp_idx t
  unfold Gen.iblk7
  rw [View.read_apply]
  show (V c (Pipeline.arrRef spec7 2) : Cert.Spec.Mat 1 128) _ = _
  refine congrArg (V c (Pipeline.arrRef spec7 2) : Cert.Spec.Mat 1 128) (funext fun a => Fin.ext ?_)
  match a with
  | ⟨0, _⟩ => show win7_2.index t (0 : Fin 2) * 1 + 1 * 0 = 0; omega
  | ⟨1, _⟩ => show win7_2.index t (1 : Fin 2) * 128 + 1 * k.val = k.val; omega

/-- The second weight's block is the whole weight at every point. -/
theorem ha_mlp_w2 (c : Dev nD) (t : Fin cfg7.N) (k : Fin 128) (q : Fin 3) :
    (Gen.iblk7 V c 3 t : Vec Ideal S128x3 .f32) (ix2 k q)
      = (V c (Pipeline.arrRef spec7 3) : Cert.Spec.Mat 128 3) (ix2 k q) := by
  obtain ⟨-, -, -, -, -, -, e6, e7, -⟩ := ha_mlp_idx t
  unfold Gen.iblk7
  rw [View.read_apply]
  show (V c (Pipeline.arrRef spec7 3) : Cert.Spec.Mat 128 3) _ = _
  refine congrArg (V c (Pipeline.arrRef spec7 3) : Cert.Spec.Mat 128 3) (funext fun a => Fin.ext ?_)
  match a with
  | ⟨0, _⟩ => show win7_3.index t (0 : Fin 2) * 128 + 1 * k.val = k.val; omega
  | ⟨1, _⟩ => show win7_3.index t (1 : Fin 2) * 3 + 1 * q.val = q.val; omega

/-- The second bias's block is the whole bias row at every point. -/
theorem ha_mlp_b2 (c : Dev nD) (t : Fin cfg7.N) (q : Fin 3) :
    (Gen.iblk7 V c 4 t : Vec Ideal S1x3 .f32) (ix2 0 q)
      = (V c (Pipeline.arrRef spec7 4) : Cert.Spec.Mat 1 3) (ix2 0 q) := by
  obtain ⟨-, -, -, -, -, -, -, -, e8, e9, -⟩ := ha_mlp_idx t
  unfold Gen.iblk7
  rw [View.read_apply]
  show (V c (Pipeline.arrRef spec7 4) : Cert.Spec.Mat 1 3) _ = _
  refine congrArg (V c (Pipeline.arrRef spec7 4) : Cert.Spec.Mat 1 3) (funext fun a => Fin.ext ?_)
  match a with
  | ⟨0, _⟩ => show win7_4.index t (0 : Fin 2) * 1 + 1 * 0 = 0; omega
  | ⟨1, _⟩ => show win7_4.index t (1 : Fin 2) * 3 + 1 * q.val = q.val; omega

set_option maxHeartbeats 1000000 in
/-- What grid point `t` writes back is block `t` of the classifier's rows of the arrays as the region finds them. -/
theorem ha_mlp_flushed (c : Dev nD) (t : Fin cfg7.N) :
    (Gen.dat7 (F := Ideal) V c).flushed 5 t
      = ((cfg7.win 5).blk t).view.read (Elt Ideal)
          (Cert.Spec.mlpRows (V c (Pipeline.arrRef spec7 0)) (V c (Pipeline.arrRef spec7 1)) (V c (Pipeline.arrRef spec7 2))
            (V c (Pipeline.arrRef spec7 3)) (V c (Pipeline.arrRef spec7 4))) := by
  show (cfg7.win 5).cut (grid7.coords t) ((Gen.dat7 V c).after 5 t) = _
  rw [Gen.after7_5]
  unfold Gen.out7_5
  rw [View.canon_unit_zero ha_hz7]
  simp only [View.ld_unit_zero (S := S8000x256) ha_hz7, View.ld_unit_zero (S := S256x128) ha_hz7,
    View.ld_unit_zero (S := S1x128) ha_hz7, View.ld_unit_zero (S := S128x3) ha_hz7, View.ld_unit_zero (S := S1x3) ha_hz7]
  obtain ⟨-, -, -, -, -, -, -, -, -, -, e10, e11, hN⟩ := ha_mlp_idx t
  funext j
  have hj0 : (j 0).val < 8000 := (j 0).isLt
  have hj1 : (j 1).val < 3 := (j 1).isLt
  have hl : (cfg7.win 5).xinj (grid7.coords t) j = ix2 (⟨(j 0).val, hj0⟩ : Fin 8000) (⟨(j 1).val, hj1⟩ : Fin 3) :=
    funext (Fin.forall_fin_two.2 ⟨rfl, rfl⟩)
  have hr : ((cfg7.win 5).blk t).view.emb j
      = ix2 (⟨t.val * 8000 + (j 0).val, by omega⟩ : Fin 800000) (⟨(j 1).val, hj1⟩ : Fin 3) := by
    funext a; apply Fin.ext
    match a with
    | ⟨0, _⟩ => show win7_5.index t (0 : Fin 2) * 8000 + 1 * (j 0).val = t.val * 8000 + (j 0).val; omega
    | ⟨1, _⟩ => show win7_5.index t (1 : Fin 2) * 3 + 1 * (j 1).val = (j 1).val; omega
  show _ = Cert.Spec.mlpRows _ _ _ _ _ (((cfg7.win 5).blk t).view.emb j)
  refine Eq.trans ?_ (congrArg (Cert.Spec.mlpRows _ _ _ _ _) hr.symm)
  refine (congrArg (Gen.k7_pay1 (F := Ideal) (Gen.iblk7 V c 0 t) (Gen.iblk7 V c 1 t) (Gen.iblk7 V c 2 t)
    (Gen.iblk7 V c 3 t) (Gen.iblk7 V c 4 t)) hl).trans ?_
  exact ha_mlp_block _ _ _ _ _ _ _ _ _ _ _ _ _ (fun s => ha_mlp_e V c t _ s _ rfl) (fun s k => ha_mlp_w1 V c t s k)
    (fun k => ha_mlp_b1 V c t k) (fun k => ha_mlp_w2 V c t k _) (ha_mlp_b2 V c t _)

/-- An index of the output array is in point `t`'s block iff each coordinate is in the block's range on its axis. -/
theorem ha_mlp_mem (t : Fin cfg7.N) (i : S800000x3.Idx) :
    i ∈ ((cfg7.win 5).blk t).view.set ↔ ∀ a : Fin 2, win7_5.index t a * S8000x3.size a ≤ (i a).val
      ∧ (i a).val < win7_5.index t a * S8000x3.size a + S8000x3.size a := by
  show i ∈ ((View.whole main_v80).slice (win7_5.rect t)).set ↔ _
  rw [View.set_slice_whole, Rect.mem_set_unit]
  exact Iff.rfl

/-- Row `r` of the output lies in the block of point `r / 8000`, which writes back. -/
theorem ha_mlp_cover (i : S800000x3.Idx) :
    ∃ t : Fin cfg7.N, (cfg7.win 5).flush t = true ∧ i ∈ ((cfg7.win 5).blk t).view.set := by
  have hi0 : (i 0).val < 800000 := (i 0).isLt
  have hi1 : (i 1).val < 3 := (i 1).isLt
  have hN : cfg7.N = 100 := N_7
  obtain ⟨t, ht⟩ : ∃ t : Fin cfg7.N, t.val = (i 0).val / 8000 := ⟨⟨(i 0).val / 8000, by rw [hN]; omega⟩, rfl⟩
  obtain ⟨-, -, -, -, -, -, -, -, -, -, e10, e11, -⟩ := ha_mlp_idx t
  refine ⟨t, Gen.flush7_5 t, ?_⟩
  rw [ha_mlp_mem]
  intro a
  match a with
  | ⟨0, _⟩ =>
    show win7_5.index t (0 : Fin 2) * 8000 ≤ (i 0).val ∧ (i 0).val < win7_5.index t (0 : Fin 2) * 8000 + 8000
    omega
  | ⟨1, _⟩ =>
    show win7_5.index t (1 : Fin 2) * 3 ≤ (i 1).val ∧ (i 1).val < win7_5.index t (1 : Fin 2) * 3 + 3
    omega

/-- REGION 7: after all hundred grid points the output array holds the classifier's rows of the region's operand
    arrays. -/
theorem region7 (c : Dev nD) :
    (Gen.dat7 (F := Ideal) V c).arrAt 5 cfg7.N
      = Cert.Spec.mlpRows (V c (Pipeline.arrRef spec7 0)) (V c (Pipeline.arrRef spec7 1)) (V c (Pipeline.arrRef spec7 2))
          (V c (Pipeline.arrRef spec7 3)) (V c (Pipeline.arrRef spec7 4)) :=
  (Gen.dat7 V c).arrAt_eq_of_cover 5 _ (fun t _ => ha_mlp_flushed V c t) ha_mlp_cover

end Cert.KernelIdeal.RegVal
end
-- ==== Proof.KValue.lean ====
/-
  What the idealized kernel's result buffer holds on the extended reals.

  The kernel's last boundary, read back to the arguments, is its chain of stages over whatever the eight regions compute
  (KFold.lean). On the extended reals region 0 computes the encoder rows, regions 1, 3, 5 the scaled weight
  transform, regions 2, 4, 6 the scaled closing step of a layer and region 7 the edge classifier (the four functions of
  Spec.lean; RegEnc, RegLin, RegBrs, RegMlp). A change of float format is the identity there, so the third layer's
  narrower output format makes no difference, and the chain is the chain of this certificate's stages (Stages.lean).
-/
import proofs.«179396_j45741401703144_2_alg».proof.Proof.KFold
import proofs.«179396_j45741401703144_2_alg».proof.Proof.RegEnc
import proofs.«179396_j45741401703144_2_alg».proof.Proof.RegLin
import proofs.«179396_j45741401703144_2_alg».proof.Proof.RegBrs
import proofs.«179396_j45741401703144_2_alg».proof.Proof.RegMlp

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result buffer at the last boundary: encoder, three layers, edge classifier of the arguments' launch contents. -/
theorem result_eq (c : Dev nD) :
    W16 m ρ c (Proc.devRef .tc main_v80)
      = Cert.Stages.kTail (Cert.Stages.kLayer (Cert.Stages.kLayer (Cert.Stages.kLayer
          (Cert.Stages.kEnc (m ((c.tc : Thread nD τ).loc main_arg0)) (m ((c.tc : Thread nD τ).loc main_arg2)) (m ((c.tc : Thread nD τ).loc main_arg3)))
          (m ((c.tc : Thread nD τ).loc main_arg4)) (m ((c.tc : Thread nD τ).loc main_arg5)) (m ((c.tc : Thread nD τ).loc main_arg1))) (m ((c.tc : Thread nD τ).loc main_arg6)) (m ((c.tc : Thread nD τ).loc main_arg7)) (m ((c.tc : Thread nD τ).loc main_arg1))) (m ((c.tc : Thread nD τ).loc main_arg8)) (m ((c.tc : Thread nD τ).loc main_arg9)) (m ((c.tc : Thread nD τ).loc main_arg1)))
          (m ((c.tc : Thread nD τ).loc main_arg1)) (m ((c.tc : Thread nD τ).loc main_arg10)) (m ((c.tc : Thread nD τ).loc main_arg11)) (m ((c.tc : Thread nD τ).loc main_arg12)) (m ((c.tc : Thread nD τ).loc main_arg13)) := by
  have h := Cert.KernelIdeal.KFold.result_eq (F := Ideal) m ρ
    Cert.Spec.encRows Cert.Spec.linRows Cert.Spec.brsRows Cert.Spec.linRows Cert.Spec.brsRows Cert.Spec.linRows
    Cert.Spec.brsRows Cert.Spec.mlpRows
    (fun V c => Cert.KernelIdeal.RegVal.region0 V c) (fun V c => Cert.KernelIdeal.RegVal.region1 V c)
    (fun V c => Cert.KernelIdeal.RegVal.region2 V c) (fun V c => Cert.KernelIdeal.RegVal.region3 V c)
    (fun V c => Cert.KernelIdeal.RegVal.region4 V c) (fun V c => Cert.KernelIdeal.RegVal.region5 V c)
    (fun V c => Cert.KernelIdeal.RegVal.region6 V c) (fun V c => Cert.KernelIdeal.RegVal.region7 V c) c
  rw [h, Cert.Stages.kEnc_eq, Cert.Stages.kLayer_eq, Cert.Stages.kLayer_eq, Cert.Stages.kLayer_eq, Cert.Stages.kTail_eq]

end Cert.KernelIdeal.KValue

end
-- ==== Proof.RefRunEq.lean ====
/-
  The reference's result, as its run names it, is the last of its stages.

  The run of the reference program ends with the result buffer at one long term of the arguments' launch contents;
  read one operation at a time the same program is a tower of stages, each applying one operation to earlier stages.
  Unfolding the tower gives the long term back, so the two are the same function of the arguments.
-/
import proofs.«179396_j45741401703144_2_alg».proof.Proof.RefRunP
import proofs.«179396_j45741401703144_2_alg».proof.Proof.RefReadQ

noncomputable section

namespace Cert.ReferenceIdeal.ReadP

open Cert.ReferenceIdeal Cert.ReferenceIdeal.Gen Idealize.ShloMosaic Idealize.ShloMosaic.TcCoe Idealize.SL.Sem

variable {F : FTy → Type} [FloatOps F]

/-- The run's result term is the result stage at the arguments' launch contents. -/
theorem val_main_v117_eq (m : (ℓ : Loc nD τ sig) → Buf (Elt F) ℓ) (c : Dev nD) :
    Cert.ReferenceIdeal.ValueP.res_main_v117 m c = val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.ValueP.res_main_v117; rfl

end Cert.ReferenceIdeal.ReadP

end
-- ==== Proof.RefChain.lean ====
/-
  The reference's result stage is the chain of the reference's stages over arrays: its encoder, three graph layers
  and the edge classifier. Each stage of the reference read one operation at a time applies one operation to earlier
  stages, so every step below only unfolds a handful of such one-operation definitions. The second and third layers
  carry their own copies of the stages all layers share (the zero array the sums start from, the destination words,
  the wrapped source words, the message factors, the broadcast zero of `max · 0`); the copies have the same bodies.
-/
import proofs.«179396_j45741401703144_2_alg».proof.Proof.Stages

noncomputable section

namespace Cert.Bridge

open Cert.ReferenceIdeal Cert.ReferenceIdeal.Gen Cert.ReferenceIdeal.ReadP
open Idealize.ShloMosaic Idealize.ShloMosaic.ValueIdx Cert.Spec Cert.Stages

/-! ### The later layers' copies of the shared stages -/

/-- The second layer's zero array is the first's. -/
theorem hd_v66_eq : val_main_v66 (F := Ideal) = val_main_v49 (F := Ideal) := rfl

/-- The third layer's zero array is the first's. -/
theorem hd_v83_eq : val_main_v83 (F := Ideal) = val_main_v49 (F := Ideal) := rfl

/-- The second layer's destination words are the first's. -/
theorem hd_v67_eq (x1 : IVec S2x800000 32) : val_main_v67 (F := Ideal) x1 = val_main_v50 (F := Ideal) x1 := rfl

/-- The third layer's destination words are the first's. -/
theorem hd_v84_eq (x1 : IVec S2x800000 32) : val_main_v84 (F := Ideal) x1 = val_main_v50 (F := Ideal) x1 := rfl

/-- The second layer's wrapped source words are the first's. -/
theorem hd_v62_eq (x1 : IVec S2x800000 32) : val_main_v62 (F := Ideal) x1 = val_main_v45 (F := Ideal) x1 := rfl

/-- The third layer's wrapped source words are the first's. -/
theorem hd_v79_eq (x1 : IVec S2x800000 32) : val_main_v79 (F := Ideal) x1 = val_main_v45 (F := Ideal) x1 := rfl

/-- The second layer's message factors are the first's. -/
theorem hd_v64_eq (x1 : IVec S2x800000 32) : val_main_v64 (F := Ideal) x1 = val_main_v47 (F := Ideal) x1 := rfl

/-- The third layer's message factors are the first's. -/
theorem hd_v81_eq (x1 : IVec S2x800000 32) : val_main_v81 (F := Ideal) x1 = val_main_v47 (F := Ideal) x1 := rfl

/-- The second layer's broadcast bias is the first's at the second bias. -/
theorem hd_v70_eq (b : FVec Ideal S128 .f32) : val_main_v70 (F := Ideal) b = val_main_v53 (F := Ideal) b := rfl

/-- The third layer's broadcast bias is the first's at the third bias. -/
theorem hd_v87_eq (b : FVec Ideal S128 .f32) : val_main_v87 (F := Ideal) b = val_main_v53 (F := Ideal) b := rfl

/-- The second layer's broadcast zero is the first's. -/
theorem hd_call3_eq : val_main_call3_v0 (F := Ideal) = val_main_call2_v0 (F := Ideal) := rfl

/-- The third layer's broadcast zero is the first's. -/
theorem hd_call4_eq : val_main_call4_v0 (F := Ideal) = val_main_call2_v0 (F := Ideal) := rfl

/-! ### The four steps -/

/-- The first layer's result is the reference's layer on the encoder's result. -/
theorem hd_layer1 (x0 : FVec Ideal S50000x4 .f32) (x1 : IVec S2x800000 32) (x2 : FVec Ideal S4x128 .f32)
    (x3 : FVec Ideal S128 .f32) (x4 : FVec Ideal S128x128 .f32) (x5 : FVec Ideal S128 .f32) :
    val_main_v55 (F := Ideal) x0 x1 x2 x3 x4 x5 = rLayer (val_main_v4 (F := Ideal) x0 x2 x3) x4 x5 x1 := by
  unfold val_main_v55 val_main_v54 val_main_v51 val_main_v48 val_main_v46 val_main_v39 rLayer
  rfl

/-- The second layer's result is the reference's layer on the first's. -/
theorem hd_layer2 (x0 : FVec Ideal S50000x4 .f32) (x1 : IVec S2x800000 32) (x2 : FVec Ideal S4x128 .f32)
    (x3 : FVec Ideal S128 .f32) (x4 : FVec Ideal S128x128 .f32) (x5 : FVec Ideal S128 .f32)
    (x6 : FVec Ideal S128x128 .f32) (x7 : FVec Ideal S128 .f32) :
    val_main_v72 (F := Ideal) x0 x1 x2 x3 x4 x5 x6 x7
      = rLayer (val_main_v55 (F := Ideal) x0 x1 x2 x3 x4 x5) x6 x7 x1 := by
  unfold val_main_v72 val_main_v71 val_main_v68 val_main_v65 val_main_v63 val_main_v56 rLayer
  rw [hd_v66_eq, hd_v67_eq, hd_v62_eq, hd_v64_eq, hd_v70_eq, hd_call3_eq]

/-- The third layer's result is the reference's layer on the second's. -/
theorem hd_layer3 (x0 : FVec Ideal S50000x4 .f32) (x1 : IVec S2x800000 32) (x2 : FVec Ideal S4x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x128 .f32)
    (x9 : FVec Ideal S128 .f32) :
    val_main_v89 (F := Ideal) x0 x1 x2 x3 x4 x5 x6 x7 x8 x9
      = rLayer (val_main_v72 (F := Ideal) x0 x1 x2 x3 x4 x5 x6 x7) x8 x9 x1 := by
  unfold val_main_v89 val_main_v88 val_main_v85 val_main_v82 val_main_v80 val_main_v73 rLayer
  rw [hd_v83_eq, hd_v84_eq, hd_v79_eq, hd_v81_eq, hd_v87_eq, hd_call4_eq]

/-- The result is the reference's edge classifier on the third layer's result. -/
theorem hd_tail (x0 : FVec Ideal S50000x4 .f32) (x1 : IVec S2x800000 32) (x2 : FVec Ideal S4x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x128 .f32)
    (x9 : FVec Ideal S128 .f32) (x10 : FVec Ideal S256x128 .f32) (x11 : FVec Ideal S128 .f32)
    (x12 : FVec Ideal S128x3 .f32) (x13 : FVec Ideal S3 .f32) :
    val_main_v117 (F := Ideal) x0 x1 x2 x3 x4 x5 x6 x7 x8 x9 x10 x11 x12 x13
      = rTail (val_main_v89 (F := Ideal) x0 x1 x2 x3 x4 x5 x6 x7 x8 x9) x1 x10 x11 x12 x13 := by
  unfold val_main_v117 val_main_v114 val_main_v113 val_main_v112 val_main_v109 val_main_v108 val_main_v107
    val_main_v98 rTail endpoints
  rfl

/-- The reference's result stage is its encoder, three layers and edge classifier in turn. -/
theorem ref_chain (x0 : FVec Ideal S50000x4 .f32) (x1 : IVec S2x800000 32) (x2 : FVec Ideal S4x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x128 .f32)
    (x9 : FVec Ideal S128 .f32) (x10 : FVec Ideal S256x128 .f32) (x11 : FVec Ideal S128 .f32)
    (x12 : FVec Ideal S128x3 .f32) (x13 : FVec Ideal S3 .f32) :
    Cert.ReferenceIdeal.ReadP.val_main_v117 (F := Ideal) x0 x1 x2 x3 x4 x5 x6 x7 x8 x9 x10 x11 x12 x13
      = Cert.Stages.rTail (Cert.Stages.rLayer (Cert.Stages.rLayer (Cert.Stages.rLayer
          (Cert.ReferenceIdeal.ReadP.val_main_v4 (F := Ideal) x0 x2 x3) x4 x5 x1) x6 x7 x1) x8 x9 x1)
          x1 x10 x11 x12 x13 := by
  rw [hd_tail, hd_layer3, hd_layer2, hd_layer1]

end Cert.Bridge

end
-- ==== Proof.BridgeEnds.lean ====
/-
  The two ends of the programs, where the kernel and the reference compute the same function of the same arrays.

  * The node encoder: at `(n, c)` both are `max ((∑ₖ x0[n,k] · x2[k,c]) + x3[c]) 0`. The kernel's region takes the
    bias as a one-row matrix; the reference broadcasts it, first to one row and then down the rows, and broadcasts
    the zero of `max · 0` from a scalar.
  * The edge classifier: on the same endpoint rows `e` (never opened here), at `(r, j)` both are
    `(∑ₖ max ((∑_q e[r,q] · x10[q,k]) + x11[k]) 0 · x12[k,j]) + x13[j]`.

  A matrix product read at an index is the sum over the contracted coordinate; the index functions the reference's
  broadcasts and products read their operands at are identified with the coordinate constructors axis by axis.
-/
import proofs.«179396_j45741401703144_2_alg».proof.Proof.Stages
import proofs.«179396_j45741401703144_2_alg».proof.Proof.LibPlainDot

noncomputable section

open scoped BigOperators

namespace Cert.Bridge

open Cert.ReferenceIdeal Cert.ReferenceIdeal.Gen Cert.ReferenceIdeal.ReadP
open Idealize.ShloMosaic Idealize.ShloMosaic.ValueIdx Cert.Spec Cert.Stages

/-! ### Biases as one-row matrices -/

/-- The one-row matrix of a 128-entry bias holds entry `c` at `(0, c)`. -/
theorem hd_row128_apply (b : FVec Ideal S128 .f32) (c : Fin 128) : row128 b (ix2 0 c) = b (ix1 c) := by
  unfold row128
  exact (shapeCast_addUnit_apply ![128] b _ (ix2 0 c)).trans
    (congrArg b (funext fun a => match a with | ⟨0, _⟩ => rfl))

/-- The one-row matrix of a 3-entry bias holds entry `j` at `(0, j)`. -/
theorem hd_row3_apply (b : FVec Ideal S3 .f32) (j : Fin 3) : row3 b (ix2 0 j) = b (ix1 j) := by
  unfold row3
  exact (shapeCast_addUnit_apply ![3] b _ (ix2 0 j)).trans
    (congrArg b (funext fun a => match a with | ⟨0, _⟩ => rfl))

/-! ### The encoder -/

/-- The kernel's node encoder is the reference's: at `(n, c)` both are
    `max ((∑ₖ x0[n,k] · x2[k,c]) + x3[c]) 0`. -/
theorem enc_eq (x0 : FVec Ideal S50000x4 .f32) (x2 : FVec Ideal S4x128 .f32) (x3 : FVec Ideal S128 .f32) :
    Cert.Stages.kEnc x0 x2 x3 = Cert.ReferenceIdeal.ReadP.val_main_v4 (F := Ideal) x0 x2 x3 := by
  funext i
  obtain ⟨n, c, rfl⟩ : ∃ (n : Fin 50000) (c : Fin 128), i = ix2 n c := ⟨i 0, i 1, eq_ix2 i⟩
  unfold kEnc
  rw [encRows_apply, hd_row128_apply]
  rw [val_main_v4_apply, val_main_v3_apply, val_main_v0_apply, val_main_v2_apply, val_main_v1_apply,
    val_main_call0_v0_apply, val_main_call0_cst_apply]
  simp only [Ideal.addf_def, Ideal.maximumf_def, Ideal.ofBits_def, Ideal.ofBits_zero_f32]
  have hl : ∀ k : Fin 4, lidx_main_v0 (ix2 n c) k = ix2 n k := fun k =>
    funext fun a => Fin.ext (by match a with | ⟨0, _⟩ => rfl | ⟨1, _⟩ => rfl)
  have hr : ∀ k : Fin 4, ridx_main_v0 (ix2 n c) k = ix2 k c := fun k =>
    funext fun a => Fin.ext (by match a with | ⟨0, _⟩ => rfl | ⟨1, _⟩ => rfl)
  have hb : idx_main_v1 (idx_main_v2 (ix2 n c)) = ix1 c :=
    funext fun a => Fin.ext (by match a with | ⟨0, _⟩ => rfl)
  rw [hb]
  simp only [hl, hr]

/-! ### The edge classifier -/

/-- The reference's hidden layer of the classifier at `(r, k)`:
    `max ((∑_q e[r,q] · x10[q,k]) + x11[k]) 0`. -/
theorem hd_hidden_apply (E : FVec Ideal S800000x256 .f32) (x10 : FVec Ideal S256x128 .f32)
    (x11 : FVec Ideal S128 .f32) (r : Fin 800000) (k : Fin 128) :
    maximumf (F := Ideal) (φ := .f32)
        (addf (F := Ideal) (φ := .f32)
          (Host.dotGeneral (F := Ideal) dot_S800000x256_S256x128_S800000x128_1_0_0_1_n_n none E x10)
          (val_main_v111 (F := Ideal) x11))
        (val_main_call5_v0 (F := Ideal)) (ix2 r k)
      = max ((∑ q : Fin 256, E (ix2 r q) * x10 (ix2 q k)) + x11 (ix1 k)) 0 := by
  rw [maximumf_apply, addf_apply, val_main_v111_apply, val_main_v110_apply, val_main_call5_v0_apply,
    val_main_call5_cst_apply]
  have hd : Host.dotGeneral (F := Ideal) dot_S800000x256_S256x128_S800000x128_1_0_0_1_n_n none E x10 (ix2 r k)
      = ∑ q : Fin 256, E (ix2 r q) * x10 (ix2 q k) :=
    Cert.PlainDot.dotGeneral_apply 800000 256 128 (φ₁ := .f32) (φ₂ := .f32) none .single E x10 (ix2 r k)
  have hb : idx_main_v110 (idx_main_v111 (ix2 r k)) = ix1 k :=
    funext fun a => Fin.ext (by match a with | ⟨0, _⟩ => rfl)
  rw [hd, hb]
  simp only [Ideal.ofBits_def, Ideal.ofBits_zero_f32]

/-- The reference's output layer of the classifier on any hidden array `A`, at `(r, j)`:
    `(∑ₖ A[r,k] · x12[k,j]) + x13[j]`. -/
theorem hd_out_apply (A : FVec Ideal S800000x128 .f32) (x12 : FVec Ideal S128x3 .f32)
    (x13 : FVec Ideal S3 .f32) (r : Fin 800000) (j : Fin 3) :
    addf (F := Ideal) (φ := .f32)
        (Host.dotGeneral (F := Ideal) dot_S800000x128_S128x3_S800000x3_1_0_0_1_n_n none A x12)
        (val_main_v116 (F := Ideal) x13) (ix2 r j)
      = (∑ k : Fin 128, A (ix2 r k) * x12 (ix2 k j)) + x13 (ix1 j) := by
  rw [addf_apply, val_main_v116_apply, val_main_v115_apply]
  have hd : Host.dotGeneral (F := Ideal) dot_S800000x128_S128x3_S800000x3_1_0_0_1_n_n none A x12 (ix2 r j)
      = ∑ k : Fin 128, A (ix2 r k) * x12 (ix2 k j) :=
    Cert.PlainDot.dotGeneral_apply 800000 128 3 (φ₁ := .f32) (φ₂ := .f32) none .single A x12 (ix2 r j)
  have hb : idx_main_v115 (idx_main_v116 (ix2 r j)) = ix1 j :=
    funext fun a => Fin.ext (by match a with | ⟨0, _⟩ => rfl)
  rw [hd, hb]

/-- The kernel's edge classifier is the reference's: on the same endpoint rows `e`, at `(r, j)` both are
    `(∑ₖ max ((∑_q e[r,q] · x10[q,k]) + x11[k]) 0 · x12[k,j]) + x13[j]`. -/
theorem tail_eq (h : FVec Ideal S50000x128 .f32) (x1 : IVec S2x800000 32) (x10 : FVec Ideal S256x128 .f32)
    (x11 : FVec Ideal S128 .f32) (x12 : FVec Ideal S128x3 .f32) (x13 : FVec Ideal S3 .f32) :
    Cert.Stages.kTail h x1 x10 x11 x12 x13 = Cert.Stages.rTail h x1 x10 x11 x12 x13 := by
  unfold kTail rTail
  generalize endpoints h x1 = E
  funext i
  obtain ⟨r, j, rfl⟩ : ∃ (r : Fin 800000) (j : Fin 3), i = ix2 r j := ⟨i 0, i 1, eq_ix2 i⟩
  rw [mlpRows_apply, hd_row3_apply, hd_out_apply]
  refine congrArg (· + x13 (ix1 j)) (Finset.sum_congr rfl fun k _ => ?_)
  rw [hd_hidden_apply, hd_row128_apply]

end Cert.Bridge

end
-- ==== Proof.LibRowIndex.lean ====
/-
  Row scatters and row gathers read at an index.

  jax's `segment_sum(data, ids, num_segments = N)` prints as a `stablehlo.scatter` with an `add` body whose scatter
  indices are the `E` words `ids` as an `[E, 1]` array: update row `e` is added to operand row `ids[e]`, read signed,
  when that is a row number, and dropped otherwise (`land`). jax's `x[ids]` prints as a `stablehlo.gather` over the
  same `[E, 1]` array of start indices: result row `e` is operand row `ids[e]`, read signed and clamped into
  `[0, N - 1]` (`pick`). This file states both, for a matrix of rows (`[N, C]`, updates / result `[E, C]`) and for a
  plain vector (`[N]`, updates / result `[E]`), at one element, and the one fact that joins them: an index that lands
  on row `n` picks row `n`.
-/
import Idealize.ShloMosaic.PureOps.Ideal
import Idealize.ShloMosaic.PureOps.Contract
import Idealize.ShloMosaic.Lib.ValueIdx

noncomputable section

open scoped BigOperators

namespace Cert.Lib.RowIndex

open Idealize.ShloMosaic Idealize.ShloMosaic.ValueIdx

/-! ## Where an index word lands, and which row it picks -/

/-- The row an index word names among `N` rows when it is read signed and NOT clamped: `some` row when the signed
    value is in `[0, N)`, `none` otherwise (a scatter drops such an update). -/
def land (N : Nat) {w : Nat} (c : BitVec w) : Option (Fin N) :=
  if h : 0 ≤ c.toInt ∧ c.toInt < (N : Int) then some ⟨c.toInt.toNat, by omega⟩ else none

/-- The row an index word names among `N` rows when it is read signed and clamped into `[0, N - 1]` (a gather
    clamps its start index). -/
def pick (N : Nat) (hN : 0 < N) {w : Nat} (c : BitVec w) : Fin N :=
  ⟨min c.toInt.toNat (N - 1), by omega⟩

/-- An index word that lands on row `n` picks row `n`. -/
theorem pick_of_land {N : Nat} (hN : 0 < N) {w : Nat} (c : BitVec w) (n : Fin N) (h : land N c = some n) :
    pick N hN c = n := by
  unfold land at h
  split at h
  · rename_i hc
    obtain rfl : (⟨c.toInt.toNat, _⟩ : Fin N) = n := Option.some.inj h
    refine Fin.ext ?_
    show min c.toInt.toNat (N - 1) = c.toInt.toNat
    omega
  · exact absurd h (by simp)

/-- A word that lands somewhere is not negative. -/
theorem toInt_nonneg_of_land {N : Nat} {w : Nat} (c : BitVec w) (n : Fin N) (h : land N c = some n) :
    0 ≤ c.toInt := by
  unfold land at h
  split at h
  · rename_i hc
    exact hc.1
  · exact absurd h (by simp)

/-! ## The dimension numbers -/

/-- `segment_sum` of rows: operand `[N, C]`, scatter indices `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `segment_sum` of scalars: operand `[N]`, scatter indices `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[ids]` of a matrix of rows: operand `[N, C]`, start indices `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[ids]` of a vector: operand `[N]`, start indices `[E, 1]`, result `[E]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-! ## The scatters at an element (extended reals) -/

/-- Axis 0 of a row scatter's window start: the index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e h) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 of a row scatter's window start: zero (the index names rows only). -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (1 : Fin 2) = 0 := by
  unfold ScatterDims.start
  rw [dif_neg (show ¬ (1 : Fin 2) ∈ ([0] : List (Fin 2)) by decide)]

/-- Axis 0 of a row scatter's window coordinate: zero (a window is one row). -/
theorem rowScatter_window_zero {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (0 : Fin 2) = 0 := by
  unfold ScatterDims.window
  have hm : ¬ (0 : Fin 2) ∈ (rowScatter N E C wf).sKept :=
    (show ¬ (0 : Fin 2) ∈ (List.finRange 2).filter (fun a => a ∉ ([0] : List (Fin 2))) by decide)
  rw [dif_neg hm]

/-- Axis 1 of a row scatter's window coordinate: the update's column. -/
theorem rowScatter_window_one {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (1 : Fin 2) = h.val := by
  unfold ScatterDims.window
  have hm : (1 : Fin 2) ∈ (rowScatter N E C wf).sKept :=
    (show (1 : Fin 2) ∈ (List.finRange 2).filter (fun a => a ∉ ([0] : List (Fin 2))) by decide)
  rw [dif_pos hm]
  rfl

/-- Where update element `(e, h)` of a row scatter goes: row `land` of its index word, column `h`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).resultIdx? (ix2 e h) idx
      = (land N (idx (ix2 e (0 : Fin 1)))).map (fun n => ix2 n h) := by
  have h00 := rowScatter_start_zero wf idx e h
  have h01 := rowScatter_start_one wf idx e h
  have h10 := rowScatter_window_zero wf e h
  have h11 := rowScatter_window_one wf e h
  have hC : (h.val : Int) < (C : Int) := by exact_mod_cast h.isLt
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 2, 0 ≤ (rowScatter N E C wf).start (ix2 e h) idx a + ((rowScatter N E C wf).window (ix2 e h) a : Int)
        ∧ (rowScatter N E C wf).start (ix2 e h) idx a + ((rowScatter N E C wf).window (ix2 e h) a : Int)
          < ((⟨2, ![N, C]⟩ : Shape).size a : Int) := by
      intro a
      match a with
      | ⟨0, _⟩ =>
        show 0 ≤ (rowScatter N E C wf).start (ix2 e h) idx (0 : Fin 2) + ((rowScatter N E C wf).window (ix2 e h) (0 : Fin 2) : Int)
          ∧ (rowScatter N E C wf).start (ix2 e h) idx (0 : Fin 2) + ((rowScatter N E C wf).window (ix2 e h) (0 : Fin 2) : Int) < (N : Int)
        rw [h00, h10]; simpa using hc
      | ⟨1, _⟩ =>
        show 0 ≤ (rowScatter N E C wf).start (ix2 e h) idx (1 : Fin 2) + ((rowScatter N E C wf).window (ix2 e h) (1 : Fin 2) : Int)
          ∧ (rowScatter N E C wf).start (ix2 e h) idx (1 : Fin 2) + ((rowScatter N E C wf).window (ix2 e h) (1 : Fin 2) : Int) < (C : Int)
        rw [h01, h11]; omega
    rw [dif_pos hall]
    congr 1
    funext a
    refine Fin.ext ?_
    match a with
    | ⟨0, _⟩ =>
      show ((rowScatter N E C wf).start (ix2 e h) idx (0 : Fin 2) + ((rowScatter N E C wf).window (ix2 e h) (0 : Fin 2) : Int)).toNat
        = (idx (ix2 e (0 : Fin 1))).toInt.toNat
      rw [h00, h10]; simp
    | ⟨1, _⟩ =>
      show ((rowScatter N E C wf).start (ix2 e h) idx (1 : Fin 2) + ((rowScatter N E C wf).window (ix2 e h) (1 : Fin 2) : Int)).toNat
        = h.val
      rw [h01, h11]; simp
  · rw [dif_neg hc, Option.map_none]
    unfold ScatterDims.resultIdx?
    rw [dif_neg]
    intro hall
    have := hall (0 : Fin 2)
    rw [h00, h10] at this
    exact hc (by simpa using this)

/-- Update element `j` of a row scatter goes to `(n, h)` exactly when its index word lands on `n` and its
    column is `h`. -/
theorem rowScatter_resultIdx_eq_some_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (h : Fin C) :
    (rowScatter N E C wf).resultIdx? j idx = some (ix2 n h)
      ↔ land N (idx (ix2 (j 0) (0 : Fin 1))) = some n ∧ j 1 = h := by
  obtain ⟨e, h', rfl⟩ : ∃ (e : Fin E) (h' : Fin C), j = ix2 e h' := ⟨j 0, j 1, eq_ix2 j⟩
  rw [rowScatter_resultIdx wf idx e h']
  show Option.map (fun m => ix2 m h') (land N (idx (ix2 e (0 : Fin 1)))) = some (ix2 n h)
    ↔ land N (idx (ix2 e (0 : Fin 1))) = some n ∧ h' = h
  constructor
  · intro hh
    obtain ⟨m, hm, hmn⟩ := Option.map_eq_some_iff.mp hh
    have h0 : m = n := congrFun hmn (0 : Fin 2)
    have h1 : h' = h := congrFun hmn (1 : Fin 2)
    exact ⟨by rw [hm, h0], h1⟩
  · rintro ⟨hl, rfl⟩
    rw [hl]
    rfl

/-- Row `n`, column `h` of a row scatter-add: the operand's element plus the sum, over the update rows `e` whose
    index word lands on `n`, of the update's element `(e, h)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (h : Fin C) :
    Host.scatterAdd (rowScatter N E C wf) x idx upd (ix2 n h)
      = (x (ix2 n h) + ∑ e ∈ Finset.univ.filter (fun e : Fin E => land N (idx (ix2 e (0 : Fin 1))) = some n),
          upd (ix2 e h) : EReal) := by
  show (x (ix2 n h) + ∑ j ∈ Finset.univ.filter
      (fun j => (rowScatter N E C wf).resultIdx? j idx = some (ix2 n h)), upd j : EReal) = _
  congr 1
  refine Finset.sum_nbij' (fun j => j 0) (fun e => ix2 e h) ?_ ?_ ?_ ?_ ?_
  · intro j hj
    have hj' := (rowScatter_resultIdx_eq_some_iff wf idx j n h).mp (Finset.mem_filter.mp hj).2
    exact Finset.mem_filter.mpr ⟨Finset.mem_univ _, hj'.1⟩
  · intro e he
    have he' : land N (idx (ix2 e (0 : Fin 1))) = some n := (Finset.mem_filter.mp he).2
    exact Finset.mem_filter.mpr ⟨Finset.mem_univ _,
      (rowScatter_resultIdx_eq_some_iff wf idx (ix2 e h) n h).mpr ⟨he', rfl⟩⟩
  · intro j hj
    have hj' := (rowScatter_resultIdx_eq_some_iff wf idx j n h).mp (Finset.mem_filter.mp hj).2
    show ix2 (j 0) h = j
    rw [← hj'.2]
    exact (eq_ix2 j).symm
  · intro e _
    rfl
  · intro j hj
    have hj' := (rowScatter_resultIdx_eq_some_iff wf idx j n h).mp (Finset.mem_filter.mp hj).2
    show upd j = upd (ix2 (j 0) h)
    rw [← hj'.2]
    exact congrArg upd (eq_ix2 j)

/-- A scalar scatter's window start: the index word, read signed. -/
theorem vecScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- A scalar scatter's window coordinate: zero (a window is one element). -/
theorem vecScatter_window {N E : Nat}
    (wf : ScatterDims.WF ⟨1, ![N]⟩ ⟨2, ![E, 1]⟩ ⟨1, ![E]⟩ [] [0] [0] 1) (e : Fin E) :
    (vecScatter N E wf).window (ix1 e) (0 : Fin 1) = 0 := by
  unfold ScatterDims.window
  have hm : ¬ (0 : Fin 1) ∈ (vecScatter N E wf).sKept :=
    (show ¬ (0 : Fin 1) ∈ (List.finRange 1).filter (fun a => a ∉ ([0] : List (Fin 1))) by decide)
  rw [dif_neg hm]

/-- Where update `e` of a scalar scatter goes: element `land` of its index word. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (land N (idx (ix2 e (0 : Fin 1)))).map (fun n => ix1 n) := by
  have h00 := vecScatter_start wf idx e
  have h10 := vecScatter_window wf e
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 1, 0 ≤ (vecScatter N E wf).start (ix1 e) idx a + ((vecScatter N E wf).window (ix1 e) a : Int)
        ∧ (vecScatter N E wf).start (ix1 e) idx a + ((vecScatter N E wf).window (ix1 e) a : Int)
          < ((⟨1, ![N]⟩ : Shape).size a : Int) := by
      intro a
      obtain rfl : a = 0 := Subsingleton.elim _ _
      show 0 ≤ (vecScatter N E wf).start (ix1 e) idx (0 : Fin 1) + ((vecScatter N E wf).window (ix1 e) (0 : Fin 1) : Int)
        ∧ (vecScatter N E wf).start (ix1 e) idx (0 : Fin 1) + ((vecScatter N E wf).window (ix1 e) (0 : Fin 1) : Int) < (N : Int)
      rw [h00, h10]; simpa using hc
    rw [dif_pos hall]
    congr 1
    funext a
    refine Fin.ext ?_
    obtain rfl : a = 0 := Subsingleton.elim _ _
    show ((vecScatter N E wf).start (ix1 e) idx (0 : Fin 1) + ((vecScatter N E wf).window (ix1 e) (0 : Fin 1) : Int)).toNat
      = (idx (ix2 e (0 : Fin 1))).toInt.toNat
    rw [h00, h10]; simp
  · rw [dif_neg hc, Option.map_none]
    unfold ScatterDims.resultIdx?
    rw [dif_neg]
    intro hall
    have := hall (0 : Fin 1)
    rw [h00, h10] at this
    exact hc (by simpa using this)

/-- Update `j` of a scalar scatter goes to element `n` exactly when its index word lands on `n`. -/
theorem vecScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (n : Fin N) :
    (vecScatter N E wf).resultIdx? j idx = some (ix1 n) ↔ land N (idx (ix2 (j 0) (0 : Fin 1))) = some n := by
  obtain ⟨e, rfl⟩ : ∃ e : Fin E, j = ix1 e := ⟨j 0, eq_ix1 j⟩
  rw [vecScatter_resultIdx wf idx e]
  show Option.map (fun m => ix1 m) (land N (idx (ix2 e (0 : Fin 1)))) = some (ix1 n)
    ↔ land N (idx (ix2 e (0 : Fin 1))) = some n
  constructor
  · intro hh
    obtain ⟨m, hm, hmn⟩ := Option.map_eq_some_iff.mp hh
    have h0 : m = n := congrFun hmn (0 : Fin 1)
    rw [hm, h0]
  · intro hl
    rw [hl]
    rfl

/-- Element `n` of a scalar scatter-add: the operand's element plus the sum, over the updates `e` whose index word
    lands on `n`, of update `e`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = (x (ix1 n) + ∑ e ∈ Finset.univ.filter (fun e : Fin E => land N (idx (ix2 e (0 : Fin 1))) = some n),
          upd (ix1 e) : EReal) := by
  show (x (ix1 n) + ∑ j ∈ Finset.univ.filter
      (fun j => (vecScatter N E wf).resultIdx? j idx = some (ix1 n)), upd j : EReal) = _
  congr 1
  refine Finset.sum_nbij' (fun j => j 0) (fun e => ix1 e) ?_ ?_ ?_ ?_ ?_
  · intro j hj
    exact Finset.mem_filter.mpr ⟨Finset.mem_univ _,
      (vecScatter_resultIdx_eq_some_iff wf idx j n).mp (Finset.mem_filter.mp hj).2⟩
  · intro e he
    have he' : land N (idx (ix2 e (0 : Fin 1))) = some n := (Finset.mem_filter.mp he).2
    exact Finset.mem_filter.mpr ⟨Finset.mem_univ _,
      (vecScatter_resultIdx_eq_some_iff wf idx (ix1 e) n).mpr he'⟩
  · intro j _
    exact (eq_ix1 j).symm
  · intro e _
    rfl
  · intro j _
    exact congrArg upd (eq_ix1 j)

/-! ## The gathers at an element (any element type) -/

/-- Axis 0 of the operand index of a row gather: the row the index word picks. -/
theorem rowGather_operandIdx_zero {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (0 : Fin 2)).val = (pick N hN (idx (ix2 e (0 : Fin 1)))).val := by
  show (rowGather N E C wf).start (ix2 e h) idx (0 : Fin 2) + (rowGather N E C wf).batchCoord (ix2 e h) (0 : Fin 2)
    + (rowGather N E C wf).offCoord (ix2 e h) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e h) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Axis 1 of the operand index of a row gather: the result's column. -/
theorem rowGather_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (1 : Fin 2)).val = h.val := by
  show (rowGather N E C wf).start (ix2 e h) idx (1 : Fin 2) + (rowGather N E C wf).batchCoord (ix2 e h) (1 : Fin 2)
    + (rowGather N E C wf).offCoord (ix2 e h) (1 : Fin 2) = _
  rw [GatherDims.batchCoord_eq_zero _ _ _ List.not_mem_nil]
  have hs : (rowGather N E C wf).start (ix2 e h) idx (1 : Fin 2) = 0 := by
    unfold GatherDims.start
    rw [dif_neg (show ¬ (1 : Fin 2) ∈ ([0] : List (Fin 2)) by decide)]
  rw [hs]
  simp only [Nat.add_zero, Nat.zero_add]
  unfold GatherDims.offCoord
  rw [dif_pos ((GatherDims.mem_sKept _ _).mpr ⟨show ¬ (1 : Fin 2) ∈ ([0] : List (Fin 2)) by decide, List.not_mem_nil⟩)]
  rfl

/-- Row `e`, column `h` of a row gather: the operand at the row the index word picks, column `h`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (h : Fin C) :
    Host.gather (rowGather N E C wf) x idx (ix2 e h) = x (ix2 (pick N hN (idx (ix2 e (0 : Fin 1)))) h) := by
  unfold Host.gather
  congr 1
  funext a
  refine Fin.ext ?_
  match a with
  | ⟨0, _⟩ => exact rowGather_operandIdx_zero hN wf idx e h
  | ⟨1, _⟩ => exact rowGather_operandIdx_one wf idx e h

/-- Element `e` of a vector gather: the operand at the element the index word picks. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (pick N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowIndex

end
-- ==== Proof.BridgeLayer.lean ====
/-
  The layer identity: one graph layer as the kernel computes it equals the same layer as the reference computes it,
  on the extended reals, for every input.

  Write `d n` for the node factor of node `n`, `S n` for the set of messages whose destination word lands on `n`,
  `p e` for the row the wrapped source word of message `e` picks, `q e` for the row its wrapped destination word
  picks, and `a e c = ∑ₖ h[p e, k] · w[k, c]`. At row `n`, column `c`

    kernel    : max ((0 + ∑_{e ∈ S n} a e c · d (p e)) · d n + b c) 0
    reference : max ((0 + ∑_{e ∈ S n} a e c · (d (p e) · d (q e))) + b c) 0.

  For `e ∈ S n` the destination word lands on `n`, so it is not negative, the wrap leaves it alone and `q e = n`.
  The factor `d n` is `0` or the reciprocal square root of an extended real that is at least `1`, hence nonnegative
  and not `⊤`, so multiplication by it distributes over the finite sum; the extended reals' multiplication is
  associative. No finiteness of the inputs is used.
-/
import proofs.«179396_j45741401703144_2_alg».proof.Proof.Stages
import proofs.«179396_j45741401703144_2_alg».proof.Proof.LibRowIndex
import proofs.«179396_j45741401703144_2_alg».proof.Proof.LibPlainDot

noncomputable section

open scoped BigOperators

namespace Cert.Bridge

open Cert.ReferenceIdeal Cert.ReferenceIdeal.Gen Cert.ReferenceIdeal.ReadP
open Idealize.ShloMosaic Idealize.ShloMosaic.ValueIdx Cert.Spec Cert.Stages Cert.Lib.RowIndex

/-- Multiplication by a nonnegative extended real other than `⊤` distributes over a finite sum. -/
theorem hc_sum_mul {ι : Type} (s : Finset ι) (f : ι → EReal) (d : EReal) (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- The reciprocal square root of an extended real that is at least `1` is nonnegative and is not `⊤`. -/
theorem hc_rsqrt_of_one_le (y : EReal) (hy : 1 ≤ y) : 0 ≤ Ideal.rsqrt y ∧ Ideal.rsqrt y ≠ ⊤ := by
  induction y using EReal.rec with
  | bot => exact absurd hy (show ¬ (((1 : ℝ) : EReal) ≤ ⊥) from not_le.mpr (EReal.bot_lt_coe 1))
  | top => exact ⟨le_of_eq Ideal.rsqrt_top.symm, by rw [Ideal.rsqrt_top]; exact EReal.zero_ne_top⟩
  | coe r =>
    have hr : (1 : ℝ) ≤ r := by exact_mod_cast hy
    rw [Ideal.rsqrt_coe, if_neg (by linarith), if_neg (by linarith)]
    refine ⟨?_, EReal.coe_ne_top _⟩
    exact_mod_cast inv_nonneg.mpr (Real.sqrt_nonneg r)

/-- The node factor is a nonnegative extended real other than `⊤`. -/
theorem hc_d_bounds (x1 : IVec S2x800000 32) (i : S50000.Idx) :
    0 ≤ val_main_v22 (F := Ideal) x1 i ∧ val_main_v22 (F := Ideal) x1 i ≠ ⊤ := by
  rw [val_main_v22_apply]
  unfold Scalar.select
  split
  · rw [val_main_v21_apply, Ideal.hostUnary_rsqrt_def]
    refine hc_rsqrt_of_one_le _ ?_
    rw [val_main_v20_apply, Ideal.maximumf_def, val_main_v19_apply, val_main_cst_2_apply, Ideal.ofBits_def]
    refine le_max_of_le_right (le_of_eq ?_)
    rw [show (1 : EReal) = ((1 : ℝ) : EReal) by norm_cast]
    simp [Ideal.ofBits, Ideal.ieee, -EReal.coe_mul]; norm_num
  · rw [val_main_call1_v1_apply, val_main_call1_v0_apply, val_main_cst_3_apply, Ideal.ofBits_def, Ideal.ofBits_zero_f32]
    exact ⟨le_refl _, EReal.zero_ne_top⟩

/-- The node factor of node `n`. -/
def hc_d (x1 : IVec S2x800000 32) (n : Fin 50000) : EReal := val_main_v22 (F := Ideal) x1 (ix1 n)

/-- The messages whose destination word lands on node `n`. -/
def hc_S (x1 : IVec S2x800000 32) (n : Fin 50000) : Finset (Fin 850000) :=
  Finset.univ.filter (fun e : Fin 850000 => land 50000 (val_main_v50 (F := Ideal) x1 (ix2 e (0 : Fin 1))) = some n)

/-- The row the wrapped source word of message `e` picks. -/
def hc_p (x1 : IVec S2x800000 32) (e : Fin 850000) : Fin 50000 :=
  pick 50000 (by decide) (val_main_v45 (F := Ideal) x1 (ix2 e (0 : Fin 1)))

/-- The row the wrapped destination word of message `e` picks. -/
def hc_q (x1 : IVec S2x800000 32) (e : Fin 850000) : Fin 50000 :=
  pick 50000 (by decide) (val_main_v35 (F := Ideal) x1 (ix2 e (0 : Fin 1)))

/-- Row `p e` of `h·w`, column `c`. -/
def hc_a (h : FVec Ideal S50000x128 .f32) (w : FVec Ideal S128x128 .f32) (x1 : IVec S2x800000 32)
    (e : Fin 850000) (c : Fin 128) : EReal :=
  ∑ k : Fin 128, h (ix2 (hc_p x1 e) k) * w (ix2 k c)

/-- The scatters' operand is the zero array. -/
theorem hc_v49_apply (i : S50000x128.Idx) : val_main_v49 (F := Ideal) i = 0 := by
  rw [val_main_v49_apply, val_main_cst_9_apply, Ideal.ofBits_def, Ideal.ofBits_zero_f32]

/-- The one-column matrix of node factors at row `n`. -/
theorem hc_disCol_apply (x1 : IVec S2x800000 32) (n : Fin 50000) :
    disCol x1 (ix2 n (0 : Fin 1)) = hc_d x1 n := by
  unfold disCol hc_d
  generalize val_main_v22 (F := Ideal) x1 = y
  exact shapeCast_apply y _ (ix2 n (0 : Fin 1)) (ix1 n)
    (by rw [Shape.rowMajor_val_two, Shape.rowMajor_val_one]; show n.val = n.val * 1 + 0; omega)

/-- The one-row matrix of a bias at column `c`. -/
theorem hc_row128_apply (b : FVec Ideal S128 .f32) (c : Fin 128) :
    row128 b (ix2 (0 : Fin 1) c) = b (ix1 c) := by
  unfold row128
  exact shapeCast_apply b _ (ix2 (0 : Fin 1) c) (ix1 c)
    (by rw [Shape.rowMajor_val_two, Shape.rowMajor_val_one]; show c.val = 0 * 128 + c.val; omega)

/-- The kernel's layer at an element. -/
theorem hc_kLayer_apply (h : FVec Ideal S50000x128 .f32) (w : FVec Ideal S128x128 .f32) (b : FVec Ideal S128 .f32)
    (x1 : IVec S2x800000 32) (n : Fin 50000) (c : Fin 128) :
    kLayer h w b x1 (ix2 n c)
      = max ((0 + ∑ e ∈ hc_S x1 n, hc_a h w x1 e c * hc_d x1 (hc_p x1 e)) * hc_d x1 n + b (ix1 c)) 0 := by
  unfold kLayer
  rw [brsRows_apply, hc_disCol_apply, hc_row128_apply]
  refine congrArg (fun t : EReal => max (t * hc_d x1 n + b (ix1 c)) 0) ?_
  refine (scatterAdd_rows_apply scatter_S50000x128_S850000x1_S850000x128_1_0_0_1_wf (val_main_v49 (F := Ideal))
    (val_main_v50 (F := Ideal) x1) _ n c).trans ?_
  rw [hc_v49_apply]
  refine congrArg (fun t : EReal => 0 + t) ?_
  refine Finset.sum_congr rfl fun e _ => ?_
  refine (gather_rows_apply (by decide) gather_S50000x128_S850000x1_S850000x128_1_0_n_n_0_1_1128_wf
    (linRows h w (disCol x1)) (val_main_v45 (F := Ideal) x1) e c).trans ?_
  show linRows h w (disCol x1) (ix2 (hc_p x1 e) c) = _
  rw [linRows_apply, hc_disCol_apply]
  rfl

/-- The two wrapped copies of the source words are one array. -/
theorem hc_v28_eq (x1 : IVec S2x800000 32) : val_main_v28 (F := Ideal) x1 = val_main_v45 (F := Ideal) x1 := rfl

/-- The reference's message scale at an element: the node factors of the message's two ends. -/
theorem hc_v47_apply (x1 : IVec S2x800000 32) (e : Fin 850000) (c : Fin 128) :
    val_main_v47 (F := Ideal) x1 (ix2 e c) = hc_d x1 (hc_p x1 e) * hc_d x1 (hc_q x1 e) := by
  rw [val_main_v47_apply, val_main_v38_apply,
    show idx_main_v38 (idx_main_v47 (ix2 e c)) = ix1 e from
      funext fun a => Fin.ext (by match a with | ⟨0, _⟩ => rfl),
    val_main_v37_apply, Ideal.mulf_def]
  unfold val_main_v29 val_main_v36
  rw [hc_v28_eq]
  refine congrArg₂ (fun s t : EReal => s * t) ?_ ?_
  · exact gather_vec_apply (by decide) gather_S50000_S850000x1_S850000_n_0_n_n_0_1_1_wf
      (val_main_v22 (F := Ideal) x1) (val_main_v45 (F := Ideal) x1) e
  · exact gather_vec_apply (by decide) gather_S50000_S850000x1_S850000_n_0_n_n_0_1_1_wf
      (val_main_v22 (F := Ideal) x1) (val_main_v35 (F := Ideal) x1) e

/-- The reference's broadcast bias at an element. -/
theorem hc_v53_apply (b : FVec Ideal S128 .f32) (n : Fin 50000) (c : Fin 128) :
    val_main_v53 (F := Ideal) b (ix2 n c) = b (ix1 c) := by
  rw [val_main_v53_apply, val_main_v52_apply]
  exact congrArg b (funext fun a => Fin.ext (by match a with | ⟨0, _⟩ => rfl))

/-- The array the reference takes the maximum with is the zero array. -/
theorem hc_call2_v0_apply (i : S50000x128.Idx) : val_main_call2_v0 (F := Ideal) i = 0 := by
  rw [val_main_call2_v0_apply, val_main_call2_cst_apply, Ideal.ofBits_def, Ideal.ofBits_zero_f32]

/-- The reference's layer at an element. -/
theorem hc_rLayer_apply (h : FVec Ideal S50000x128 .f32) (w : FVec Ideal S128x128 .f32) (b : FVec Ideal S128 .f32)
    (x1 : IVec S2x800000 32) (n : Fin 50000) (c : Fin 128) :
    rLayer h w b x1 (ix2 n c)
      = max ((0 + ∑ e ∈ hc_S x1 n, hc_a h w x1 e c * (hc_d x1 (hc_p x1 e) * hc_d x1 (hc_q x1 e))) + b (ix1 c)) 0 := by
  unfold rLayer
  rw [maximumf_apply, addf_apply, hc_v53_apply, hc_call2_v0_apply]
  refine congrArg (fun t : EReal => max (t + b (ix1 c)) 0) ?_
  refine (scatterAdd_rows_apply scatter_S50000x128_S850000x1_S850000x128_1_0_0_1_wf (val_main_v49 (F := Ideal))
    (val_main_v50 (F := Ideal) x1) _ n c).trans ?_
  rw [hc_v49_apply]
  refine congrArg (fun t : EReal => 0 + t) ?_
  refine Finset.sum_congr rfl fun e _ => ?_
  rw [mulf_apply, hc_v47_apply]
  refine congrArg (fun t : EReal => t * (hc_d x1 (hc_p x1 e) * hc_d x1 (hc_q x1 e))) ?_
  refine (gather_rows_apply (by decide) gather_S50000x128_S850000x1_S850000x128_1_0_n_n_0_1_1128_wf
    (Host.dotGeneral (F := Ideal) dot_S50000x128_S128x128_S50000x128_1_0_0_1_n_n none h w) (val_main_v45 (F := Ideal) x1) e c).trans ?_
  exact Cert.PlainDot.dotGeneral_apply 50000 128 128 none _ h w (ix2 (hc_p x1 e) c)

/-- A message whose destination word lands on `n` has its wrapped destination word pick `n`. -/
theorem hc_q_of_mem (x1 : IVec S2x800000 32) (n : Fin 50000) (e : Fin 850000) (he : e ∈ hc_S x1 n) :
    hc_q x1 e = n := by
  have hl : land 50000 (val_main_v50 (F := Ideal) x1 (ix2 e (0 : Fin 1))) = some n := (Finset.mem_filter.mp he).2
  have h50 : val_main_v50 (F := Ideal) x1 (ix2 e (0 : Fin 1)) = val_main_v12 (F := Ideal) x1 (ix1 e) := by
    rw [val_main_v50_apply]
    exact congrArg (val_main_v12 (F := Ideal) x1) (funext fun a => Fin.ext (by match a with | ⟨0, _⟩ => rfl))
  have hnn : 0 ≤ (val_main_v12 (F := Ideal) x1 (ix1 e)).toInt := by
    rw [← h50]
    exact toInt_nonneg_of_land _ n hl
  have hc : ¬ IntOp.cmpi .slt (val_main_v12 (F := Ideal) x1 (ix1 e)) 0#32 = 1#1 := by
    rw [IntOp.cmpi_slt, BitVec.toInt_zero]
    omega
  have h35 : val_main_v35 (F := Ideal) x1 (ix2 e (0 : Fin 1)) = val_main_v12 (F := Ideal) x1 (ix1 e) := by
    rw [val_main_v35_apply,
      show idx_main_v35 (ix2 e (0 : Fin 1)) = ix1 e from
        funext fun a => Fin.ext (by match a with | ⟨0, _⟩ => rfl),
      val_main_v34_apply, val_main_v31_apply, val_main_v30_apply, val_main_c_5_apply, eq_zero_of_ne_one hc,
      select_zero]
  unfold hc_q
  rw [h35, ← h50]
  exact pick_of_land (by decide) _ n hl

/-- One graph layer as the kernel computes it is the layer as the reference computes it. -/
theorem layer_eq (h : FVec Ideal S50000x128 .f32) (w : FVec Ideal S128x128 .f32) (b : FVec Ideal S128 .f32)
    (x1 : IVec S2x800000 32) :
    Cert.Stages.kLayer h w b x1 = Cert.Stages.rLayer h w b x1 := by
  funext i
  obtain ⟨n, c, rfl⟩ : ∃ (n : Fin 50000) (c : Fin 128), i = ix2 n c := ⟨i 0, i 1, eq_ix2 i⟩
  rw [hc_kLayer_apply, hc_rLayer_apply]
  refine congrArg (fun t : EReal => max (t + b (ix1 c)) 0) ?_
  have hd : 0 ≤ hc_d x1 n ∧ hc_d x1 n ≠ ⊤ := hc_d_bounds x1 (ix1 n)
  rw [zero_add, zero_add, hc_sum_mul _ _ _ hd.1 hd.2]
  refine Finset.sum_congr rfl fun e he => ?_
  rw [hc_q_of_mem x1 n e he, mul_assoc]

end Cert.Bridge

end
-- ==== Proof.lean ====
/-
  The proof of `Cert.Claim`: a graph network's edge classifier — a node encoder, three graph-convolution layers over
  the edges and one self-loop per node, an edge MLP on the two endpoint rows — as eight pipelined regions among host
  operations, against the plain array program.

  THE TWO PROGRAMS. Write `d[n] = where (deg[n] > 0) (rsqrt (max deg[n] 1)) 0` for the node factor, `deg[n]` counting
  the messages (edges and self-loops) whose destination word names node `n`. A layer of the reference takes
  `h` to `max (∑_{e → n} (h·W)[src e] · (d[src e] · d[dst e]) + b) 0`: each message is scaled by both endpoint factors
  before the messages of a destination are added. The kernel scales row `n` of `h·W` by `d[n]` inside the region that
  forms the product, gathers and adds the rows unscaled, and scales the sum of node `n` by `d[n]` inside the region that
  adds the bias: `max ((∑_{e → n} ((h·W)[src e] · d[src e])) · d[n] + b) 0`. The encoder and the edge MLP are the same
  expressions in both programs, with matrix products as sums over the contracted coordinate.

  WHY THEY AGREE ON THE EXTENDED REALS, for every input, finite or not, and every edge word. A message is added to node
  `n` exactly when its destination word, read signed, is `n`; such a word is not negative, so the wrap of negative
  words leaves it alone and the reference's gather `d[dst e]` picks `d[n]`. The factor `d[n]` is `0` or the reciprocal
  square root of a number that is at least `1`: a nonnegative real, never `+∞`. Multiplication by such a factor
  distributes over a sum of extended reals whatever the terms (the one place where an infinity could have mattered), and
  multiplication is associative; that is the layer identity (BridgeLayer.lean). A change of float format is the identity
  there, so the kernel's narrower formats inside the products and for the last layer's output change nothing. The
  precondition is not used.

  THE ROAD. Kernel side: the launch theorem of the generated frame, read at one more buffer (KRun.lean), leaves the
  result at the last of sixteen segment boundaries; each region acts on the buffers as one more host operation writing
  its output array with the region's whole-array function (LibRegionOp.lean; the four functions: Spec.lean; that the
  regions compute them, blocks to array: RegEnc, RegLin, RegBrs, RegMlp), so the boundary reads back in one pass to the
  kernel's chain of stages (KFold.lean, KValue.lean). Reference side: its generated run and its stages read one
  operation at a time (RefRunP, RefReadQ, RefRunEq), regrouped as encoder, three layers, tail (RefChain.lean). The
  bridge: encoder and tail (BridgeEnds.lean) and the layer identity, used three times.
  The frames of the two kernel programs are the generated ones; the reference's frame is its run with the result
  forgotten; the ideal pass rewrote nothing, so there is nothing to preserve.
-/
import proofs.«179396_j45741401703144_2_alg».proof.Defs
import proofs.«179396_j45741401703144_2_alg».proof.Proof.Gen.Kernel
import proofs.«179396_j45741401703144_2_alg».proof.Proof.Gen.Kernel.Frame
import proofs.«179396_j45741401703144_2_alg».proof.Proof.Gen.KernelIdeal
import proofs.«179396_j45741401703144_2_alg».proof.Proof.Gen.KernelIdeal.Frame
import proofs.«179396_j45741401703144_2_alg».proof.Proof.Gen.ReferenceIdeal
import proofs.«179396_j45741401703144_2_alg».proof.Proof.Gen.Pre_finite_inputs
import proofs.«179396_j45741401703144_2_alg».proof.Proof.KRun
import proofs.«179396_j45741401703144_2_alg».proof.Proof.KValue
import proofs.«179396_j45741401703144_2_alg».proof.Proof.RefRunEq
import proofs.«179396_j45741401703144_2_alg».proof.Proof.RefChain
import proofs.«179396_j45741401703144_2_alg».proof.Proof.BridgeEnds
import proofs.«179396_j45741401703144_2_alg».proof.Proof.BridgeLayer
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The reference's chain of stages is the kernel's: encoder and tail agree and each layer is the layer identity. -/
theorem chain_eq (x0 : FVec Ideal Cert.ReferenceIdeal.S50000x4 .f32) (x1 : IVec Cert.ReferenceIdeal.S2x800000 32)
    (x2 : FVec Ideal Cert.ReferenceIdeal.S4x128 .f32) (x3 : FVec Ideal Cert.ReferenceIdeal.S128 .f32)
    (x4 : FVec Ideal Cert.ReferenceIdeal.S128x128 .f32) (x5 : FVec Ideal Cert.ReferenceIdeal.S128 .f32)
    (x6 : FVec Ideal Cert.ReferenceIdeal.S128x128 .f32) (x7 : FVec Ideal Cert.ReferenceIdeal.S128 .f32)
    (x8 : FVec Ideal Cert.ReferenceIdeal.S128x128 .f32) (x9 : FVec Ideal Cert.ReferenceIdeal.S128 .f32)
    (x10 : FVec Ideal Cert.ReferenceIdeal.S256x128 .f32) (x11 : FVec Ideal Cert.ReferenceIdeal.S128 .f32)
    (x12 : FVec Ideal Cert.ReferenceIdeal.S128x3 .f32) (x13 : FVec Ideal Cert.ReferenceIdeal.S3 .f32) :
    Cert.ReferenceIdeal.ReadP.val_main_v117 (F := Ideal) x0 x1 x2 x3 x4 x5 x6 x7 x8 x9 x10 x11 x12 x13
      = Cert.Stages.kTail (Cert.Stages.kLayer (Cert.Stages.kLayer (Cert.Stages.kLayer (Cert.Stages.kEnc x0 x2 x3)
          x4 x5 x1) x6 x7 x1) x8 x9 x1) x1 x10 x11 x12 x13 := by
  rw [Cert.Bridge.ref_chain, Cert.Bridge.enc_eq, Cert.Bridge.layer_eq, Cert.Bridge.layer_eq, Cert.Bridge.layer_eq,
    Cert.Bridge.tail_eq]

/-- From memories agreeing on the arguments both idealized programs run, keep their arguments, and end with the same
    result: the kernel's chain of stages of the arguments. -/
theorem algebraic : Cert.algebraic_KernelIdeal_ReferenceIdeal := by
  intro m ρ m' ρ' _ hagree
  refine ⟨fun c => Cert.Stages.kTail (Cert.Stages.kLayer (Cert.Stages.kLayer (Cert.Stages.kLayer
        (Cert.Stages.kEnc (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg1))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg1)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KValue.result_eq m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v117_eq, chain_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
